-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v180) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x64x6000 : Shape := ⟨3, ![64, 64, 6000]⟩
abbrev S_ : Shape := ⟨0, ![]⟩

class Facts : Prop where
  bcast_S_S64x64x6000 : S_.BroadcastsInDim S64x64x6000 (![] : Fin 0 → Fin S64x64x6000.rank)
  reducesTo_S64x64x6000_S_d0_1_2 : S64x64x6000.ReducesTo [0, 1, 2] S_
  h_S_ : 0 < S_.numel

variable [Facts]

def fn {F : FTy → Type} [FloatOps F] (main_arg0 : FVec F S64x64x6000 .f32) : IVec S_ 1 :=
  let main_v0 : FVec F S64x64x6000 .f32 := Host.absf main_arg0
  let main_cst : FVec F S_ .f32 := constant S_ .f32 0x7F800000#32
  let main_v1 : FVec F S64x64x6000 .f32 := broadcastInDim S64x64x6000 ![] bcast_S_S64x64x6000 main_cst
  let main_v2 : IVec S64x64x6000 1 := cmpf .olt main_v0 main_v1
  let main_c : IVec S_ 1 := constantI S_ 1 1#1
  let main_v3 : IVec S_ 1 := (fun x v => Host.reduce IntOp.andi x v reducesTo_S64x64x6000_S_d0_1_2 h_S_) main_v2 main_c
  main_v3
-- ==== Kernel.lean ====
abbrev S64x64x6000 : Shape := ⟨3, ![64, 64, 6000]⟩
abbrev S64x10x4096 : Shape := ⟨3, ![64, 10, 4096]⟩
abbrev S8x64x6000 : Shape := ⟨3, ![8, 64, 6000]⟩
abbrev S8x10x4096 : Shape := ⟨3, ![8, 10, 4096]⟩
abbrev S64x64 : Shape := ⟨2, ![64, 64]⟩
abbrev S1x64x64 : Shape := ⟨3, ![1, 64, 64]⟩
abbrev S8x64x64 : Shape := ⟨3, ![8, 64, 64]⟩
abbrev S8x64x600 : Shape := ⟨3, ![8, 64, 600]⟩
abbrev S8x64 : Shape := ⟨2, ![8, 64]⟩
abbrev S8x64x1 : Shape := ⟨3, ![8, 64, 1]⟩
abbrev S8x1x64 : Shape := ⟨3, ![8, 1, 64]⟩
abbrev S8x4096 : Shape := ⟨2, ![8, 4096]⟩
abbrev S8x1x4096 : Shape := ⟨3, ![8, 1, 4096]⟩
abbrev S64x10x64x64 : Shape := ⟨4, ![64, 10, 64, 64]⟩

abbrev nBuf : Space → Nat
  | .hbm => 3
  | .vmem => 4
  | .smem => 0
  | _ => 0

abbrev bufTy : (tb : Table) → Fin (tcTables nBuf tb) → BufTy
  | .hbm, ⟨0, _⟩ => ⟨S64x64x6000, .f32⟩
  | .hbm, ⟨1, _⟩ => ⟨S64x10x4096, .f32⟩
  | .hbm, ⟨2, _⟩ => ⟨S64x10x64x64, .f32⟩
  | .local _ .vmem, ⟨0, _⟩ => ⟨S8x64x6000, .f32⟩
  | .local _ .vmem, ⟨1, _⟩ => ⟨S8x64x6000, .f32⟩
  | .local _ .vmem, ⟨2, _⟩ => ⟨S8x10x4096, .f32⟩
  | .local _ .vmem, ⟨3, _⟩ => ⟨S8x10x4096, .f32⟩
  | _, _ => ⟨S64x64x6000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x64x6000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x10x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  iota_S64x64_d0_w32 : S64x64.Iotas .tc 32 [0]
  iota_S64x64_d1_w32 : S64x64.Iotas .tc 32 [1]
  natLt_1_32 : 1 < 32
  shapeCasts_S64x64_S1x64x64 : S64x64.ShapeCasts S1x64x64
  shapeCasts_S1x64x64_S1x64x64 : S1x64x64.ShapeCasts S1x64x64
  broadcasts_S1x64x64_S8x64x64 : S1x64x64.Broadcasts S8x64x64
  inb_S8x64x6000_S8x64x600_0_0_0 : ∀ a, (![0, 0, 0] : Fin 3 → Nat) a + S8x64x600.size a ≤ S8x64x6000.size a
  h_S8x64x600 : 0 < S8x64x600.numel
  reduces_S8x64x600_S8x64 : S8x64x600.Reduces [2] S8x64
  shapeCasts_S8x64_S8x64x1 : S8x64.ShapeCasts S8x64x1
  bitsLt_bf16_f32 : FTy.bits .bf16 < FTy.bits .f32
  shapeCasts_S8x64x1_S8x64 : S8x64x1.ShapeCasts S8x64
  shapeCasts_S8x64_S8x1x64 : S8x64.ShapeCasts S8x1x64
  broadcasts_S8x64x1_S8x64x64 : S8x64x1.Broadcasts S8x64x64
  broadcasts_S8x1x64_S8x64x64 : S8x1x64.Broadcasts S8x64x64
  reduces_S8x64x64_S8x64 : S8x64x64.Reduces [2] S8x64
  shapeCasts_S8x64x64_S8x4096 : S8x64x64.ShapeCasts S8x4096
  inb_S8x10x4096_S8x1x4096_0_0_0 : ∀ a, (![0, 0, 0] : Fin 3 → Nat) a + S8x1x4096.size a ≤ S8x10x4096.size a
  h_S8x1x4096 : 0 < S8x1x4096.numel
  shapeCasts_S8x1x4096_S8x4096 : S8x1x4096.ShapeCasts S8x4096
  shapeCasts_S8x4096_S8x1x4096 : S8x4096.ShapeCasts S8x1x4096
  inb_S8x64x6000_S8x64x600_0_0_600 : ∀ a, (![0, 0, 600] : Fin 3 → Nat) a + S8x64x600.size a ≤ S8x64x6000.size a
  inb_S8x10x4096_S8x1x4096_0_1_0 : ∀ a, (![0, 1, 0] : Fin 3 → Nat) a + S8x1x4096.size a ≤ S8x10x4096.size a
  inb_S8x64x6000_S8x64x600_0_0_1200 : ∀ a, (![0, 0, 1200] : Fin 3 → Nat) a + S8x64x600.size a ≤ S8x64x6000.size a
  inb_S8x10x4096_S8x1x4096_0_2_0 : ∀ a, (![0, 2, 0] : Fin 3 → Nat) a + S8x1x4096.size a ≤ S8x10x4096.size a
  inb_S8x64x6000_S8x64x600_0_0_1800 : ∀ a, (![0, 0, 1800] : Fin 3 → Nat) a + S8x64x600.size a ≤ S8x64x6000.size a
  inb_S8x10x4096_S8x1x4096_0_3_0 : ∀ a, (![0, 3, 0] : Fin 3 → Nat) a + S8x1x4096.size a ≤ S8x10x4096.size a
  inb_S8x64x6000_S8x64x600_0_0_2400 : ∀ a, (![0, 0, 2400] : Fin 3 → Nat) a + S8x64x600.size a ≤ S8x64x6000.size a
  inb_S8x10x4096_S8x1x4096_0_4_0 : ∀ a, (![0, 4, 0] : Fin 3 → Nat) a + S8x1x4096.size a ≤ S8x10x4096.size a
  inb_S8x64x6000_S8x64x600_0_0_3000 : ∀ a, (![0, 0, 3000] : Fin 3 → Nat) a + S8x64x600.size a ≤ S8x64x6000.size a
  inb_S8x10x4096_S8x1x4096_0_5_0 : ∀ a, (![0, 5, 0] : Fin 3 → Nat) a + S8x1x4096.size a ≤ S8x10x4096.size a
  inb_S8x64x6000_S8x64x600_0_0_3600 : ∀ a, (![0, 0, 3600] : Fin 3 → Nat) a + S8x64x600.size a ≤ S8x64x6000.size a
  inb_S8x10x4096_S8x1x4096_0_6_0 : ∀ a, (![0, 6, 0] : Fin 3 → Nat) a + S8x1x4096.size a ≤ S8x10x4096.size a
  inb_S8x64x6000_S8x64x600_0_0_4200 : ∀ a, (![0, 0, 4200] : Fin 3 → Nat) a + S8x64x600.size a ≤ S8x64x6000.size a
  inb_S8x10x4096_S8x1x4096_0_7_0 : ∀ a, (![0, 7, 0] : Fin 3 → Nat) a + S8x1x4096.size a ≤ S8x10x4096.size a
  inb_S8x64x6000_S8x64x600_0_0_4800 : ∀ a, (![0, 0, 4800] : Fin 3 → Nat) a + S8x64x600.size a ≤ S8x64x6000.size a
  inb_S8x10x4096_S8x1x4096_0_8_0 : ∀ a, (![0, 8, 0] : Fin 3 → Nat) a + S8x1x4096.size a ≤ S8x10x4096.size a
  inb_S8x64x6000_S8x64x600_0_0_5400 : ∀ a, (![0, 0, 5400] : Fin 3 → Nat) a + S8x64x600.size a ≤ S8x64x6000.size a
  inb_S8x10x4096_S8x1x4096_0_9_0 : ∀ a, (![0, 9, 0] : Fin 3 → Nat) a + S8x1x4096.size a ≤ S8x10x4096.size a
  shapeCasts_S64x10x4096_S64x10x64x64 : S64x10x4096.ShapeCasts S64x10x64x64
  dot_S8x64x600_S8x64x600_S8x64x64_2_2_1_1_0_0_wf : DotDims.WF S8x64x600 S8x64x600 S8x64x64 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x64x6000.size a ≤ S64x64x6000.size a
  hwx0_0 : ∀ i : grid0.Coords, EltTy.bits .f32 = 32 ∨ (Rect.block (s := S64x64x6000) S8x64x6000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x10x4096.size a ≤ S64x10x4096.size a
  hwx0_1 : ∀ i : grid0.Coords, EltTy.bits .f32 = 32 ∨ (Rect.block (s := S64x10x4096) S8x10x4096.size (cc0_transform_1 i) (hinb0_1 i)).WholeWords (EltTy.packing .f32)

variable [Facts₀]

def dot_S8x64x600_S8x64x600_S8x64x64_2_2_1_1_0_0 : DotDims S8x64x600 S8x64x600 S8x64x64 where
  lhsContracting := [2]
  rhsContracting := [2]
  lhsNonContracting := [1]
  rhsNonContracting := [1]
  lhsBatch := [0]
  rhsBatch := [0]
  wf := dot_S8x64x600_S8x64x600_S8x64x64_2_2_1_1_0_0_wf

abbrev win0_0 : Pipeline.Window sig grid0 :=
  Pipeline.Window.ofSpec (Memref.whole main_arg0) S8x64x6000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x10x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x64x6000 : Shape := ⟨3, ![64, 64, 6000]⟩
abbrev S64x64x600 : Shape := ⟨3, ![64, 64, 600]⟩
abbrev S_ : Shape := ⟨0, ![]⟩
abbrev S64x64 : Shape := ⟨2, ![64, 64]⟩
abbrev S64x64x1 : Shape := ⟨3, ![64, 64, 1]⟩
abbrev S64x64x64 : Shape := ⟨3, ![64, 64, 64]⟩
abbrev S64 : Shape := ⟨1, ![64]⟩
abbrev S64x1 : Shape := ⟨2, ![64, 1]⟩
abbrev S64x2 : Shape := ⟨2, ![64, 2]⟩
abbrev S64x1x64 : Shape := ⟨3, ![64, 1, 64]⟩
abbrev S64x1x64x64 : Shape := ⟨4, ![64, 1, 64, 64]⟩
abbrev S64x10x64x64 : Shape := ⟨4, ![64, 10, 64, 64]⟩

abbrev nBuf : Space → Nat
  | .hbm => 462
  | .vmem => 0
  | .smem => 0
  | _ => 0

abbrev hbmTy0_0 (i : Nat) : BufTy := match i % 128 with
  | 0 => ⟨S64x64x6000, .f32⟩
  | 1 => ⟨S64x64x600, .f32⟩
  | 2 => ⟨S_, .f32⟩
  | 3 => ⟨S64x64, .f32⟩
  | 4 => ⟨S64x64x1, .f32⟩
  | 5 => ⟨S_, .f32⟩
  | 6 => ⟨S64x64x1, .f32⟩
  | 7 => ⟨S64x64x1, .f32⟩
  | 8 => ⟨S64x64x600, .f32⟩
  | 9 => ⟨S64x64x600, .f32⟩
  | 10 => ⟨S64x64x64, .f32⟩
  | 11 => ⟨S64, .i32⟩
  | 12 => ⟨S64, .i32⟩
  | 13 => ⟨S_, .i32⟩
  | 14 => ⟨S64, .i32⟩
  | 15 => ⟨S64, .i1⟩
  | 16 => ⟨S_, .i32⟩
  | 17 => ⟨S64, .i32⟩
  | 18 => ⟨S64, .i32⟩
  | 19 => ⟨S64, .i32⟩
  | 20 => ⟨S_, .i32⟩
  | 21 => ⟨S64, .i32⟩
  | 22 => ⟨S64, .i1⟩
  | 23 => ⟨S_, .i32⟩
  | 24 => ⟨S64, .i32⟩
  | 25 => ⟨S64, .i32⟩
  | 26 => ⟨S64, .i32⟩
  | 27 => ⟨S64x1, .i32⟩
  | 28 => ⟨S64x1, .i32⟩
  | 29 => ⟨S64x2, .i32⟩
  | 30 => ⟨S64x64, .f32⟩
  | 31 => ⟨S64x64, .f32⟩
  | 32 => ⟨S64x64x1, .f32⟩
  | 33 => ⟨S64x1x64, .f32⟩
  | 34 => ⟨S64x64x64, .f32⟩
  | 35 => ⟨S64x64x64, .f32⟩
  | 36 => ⟨S64x64x64, .f32⟩
  | 37 => ⟨S64x64x64, .f32⟩
  | 38 => ⟨S_, .f32⟩
  | 39 => ⟨S_, .f32⟩
  | 40 => ⟨S_, .f32⟩
  | 41 => ⟨S64x64x64, .f32⟩
  | 42 => ⟨S64x64x64, .f32⟩
  | 43 => ⟨S_, .f32⟩
  | 44 => ⟨S64x64x64, .f32⟩
  | 45 => ⟨S64x64x64, .f32⟩
  | 46 => ⟨S64x64x600, .f32⟩
  | 47 => ⟨S_, .f32⟩
  | 48 => ⟨S64x64, .f32⟩
  | 49 => ⟨S64x64x1, .f32⟩
  | 50 => ⟨S_, .f32⟩
  | 51 => ⟨S64x64x1, .f32⟩
  | 52 => ⟨S64x64x1, .f32⟩
  | 53 => ⟨S64x64x600, .f32⟩
  | 54 => ⟨S64x64x600, .f32⟩
  | 55 => ⟨S64x64x64, .f32⟩
  | 56 => ⟨S64, .i32⟩
  | 57 => ⟨S64, .i32⟩
  | 58 => ⟨S_, .i32⟩
  | 59 => ⟨S64, .i32⟩
  | 60 => ⟨S64, .i1⟩
  | 61 => ⟨S_, .i32⟩
  | 62 => ⟨S64, .i32⟩
  | 63 => ⟨S64, .i32⟩
  | 64 => ⟨S64, .i32⟩
  | 65 => ⟨S_, .i32⟩
  | 66 => ⟨S64, .i32⟩
  | 67 => ⟨S64, .i1⟩
  | 68 => ⟨S_, .i32⟩
  | 69 => ⟨S64, .i32⟩
  | 70 => ⟨S64, .i32⟩
  | 71 => ⟨S64, .i32⟩
  | 72 => ⟨S64x1, .i32⟩
  | 73 => ⟨S64x1, .i32⟩
  | 74 => ⟨S64x2, .i32⟩
  | 75 => ⟨S64x64, .f32⟩
  | 76 => ⟨S64x64, .f32⟩
  | 77 => ⟨S64x64x1, .f32⟩
  | 78 => ⟨S64x1x64, .f32⟩
  | 79 => ⟨S64x64x64, .f32⟩
  | 80 => ⟨S64x64x64, .f32⟩
  | 81 => ⟨S64x64x64, .f32⟩
  | 82 => ⟨S64x64x64, .f32⟩
  | 83 => ⟨S_, .f32⟩
  | 84 => ⟨S_, .f32⟩
  | 85 => ⟨S_, .f32⟩
  | 86 => ⟨S64x64x64, .f32⟩
  | 87 => ⟨S64x64x64, .f32⟩
  | 88 => ⟨S_, .f32⟩
  | 89 => ⟨S64x64x64, .f32⟩
  | 90 => ⟨S64x64x64, .f32⟩
  | 91 => ⟨S64x64x600, .f32⟩
  | 92 => ⟨S_, .f32⟩
  | 93 => ⟨S64x64, .f32⟩
  | 94 => ⟨S64x64x1, .f32⟩
  | 95 => ⟨S_, .f32⟩
  | 96 => ⟨S64x64x1, .f32⟩
  | 97 => ⟨S64x64x1, .f32⟩
  | 98 => ⟨S64x64x600, .f32⟩
  | 99 => ⟨S64x64x600, .f32⟩
  | 100 => ⟨S64x64x64, .f32⟩
  | 101 => ⟨S64, .i32⟩
  | 102 => ⟨S64, .i32⟩
  | 103 => ⟨S_, .i32⟩
  | 104 => ⟨S64, .i32⟩
  | 105 => ⟨S64, .i1⟩
  | 106 => ⟨S_, .i32⟩
  | 107 => ⟨S64, .i32⟩
  | 108 => ⟨S64, .i32⟩
  | 109 => ⟨S64, .i32⟩
  | 110 => ⟨S_, .i32⟩
  | 111 => ⟨S64, .i32⟩
  | 112 => ⟨S64, .i1⟩
  | 113 => ⟨S_, .i32⟩
  | 114 => ⟨S64, .i32⟩
  | 115 => ⟨S64, .i32⟩
  | 116 => ⟨S64, .i32⟩
  | 117 => ⟨S64x1, .i32⟩
  | 118 => ⟨S64x1, .i32⟩
  | 119 => ⟨S64x2, .i32⟩
  | 120 => ⟨S64x64, .f32⟩
  | 121 => ⟨S64x64, .f32⟩
  | 122 => ⟨S64x64x1, .f32⟩
  | 123 => ⟨S64x1x64, .f32⟩
  | 124 => ⟨S64x64x64, .f32⟩
  | 125 => ⟨S64x64x64, .f32⟩
  | 126 => ⟨S64x64x64, .f32⟩
  | 127 => ⟨S64x64x64, .f32⟩
  | _ => ⟨S64x64x6000, .f32⟩

abbrev hbmTy0_1 (i : Nat) : BufTy := match i % 128 with
  | 0 => ⟨S_, .f32⟩
  | 1 => ⟨S_, .f32⟩
  | 2 => ⟨S_, .f32⟩
  | 3 => ⟨S64x64x64, .f32⟩
  | 4 => ⟨S64x64x64, .f32⟩
  | 5 => ⟨S_, .f32⟩
  | 6 => ⟨S64x64x64, .f32⟩
  | 7 => ⟨S64x64x64, .f32⟩
  | 8 => ⟨S64x64x600, .f32⟩
  | 9 => ⟨S_, .f32⟩
  | 10 => ⟨S64x64, .f32⟩
  | 11 => ⟨S64x64x1, .f32⟩
  | 12 => ⟨S_, .f32⟩
  | 13 => ⟨S64x64x1, .f32⟩
  | 14 => ⟨S64x64x1, .f32⟩
  | 15 => ⟨S64x64x600, .f32⟩
  | 16 => ⟨S64x64x600, .f32⟩
  | 17 => ⟨S64x64x64, .f32⟩
  | 18 => ⟨S64, .i32⟩
  | 19 => ⟨S64, .i32⟩
  | 20 => ⟨S_, .i32⟩
  | 21 => ⟨S64, .i32⟩
  | 22 => ⟨S64, .i1⟩
  | 23 => ⟨S_, .i32⟩
  | 24 => ⟨S64, .i32⟩
  | 25 => ⟨S64, .i32⟩
  | 26 => ⟨S64, .i32⟩
  | 27 => ⟨S_, .i32⟩
  | 28 => ⟨S64, .i32⟩
  | 29 => ⟨S64, .i1⟩
  | 30 => ⟨S_, .i32⟩
  | 31 => ⟨S64, .i32⟩
  | 32 => ⟨S64, .i32⟩
  | 33 => ⟨S64, .i32⟩
  | 34 => ⟨S64x1, .i32⟩
  | 35 => ⟨S64x1, .i32⟩
  | 36 => ⟨S64x2, .i32⟩
  | 37 => ⟨S64x64, .f32⟩
  | 38 => ⟨S64x64, .f32⟩
  | 39 => ⟨S64x64x1, .f32⟩
  | 40 => ⟨S64x1x64, .f32⟩
  | 41 => ⟨S64x64x64, .f32⟩
  | 42 => ⟨S64x64x64, .f32⟩
  | 43 => ⟨S64x64x64, .f32⟩
  | 44 => ⟨S64x64x64, .f32⟩
  | 45 => ⟨S_, .f32⟩
  | 46 => ⟨S_, .f32⟩
  | 47 => ⟨S_, .f32⟩
  | 48 => ⟨S64x64x64, .f32⟩
  | 49 => ⟨S64x64x64, .f32⟩
  | 50 => ⟨S_, .f32⟩
  | 51 => ⟨S64x64x64, .f32⟩
  | 52 => ⟨S64x64x64, .f32⟩
  | 53 => ⟨S64x64x600, .f32⟩
  | 54 => ⟨S_, .f32⟩
  | 55 => ⟨S64x64, .f32⟩
  | 56 => ⟨S64x64x1, .f32⟩
  | 57 => ⟨S_, .f32⟩
  | 58 => ⟨S64x64x1, .f32⟩
  | 59 => ⟨S64x64x1, .f32⟩
  | 60 => ⟨S64x64x600, .f32⟩
  | 61 => ⟨S64x64x600, .f32⟩
  | 62 => ⟨S64x64x64, .f32⟩
  | 63 => ⟨S64, .i32⟩
  | 64 => ⟨S64, .i32⟩
  | 65 => ⟨S_, .i32⟩
  | 66 => ⟨S64, .i32⟩
  | 67 => ⟨S64, .i1⟩
  | 68 => ⟨S_, .i32⟩
  | 69 => ⟨S64, .i32⟩
  | 70 => ⟨S64, .i32⟩
  | 71 => ⟨S64, .i32⟩
  | 72 => ⟨S_, .i32⟩
  | 73 => ⟨S64, .i32⟩
  | 74 => ⟨S64, .i1⟩
  | 75 => ⟨S_, .i32⟩
  | 76 => ⟨S64, .i32⟩
  | 77 => ⟨S64, .i32⟩
  | 78 => ⟨S64, .i32⟩
  | 79 => ⟨S64x1, .i32⟩
  | 80 => ⟨S64x1, .i32⟩
  | 81 => ⟨S64x2, .i32⟩
  | 82 => ⟨S64x64, .f32⟩
  | 83 => ⟨S64x64, .f32⟩
  | 84 => ⟨S64x64x1, .f32⟩
  | 85 => ⟨S64x1x64, .f32⟩
  | 86 => ⟨S64x64x64, .f32⟩
  | 87 => ⟨S64x64x64, .f32⟩
  | 88 => ⟨S64x64x64, .f32⟩
  | 89 => ⟨S64x64x64, .f32⟩
  | 90 => ⟨S_, .f32⟩
  | 91 => ⟨S_, .f32⟩
  | 92 => ⟨S_, .f32⟩
  | 93 => ⟨S64x64x64, .f32⟩
  | 94 => ⟨S64x64x64, .f32⟩
  | 95 => ⟨S_, .f32⟩
  | 96 => ⟨S64x64x64, .f32⟩
  | 97 => ⟨S64x64x64, .f32⟩
  | 98 => ⟨S64x64x600, .f32⟩
  | 99 => ⟨S_, .f32⟩
  | 100 => ⟨S64x64, .f32⟩
  | 101 => ⟨S64x64x1, .f32⟩
  | 102 => ⟨S_, .f32⟩
  | 103 => ⟨S64x64x1, .f32⟩
  | 104 => ⟨S64x64x1, .f32⟩
  | 105 => ⟨S64x64x600, .f32⟩
  | 106 => ⟨S64x64x600, .f32⟩
  | 107 => ⟨S64x64x64, .f32⟩
  | 108 => ⟨S64, .i32⟩
  | 109 => ⟨S64, .i32⟩
  | 110 => ⟨S_, .i32⟩
  | 111 => ⟨S64, .i32⟩
  | 112 => ⟨S64, .i1⟩
  | 113 => ⟨S_, .i32⟩
  | 114 => ⟨S64, .i32⟩
  | 115 => ⟨S64, .i32⟩
  | 116 => ⟨S64, .i32⟩
  | 117 => ⟨S_, .i32⟩
  | 118 => ⟨S64, .i32⟩
  | 119 => ⟨S64, .i1⟩
  | 120 => ⟨S_, .i32⟩
  | 121 => ⟨S64, .i32⟩
  | 122 => ⟨S64, .i32⟩
  | 123 => ⟨S64, .i32⟩
  | 124 => ⟨S64x1, .i32⟩
  | 125 => ⟨S64x1, .i32⟩
  | 126 => ⟨S64x2, .i32⟩
  | 127 => ⟨S64x64, .f32⟩
  | _ => ⟨S64x64x6000, .f32⟩

abbrev hbmTy0_2 (i : Nat) : BufTy := match i % 128 with
  | 0 => ⟨S64x64, .f32⟩
  | 1 => ⟨S64x64x1, .f32⟩
  | 2 => ⟨S64x1x64, .f32⟩
  | 3 => ⟨S64x64x64, .f32⟩
  | 4 => ⟨S64x64x64, .f32⟩
  | 5 => ⟨S64x64x64, .f32⟩
  | 6 => ⟨S64x64x64, .f32⟩
  | 7 => ⟨S_, .f32⟩
  | 8 => ⟨S_, .f32⟩
  | 9 => ⟨S_, .f32⟩
  | 10 => ⟨S64x64x64, .f32⟩
  | 11 => ⟨S64x64x64, .f32⟩
  | 12 => ⟨S_, .f32⟩
  | 13 => ⟨S64x64x64, .f32⟩
  | 14 => ⟨S64x64x64, .f32⟩
  | 15 => ⟨S64x64x600, .f32⟩
  | 16 => ⟨S_, .f32⟩
  | 17 => ⟨S64x64, .f32⟩
  | 18 => ⟨S64x64x1, .f32⟩
  | 19 => ⟨S_, .f32⟩
  | 20 => ⟨S64x64x1, .f32⟩
  | 21 => ⟨S64x64x1, .f32⟩
  | 22 => ⟨S64x64x600, .f32⟩
  | 23 => ⟨S64x64x600, .f32⟩
  | 24 => ⟨S64x64x64, .f32⟩
  | 25 => ⟨S64, .i32⟩
  | 26 => ⟨S64, .i32⟩
  | 27 => ⟨S_, .i32⟩
  | 28 => ⟨S64, .i32⟩
  | 29 => ⟨S64, .i1⟩
  | 30 => ⟨S_, .i32⟩
  | 31 => ⟨S64, .i32⟩
  | 32 => ⟨S64, .i32⟩
  | 33 => ⟨S64, .i32⟩
  | 34 => ⟨S_, .i32⟩
  | 35 => ⟨S64, .i32⟩
  | 36 => ⟨S64, .i1⟩
  | 37 => ⟨S_, .i32⟩
  | 38 => ⟨S64, .i32⟩
  | 39 => ⟨S64, .i32⟩
  | 40 => ⟨S64, .i32⟩
  | 41 => ⟨S64x1, .i32⟩
  | 42 => ⟨S64x1, .i32⟩
  | 43 => ⟨S64x2, .i32⟩
  | 44 => ⟨S64x64, .f32⟩
  | 45 => ⟨S64x64, .f32⟩
  | 46 => ⟨S64x64x1, .f32⟩
  | 47 => ⟨S64x1x64, .f32⟩
  | 48 => ⟨S64x64x64, .f32⟩
  | 49 => ⟨S64x64x64, .f32⟩
  | 50 => ⟨S64x64x64, .f32⟩
  | 51 => ⟨S64x64x64, .f32⟩
  | 52 => ⟨S_, .f32⟩
  | 53 => ⟨S_, .f32⟩
  | 54 => ⟨S_, .f32⟩
  | 55 => ⟨S64x64x64, .f32⟩
  | 56 => ⟨S64x64x64, .f32⟩
  | 57 => ⟨S_, .f32⟩
  | 58 => ⟨S64x64x64, .f32⟩
  | 59 => ⟨S64x64x64, .f32⟩
  | 60 => ⟨S64x64x600, .f32⟩
  | 61 => ⟨S_, .f32⟩
  | 62 => ⟨S64x64, .f32⟩
  | 63 => ⟨S64x64x1, .f32⟩
  | 64 => ⟨S_, .f32⟩
  | 65 => ⟨S64x64x1, .f32⟩
  | 66 => ⟨S64x64x1, .f32⟩
  | 67 => ⟨S64x64x600, .f32⟩
  | 68 => ⟨S64x64x600, .f32⟩
  | 69 => ⟨S64x64x64, .f32⟩
  | 70 => ⟨S64, .i32⟩
  | 71 => ⟨S64, .i32⟩
  | 72 => ⟨S_, .i32⟩
  | 73 => ⟨S64, .i32⟩
  | 74 => ⟨S64, .i1⟩
  | 75 => ⟨S_, .i32⟩
  | 76 => ⟨S64, .i32⟩
  | 77 => ⟨S64, .i32⟩
  | 78 => ⟨S64, .i32⟩
  | 79 => ⟨S_, .i32⟩
  | 80 => ⟨S64, .i32⟩
  | 81 => ⟨S64, .i1⟩
  | 82 => ⟨S_, .i32⟩
  | 83 => ⟨S64, .i32⟩
  | 84 => ⟨S64, .i32⟩
  | 85 => ⟨S64, .i32⟩
  | 86 => ⟨S64x1, .i32⟩
  | 87 => ⟨S64x1, .i32⟩
  | 88 => ⟨S64x2, .i32⟩
  | 89 => ⟨S64x64, .f32⟩
  | 90 => ⟨S64x64, .f32⟩
  | 91 => ⟨S64x64x1, .f32⟩
  | 92 => ⟨S64x1x64, .f32⟩
  | 93 => ⟨S64x64x64, .f32⟩
  | 94 => ⟨S64x64x64, .f32⟩
  | 95 => ⟨S64x64x64, .f32⟩
  | 96 => ⟨S64x64x64, .f32⟩
  | 97 => ⟨S_, .f32⟩
  | 98 => ⟨S_, .f32⟩
  | 99 => ⟨S_, .f32⟩
  | 100 => ⟨S64x64x64, .f32⟩
  | 101 => ⟨S64x64x64, .f32⟩
  | 102 => ⟨S_, .f32⟩
  | 103 => ⟨S64x64x64, .f32⟩
  | 104 => ⟨S64x64x64, .f32⟩
  | 105 => ⟨S64x64x600, .f32⟩
  | 106 => ⟨S_, .f32⟩
  | 107 => ⟨S64x64, .f32⟩
  | 108 => ⟨S64x64x1, .f32⟩
  | 109 => ⟨S_, .f32⟩
  | 110 => ⟨S64x64x1, .f32⟩
  | 111 => ⟨S64x64x1, .f32⟩
  | 112 => ⟨S64x64x600, .f32⟩
  | 113 => ⟨S64x64x600, .f32⟩
  | 114 => ⟨S64x64x64, .f32⟩
  | 115 => ⟨S64, .i32⟩
  | 116 => ⟨S64, .i32⟩
  | 117 => ⟨S_, .i32⟩
  | 118 => ⟨S64, .i32⟩
  | 119 => ⟨S64, .i1⟩
  | 120 => ⟨S_, .i32⟩
  | 121 => ⟨S64, .i32⟩
  | 122 => ⟨S64, .i32⟩
  | 123 => ⟨S64, .i32⟩
  | 124 => ⟨S_, .i32⟩
  | 125 => ⟨S64, .i32⟩
  | 126 => ⟨S64, .i1⟩
  | 127 => ⟨S_, .i32⟩
  | _ => ⟨S64x64x6000, .f32⟩

abbrev hbmTy0_3 (i : Nat) : BufTy := match i % 128 with
  | 0 => ⟨S64, .i32⟩
  | 1 => ⟨S64, .i32⟩
  | 2 => ⟨S64, .i32⟩
  | 3 => ⟨S64x1, .i32⟩
  | 4 => ⟨S64x1, .i32⟩
  | 5 => ⟨S64x2, .i32⟩
  | 6 => ⟨S64x64, .f32⟩
  | 7 => ⟨S64x64, .f32⟩
  | 8 => ⟨S64x64x1, .f32⟩
  | 9 => ⟨S64x1x64, .f32⟩
  | 10 => ⟨S64x64x64, .f32⟩
  | 11 => ⟨S64x64x64, .f32⟩
  | 12 => ⟨S64x64x64, .f32⟩
  | 13 => ⟨S64x64x64, .f32⟩
  | 14 => ⟨S_, .f32⟩
  | 15 => ⟨S_, .f32⟩
  | 16 => ⟨S_, .f32⟩
  | 17 => ⟨S64x64x64, .f32⟩
  | 18 => ⟨S64x64x64, .f32⟩
  | 19 => ⟨S_, .f32⟩
  | 20 => ⟨S64x64x64, .f32⟩
  | 21 => ⟨S64x64x64, .f32⟩
  | 22 => ⟨S64x64x600, .f32⟩
  | 23 => ⟨S_, .f32⟩
  | 24 => ⟨S64x64, .f32⟩
  | 25 => ⟨S64x64x1, .f32⟩
  | 26 => ⟨S_, .f32⟩
  | 27 => ⟨S64x64x1, .f32⟩
  | 28 => ⟨S64x64x1, .f32⟩
  | 29 => ⟨S64x64x600, .f32⟩
  | 30 => ⟨S64x64x600, .f32⟩
  | 31 => ⟨S64x64x64, .f32⟩
  | 32 => ⟨S64, .i32⟩
  | 33 => ⟨S64, .i32⟩
  | 34 => ⟨S_, .i32⟩
  | 35 => ⟨S64, .i32⟩
  | 36 => ⟨S64, .i1⟩
  | 37 => ⟨S_, .i32⟩
  | 38 => ⟨S64, .i32⟩
  | 39 => ⟨S64, .i32⟩
  | 40 => ⟨S64, .i32⟩
  | 41 => ⟨S_, .i32⟩
  | 42 => ⟨S64, .i32⟩
  | 43 => ⟨S64, .i1⟩
  | 44 => ⟨S_, .i32⟩
  | 45 => ⟨S64, .i32⟩
  | 46 => ⟨S64, .i32⟩
  | 47 => ⟨S64, .i32⟩
  | 48 => ⟨S64x1, .i32⟩
  | 49 => ⟨S64x1, .i32⟩
  | 50 => ⟨S64x2, .i32⟩
  | 51 => ⟨S64x64, .f32⟩
  | 52 => ⟨S64x64, .f32⟩
  | 53 => ⟨S64x64x1, .f32⟩
  | 54 => ⟨S64x1x64, .f32⟩
  | 55 => ⟨S64x64x64, .f32⟩
  | 56 => ⟨S64x64x64, .f32⟩
  | 57 => ⟨S64x64x64, .f32⟩
  | 58 => ⟨S64x64x64, .f32⟩
  | 59 => ⟨S_, .f32⟩
  | 60 => ⟨S_, .f32⟩
  | 61 => ⟨S_, .f32⟩
  | 62 => ⟨S64x64x64, .f32⟩
  | 63 => ⟨S64x64x64, .f32⟩
  | 64 => ⟨S_, .f32⟩
  | 65 => ⟨S64x64x64, .f32⟩
  | 66 => ⟨S64x64x64, .f32⟩
  | 67 => ⟨S64x1x64x64, .f32⟩
  | 68 => ⟨S64x1x64x64, .f32⟩
  | 69 => ⟨S64x1x64x64, .f32⟩
  | 70 => ⟨S64x1x64x64, .f32⟩
  | 71 => ⟨S64x1x64x64, .f32⟩
  | 72 => ⟨S64x1x64x64, .f32⟩
  | 73 => ⟨S64x1x64x64, .f32⟩
  | 74 => ⟨S64x1x64x64, .f32⟩
  | 75 => ⟨S64x1x64x64, .f32⟩
  | 76 => ⟨S64x1x64x64, .f32⟩
  | 77 => ⟨S64x10x64x64, .f32⟩
  | _ => ⟨S64x64x6000, .f32⟩

abbrev hbmTy (i : Nat) : BufTy := match i / 128 with
  | 0 => hbmTy0_0 i
  | 1 => hbmTy0_1 i
  | 2 => hbmTy0_2 i
  | 3 => hbmTy0_3 i
  | _ => ⟨S64x64x6000, .f32⟩

abbrev bufTy : (tb : Table) → Fin (tcTables nBuf tb) → BufTy
  | .hbm, ⟨i, _⟩ => hbmTy i
  | _, _ => ⟨S64x64x6000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_v0 : Ref sig .tc := ⟨.hbm, 11, rfl⟩
abbrev main_call0_v1 : Ref sig .tc := ⟨.hbm, 12, rfl⟩
abbrev main_call0_c : Ref sig .tc := ⟨.hbm, 13, rfl⟩
abbrev main_call0_v2 : Ref sig .tc := ⟨.hbm, 14, rfl⟩
abbrev main_call0_v3 : Ref sig .tc := ⟨.hbm, 15, rfl⟩
abbrev main_call0_c_0 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_c_1 : Ref sig .tc := ⟨.hbm, 20, rfl⟩
abbrev main_call0_v7 : Ref sig .tc := ⟨.hbm, 21, rfl⟩
abbrev main_call0_v8 : Ref sig .tc := ⟨.hbm, 22, rfl⟩
abbrev main_call0_c_2 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_1 : Ref sig .tc := ⟨.hbm, 38, rfl⟩
abbrev main_cst_2 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_v16 : Ref sig .tc := ⟨.hbm, 45, rfl⟩
abbrev main_v17 : Ref sig .tc := ⟨.hbm, 46, rfl⟩
abbrev main_cst_3 : Ref sig .tc := ⟨.hbm, 47, rfl⟩
abbrev main_v18 : Ref sig .tc := ⟨.hbm, 48, rfl⟩
abbrev main_v19 : Ref sig .tc := ⟨.hbm, 49, rfl⟩
abbrev main_cst_4 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_call2_v0 : Ref sig .tc := ⟨.hbm, 56, rfl⟩
abbrev main_call2_v1 : Ref sig .tc := ⟨.hbm, 57, rfl⟩
abbrev main_call2_c : Ref sig .tc := ⟨.hbm, 58, rfl⟩
abbrev main_call2_v2 : Ref sig .tc := ⟨.hbm, 59, rfl⟩
abbrev main_call2_v3 : Ref sig .tc := ⟨.hbm, 60, rfl⟩
abbrev main_call2_c_0 : Ref sig .tc := ⟨.hbm, 61, rfl⟩
abbrev main_call2_v4 : Ref sig .tc := ⟨.hbm, 62, rfl⟩
abbrev main_call2_v5 : Ref sig .tc := ⟨.hbm, 63, rfl⟩
abbrev main_call2_v6 : Ref sig .tc := ⟨.hbm, 64, rfl⟩
abbrev main_call2_c_1 : Ref sig .tc := ⟨.hbm, 65, rfl⟩
abbrev main_call2_v7 : Ref sig .tc := ⟨.hbm, 66, rfl⟩
abbrev main_call2_v8 : Ref sig .tc := ⟨.hbm, 67, rfl⟩
abbrev main_call2_c_2 : Ref sig .tc := ⟨.hbm, 68, rfl⟩
abbrev main_call2_v9 : Ref sig .tc := ⟨.hbm, 69, rfl⟩
abbrev main_call2_v10 : Ref sig .tc := ⟨.hbm, 70, rfl⟩
abbrev main_call2_v11 : Ref sig .tc := ⟨.hbm, 71, rfl⟩
abbrev main_call2_v12 : Ref sig .tc := ⟨.hbm, 72, rfl⟩
abbrev main_call2_v13 : Ref sig .tc := ⟨.hbm, 73, rfl⟩
abbrev main_call2_v14 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_cst_5 : Ref sig .tc := ⟨.hbm, 83, rfl⟩
abbrev main_cst_6 : Ref sig .tc := ⟨.hbm, 84, rfl⟩
abbrev main_call3_v0 : Ref sig .tc := ⟨.hbm, 85, rfl⟩
abbrev main_call3_v1 : Ref sig .tc := ⟨.hbm, 86, rfl⟩
abbrev main_call3_v2 : Ref sig .tc := ⟨.hbm, 87, rfl⟩
abbrev main_call3_v3 : Ref sig .tc := ⟨.hbm, 88, rfl⟩
abbrev main_call3_v4 : Ref sig .tc := ⟨.hbm, 89, rfl⟩
abbrev main_v33 : Ref sig .tc := ⟨.hbm, 90, rfl⟩
abbrev main_v34 : Ref sig .tc := ⟨.hbm, 91, rfl⟩
abbrev main_cst_7 : Ref sig .tc := ⟨.hbm, 92, rfl⟩
abbrev main_v35 : Ref sig .tc := ⟨.hbm, 93, rfl⟩
abbrev main_v36 : Ref sig .tc := ⟨.hbm, 94, rfl⟩
abbrev main_cst_8 : Ref sig .tc := ⟨.hbm, 95, rfl⟩
abbrev main_v37 : Ref sig .tc := ⟨.hbm, 96, rfl⟩
abbrev main_v38 : Ref sig .tc := ⟨.hbm, 97, rfl⟩
abbrev main_v39 : Ref sig .tc := ⟨.hbm, 98, rfl⟩
abbrev main_v40 : Ref sig .tc := ⟨.hbm, 99, rfl⟩
abbrev main_v41 : Ref sig .tc := ⟨.hbm, 100, rfl⟩
abbrev main_call4_v0 : Ref sig .tc := ⟨.hbm, 101, rfl⟩
abbrev main_call4_v1 : Ref sig .tc := ⟨.hbm, 102, rfl⟩
abbrev main_call4_c : Ref sig .tc := ⟨.hbm, 103, rfl⟩
abbrev main_call4_v2 : Ref sig .tc := ⟨.hbm, 104, rfl⟩
abbrev main_call4_v3 : Ref sig .tc := ⟨.hbm, 105, rfl⟩
abbrev main_call4_c_0 : Ref sig .tc := ⟨.hbm, 106, rfl⟩
abbrev main_call4_v4 : Ref sig .tc := ⟨.hbm, 107, rfl⟩
abbrev main_call4_v5 : Ref sig .tc := ⟨.hbm, 108, rfl⟩
abbrev main_call4_v6 : Ref sig .tc := ⟨.hbm, 109, rfl⟩
abbrev main_call4_c_1 : Ref sig .tc := ⟨.hbm, 110, rfl⟩
abbrev main_call4_v7 : Ref sig .tc := ⟨.hbm, 111, rfl⟩
abbrev main_call4_v8 : Ref sig .tc := ⟨.hbm, 112, rfl⟩
abbrev main_call4_c_2 : Ref sig .tc := ⟨.hbm, 113, rfl⟩
abbrev main_call4_v9 : Ref sig .tc := ⟨.hbm, 114, rfl⟩
abbrev main_call4_v10 : Ref sig .tc := ⟨.hbm, 115, rfl⟩
abbrev main_call4_v11 : Ref sig .tc := ⟨.hbm, 116, rfl⟩
abbrev main_call4_v12 : Ref sig .tc := ⟨.hbm, 117, rfl⟩
abbrev main_call4_v13 : Ref sig .tc := ⟨.hbm, 118, rfl⟩
abbrev main_call4_v14 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩
abbrev main_v45 : Ref sig .tc := ⟨.hbm, 123, rfl⟩
abbrev main_v46 : Ref sig .tc := ⟨.hbm, 124, rfl⟩
abbrev main_v47 : Ref sig .tc := ⟨.hbm, 125, rfl⟩
abbrev main_v48 : Ref sig .tc := ⟨.hbm, 126, rfl⟩
abbrev main_v49 : Ref sig .tc := ⟨.hbm, 127, rfl⟩
abbrev main_cst_9 : Ref sig .tc := ⟨.hbm, 128, rfl⟩
abbrev main_cst_10 : Ref sig .tc := ⟨.hbm, 129, rfl⟩
abbrev main_call5_v0 : Ref sig .tc := ⟨.hbm, 130, rfl⟩
abbrev main_call5_v1 : Ref sig .tc := ⟨.hbm, 131, rfl⟩
abbrev main_call5_v2 : Ref sig .tc := ⟨.hbm, 132, rfl⟩
abbrev main_call5_v3 : Ref sig .tc := ⟨.hbm, 133, rfl⟩
abbrev main_call5_v4 : Ref sig .tc := ⟨.hbm, 134, rfl⟩
abbrev main_v50 : Ref sig .tc := ⟨.hbm, 135, rfl⟩
abbrev main_v51 : Ref sig .tc := ⟨.hbm, 136, rfl⟩
abbrev main_cst_11 : Ref sig .tc := ⟨.hbm, 137, rfl⟩
abbrev main_v52 : Ref sig .tc := ⟨.hbm, 138, rfl⟩
abbrev main_v53 : Ref sig .tc := ⟨.hbm, 139, rfl⟩
abbrev main_cst_12 : Ref sig .tc := ⟨.hbm, 140, rfl⟩
abbrev main_v54 : Ref sig .tc := ⟨.hbm, 141, rfl⟩
abbrev main_v55 : Ref sig .tc := ⟨.hbm, 142, rfl⟩
abbrev main_v56 : Ref sig .tc := ⟨.hbm, 143, rfl⟩
abbrev main_v57 : Ref sig .tc := ⟨.hbm, 144, rfl⟩
abbrev main_v58 : Ref sig .tc := ⟨.hbm, 145, rfl⟩
abbrev main_call6_v0 : Ref sig .tc := ⟨.hbm, 146, rfl⟩
abbrev main_call6_v1 : Ref sig .tc := ⟨.hbm, 147, rfl⟩
abbrev main_call6_c : Ref sig .tc := ⟨.hbm, 148, rfl⟩
abbrev main_call6_v2 : Ref sig .tc := ⟨.hbm, 149, rfl⟩
abbrev main_call6_v3 : Ref sig .tc := ⟨.hbm, 150, rfl⟩
abbrev main_call6_c_0 : Ref sig .tc := ⟨.hbm, 151, rfl⟩
abbrev main_call6_v4 : Ref sig .tc := ⟨.hbm, 152, rfl⟩
abbrev main_call6_v5 : Ref sig .tc := ⟨.hbm, 153, rfl⟩
abbrev main_call6_v6 : Ref sig .tc := ⟨.hbm, 154, rfl⟩
abbrev main_call6_c_1 : Ref sig .tc := ⟨.hbm, 155, rfl⟩
abbrev main_call6_v7 : Ref sig .tc := ⟨.hbm, 156, rfl⟩
abbrev main_call6_v8 : Ref sig .tc := ⟨.hbm, 157, rfl⟩
abbrev main_call6_c_2 : Ref sig .tc := ⟨.hbm, 158, rfl⟩
abbrev main_call6_v9 : Ref sig .tc := ⟨.hbm, 159, rfl⟩
abbrev main_call6_v10 : Ref sig .tc := ⟨.hbm, 160, rfl⟩
abbrev main_call6_v11 : Ref sig .tc := ⟨.hbm, 161, rfl⟩
abbrev main_call6_v12 : Ref sig .tc := ⟨.hbm, 162, rfl⟩
abbrev main_call6_v13 : Ref sig .tc := ⟨.hbm, 163, rfl⟩
abbrev main_call6_v14 : Ref sig .tc := ⟨.hbm, 164, rfl⟩
abbrev main_v59 : Ref sig .tc := ⟨.hbm, 165, rfl⟩
abbrev main_v60 : Ref sig .tc := ⟨.hbm, 166, rfl⟩
abbrev main_v61 : Ref sig .tc := ⟨.hbm, 167, rfl⟩
abbrev main_v62 : Ref sig .tc := ⟨.hbm, 168, rfl⟩
abbrev main_v63 : Ref sig .tc := ⟨.hbm, 169, rfl⟩
abbrev main_v64 : Ref sig .tc := ⟨.hbm, 170, rfl⟩
abbrev main_v65 : Ref sig .tc := ⟨.hbm, 171, rfl⟩
abbrev main_v66 : Ref sig .tc := ⟨.hbm, 172, rfl⟩
abbrev main_cst_13 : Ref sig .tc := ⟨.hbm, 173, rfl⟩
abbrev main_cst_14 : Ref sig .tc := ⟨.hbm, 174, rfl⟩
abbrev main_call7_v0 : Ref sig .tc := ⟨.hbm, 175, rfl⟩
abbrev main_call7_v1 : Ref sig .tc := ⟨.hbm, 176, rfl⟩
abbrev main_call7_v2 : Ref sig .tc := ⟨.hbm, 177, rfl⟩
abbrev main_call7_v3 : Ref sig .tc := ⟨.hbm, 178, rfl⟩
abbrev main_call7_v4 : Ref sig .tc := ⟨.hbm, 179, rfl⟩
abbrev main_v67 : Ref sig .tc := ⟨.hbm, 180, rfl⟩
abbrev main_v68 : Ref sig .tc := ⟨.hbm, 181, rfl⟩
abbrev main_cst_15 : Ref sig .tc := ⟨.hbm, 182, rfl⟩
abbrev main_v69 : Ref sig .tc := ⟨.hbm, 183, rfl⟩
abbrev main_v70 : Ref sig .tc := ⟨.hbm, 184, rfl⟩
abbrev main_cst_16 : Ref sig .tc := ⟨.hbm, 185, rfl⟩
abbrev main_v71 : Ref sig .tc := ⟨.hbm, 186, rfl⟩
abbrev main_v72 : Ref sig .tc := ⟨.hbm, 187, rfl⟩
abbrev main_v73 : Ref sig .tc := ⟨.hbm, 188, rfl⟩
abbrev main_v74 : Ref sig .tc := ⟨.hbm, 189, rfl⟩
abbrev main_v75 : Ref sig .tc := ⟨.hbm, 190, rfl⟩
abbrev main_call8_v0 : Ref sig .tc := ⟨.hbm, 191, rfl⟩
abbrev main_call8_v1 : Ref sig .tc := ⟨.hbm, 192, rfl⟩
abbrev main_call8_c : Ref sig .tc := ⟨.hbm, 193, rfl⟩
abbrev main_call8_v2 : Ref sig .tc := ⟨.hbm, 194, rfl⟩
abbrev main_call8_v3 : Ref sig .tc := ⟨.hbm, 195, rfl⟩
abbrev main_call8_c_0 : Ref sig .tc := ⟨.hbm, 196, rfl⟩
abbrev main_call8_v4 : Ref sig .tc := ⟨.hbm, 197, rfl⟩
abbrev main_call8_v5 : Ref sig .tc := ⟨.hbm, 198, rfl⟩
abbrev main_call8_v6 : Ref sig .tc := ⟨.hbm, 199, rfl⟩
abbrev main_call8_c_1 : Ref sig .tc := ⟨.hbm, 200, rfl⟩
abbrev main_call8_v7 : Ref sig .tc := ⟨.hbm, 201, rfl⟩
abbrev main_call8_v8 : Ref sig .tc := ⟨.hbm, 202, rfl⟩
abbrev main_call8_c_2 : Ref sig .tc := ⟨.hbm, 203, rfl⟩
abbrev main_call8_v9 : Ref sig .tc := ⟨.hbm, 204, rfl⟩
abbrev main_call8_v10 : Ref sig .tc := ⟨.hbm, 205, rfl⟩
abbrev main_call8_v11 : Ref sig .tc := ⟨.hbm, 206, rfl⟩
abbrev main_call8_v12 : Ref sig .tc := ⟨.hbm, 207, rfl⟩
abbrev main_call8_v13 : Ref sig .tc := ⟨.hbm, 208, rfl⟩
abbrev main_call8_v14 : Ref sig .tc := ⟨.hbm, 209, rfl⟩
abbrev main_v76 : Ref sig .tc := ⟨.hbm, 210, rfl⟩
abbrev main_v77 : Ref sig .tc := ⟨.hbm, 211, rfl⟩
abbrev main_v78 : Ref sig .tc := ⟨.hbm, 212, rfl⟩
abbrev main_v79 : Ref sig .tc := ⟨.hbm, 213, rfl⟩
abbrev main_v80 : Ref sig .tc := ⟨.hbm, 214, rfl⟩
abbrev main_v81 : Ref sig .tc := ⟨.hbm, 215, rfl⟩
abbrev main_v82 : Ref sig .tc := ⟨.hbm, 216, rfl⟩
abbrev main_v83 : Ref sig .tc := ⟨.hbm, 217, rfl⟩
abbrev main_cst_17 : Ref sig .tc := ⟨.hbm, 218, rfl⟩
abbrev main_cst_18 : Ref sig .tc := ⟨.hbm, 219, rfl⟩
abbrev main_call9_v0 : Ref sig .tc := ⟨.hbm, 220, rfl⟩
abbrev main_call9_v1 : Ref sig .tc := ⟨.hbm, 221, rfl⟩
abbrev main_call9_v2 : Ref sig .tc := ⟨.hbm, 222, rfl⟩
abbrev main_call9_v3 : Ref sig .tc := ⟨.hbm, 223, rfl⟩
abbrev main_call9_v4 : Ref sig .tc := ⟨.hbm, 224, rfl⟩
abbrev main_v84 : Ref sig .tc := ⟨.hbm, 225, rfl⟩
abbrev main_v85 : Ref sig .tc := ⟨.hbm, 226, rfl⟩
abbrev main_cst_19 : Ref sig .tc := ⟨.hbm, 227, rfl⟩
abbrev main_v86 : Ref sig .tc := ⟨.hbm, 228, rfl⟩
abbrev main_v87 : Ref sig .tc := ⟨.hbm, 229, rfl⟩
abbrev main_cst_20 : Ref sig .tc := ⟨.hbm, 230, rfl⟩
abbrev main_v88 : Ref sig .tc := ⟨.hbm, 231, rfl⟩
abbrev main_v89 : Ref sig .tc := ⟨.hbm, 232, rfl⟩
abbrev main_v90 : Ref sig .tc := ⟨.hbm, 233, rfl⟩
abbrev main_v91 : Ref sig .tc := ⟨.hbm, 234, rfl⟩
abbrev main_v92 : Ref sig .tc := ⟨.hbm, 235, rfl⟩
abbrev main_call10_v0 : Ref sig .tc := ⟨.hbm, 236, rfl⟩
abbrev main_call10_v1 : Ref sig .tc := ⟨.hbm, 237, rfl⟩
abbrev main_call10_c : Ref sig .tc := ⟨.hbm, 238, rfl⟩
abbrev main_call10_v2 : Ref sig .tc := ⟨.hbm, 239, rfl⟩
abbrev main_call10_v3 : Ref sig .tc := ⟨.hbm, 240, rfl⟩
abbrev main_call10_c_0 : Ref sig .tc := ⟨.hbm, 241, rfl⟩
abbrev main_call10_v4 : Ref sig .tc := ⟨.hbm, 242, rfl⟩
abbrev main_call10_v5 : Ref sig .tc := ⟨.hbm, 243, rfl⟩
abbrev main_call10_v6 : Ref sig .tc := ⟨.hbm, 244, rfl⟩
abbrev main_call10_c_1 : Ref sig .tc := ⟨.hbm, 245, rfl⟩
abbrev main_call10_v7 : Ref sig .tc := ⟨.hbm, 246, rfl⟩
abbrev main_call10_v8 : Ref sig .tc := ⟨.hbm, 247, rfl⟩
abbrev main_call10_c_2 : Ref sig .tc := ⟨.hbm, 248, rfl⟩
abbrev main_call10_v9 : Ref sig .tc := ⟨.hbm, 249, rfl⟩
abbrev main_call10_v10 : Ref sig .tc := ⟨.hbm, 250, rfl⟩
abbrev main_call10_v11 : Ref sig .tc := ⟨.hbm, 251, rfl⟩
abbrev main_call10_v12 : Ref sig .tc := ⟨.hbm, 252, rfl⟩
abbrev main_call10_v13 : Ref sig .tc := ⟨.hbm, 253, rfl⟩
abbrev main_call10_v14 : Ref sig .tc := ⟨.hbm, 254, rfl⟩
abbrev main_v93 : Ref sig .tc := ⟨.hbm, 255, rfl⟩
abbrev main_v94 : Ref sig .tc := ⟨.hbm, 256, rfl⟩
abbrev main_v95 : Ref sig .tc := ⟨.hbm, 257, rfl⟩
abbrev main_v96 : Ref sig .tc := ⟨.hbm, 258, rfl⟩
abbrev main_v97 : Ref sig .tc := ⟨.hbm, 259, rfl⟩
abbrev main_v98 : Ref sig .tc := ⟨.hbm, 260, rfl⟩
abbrev main_v99 : Ref sig .tc := ⟨.hbm, 261, rfl⟩
abbrev main_v100 : Ref sig .tc := ⟨.hbm, 262, rfl⟩
abbrev main_cst_21 : Ref sig .tc := ⟨.hbm, 263, rfl⟩
abbrev main_cst_22 : Ref sig .tc := ⟨.hbm, 264, rfl⟩
abbrev main_call11_v0 : Ref sig .tc := ⟨.hbm, 265, rfl⟩
abbrev main_call11_v1 : Ref sig .tc := ⟨.hbm, 266, rfl⟩
abbrev main_call11_v2 : Ref sig .tc := ⟨.hbm, 267, rfl⟩
abbrev main_call11_v3 : Ref sig .tc := ⟨.hbm, 268, rfl⟩
abbrev main_call11_v4 : Ref sig .tc := ⟨.hbm, 269, rfl⟩
abbrev main_v101 : Ref sig .tc := ⟨.hbm, 270, rfl⟩
abbrev main_v102 : Ref sig .tc := ⟨.hbm, 271, rfl⟩
abbrev main_cst_23 : Ref sig .tc := ⟨.hbm, 272, rfl⟩
abbrev main_v103 : Ref sig .tc := ⟨.hbm, 273, rfl⟩
abbrev main_v104 : Ref sig .tc := ⟨.hbm, 274, rfl⟩
abbrev main_cst_24 : Ref sig .tc := ⟨.hbm, 275, rfl⟩
abbrev main_v105 : Ref sig .tc := ⟨.hbm, 276, rfl⟩
abbrev main_v106 : Ref sig .tc := ⟨.hbm, 277, rfl⟩
abbrev main_v107 : Ref sig .tc := ⟨.hbm, 278, rfl⟩
abbrev main_v108 : Ref sig .tc := ⟨.hbm, 279, rfl⟩
abbrev main_v109 : Ref sig .tc := ⟨.hbm, 280, rfl⟩
abbrev main_call12_v0 : Ref sig .tc := ⟨.hbm, 281, rfl⟩
abbrev main_call12_v1 : Ref sig .tc := ⟨.hbm, 282, rfl⟩
abbrev main_call12_c : Ref sig .tc := ⟨.hbm, 283, rfl⟩
abbrev main_call12_v2 : Ref sig .tc := ⟨.hbm, 284, rfl⟩
abbrev main_call12_v3 : Ref sig .tc := ⟨.hbm, 285, rfl⟩
abbrev main_call12_c_0 : Ref sig .tc := ⟨.hbm, 286, rfl⟩
abbrev main_call12_v4 : Ref sig .tc := ⟨.hbm, 287, rfl⟩
abbrev main_call12_v5 : Ref sig .tc := ⟨.hbm, 288, rfl⟩
abbrev main_call12_v6 : Ref sig .tc := ⟨.hbm, 289, rfl⟩
abbrev main_call12_c_1 : Ref sig .tc := ⟨.hbm, 290, rfl⟩
abbrev main_call12_v7 : Ref sig .tc := ⟨.hbm, 291, rfl⟩
abbrev main_call12_v8 : Ref sig .tc := ⟨.hbm, 292, rfl⟩
abbrev main_call12_c_2 : Ref sig .tc := ⟨.hbm, 293, rfl⟩
abbrev main_call12_v9 : Ref sig .tc := ⟨.hbm, 294, rfl⟩
abbrev main_call12_v10 : Ref sig .tc := ⟨.hbm, 295, rfl⟩
abbrev main_call12_v11 : Ref sig .tc := ⟨.hbm, 296, rfl⟩
abbrev main_call12_v12 : Ref sig .tc := ⟨.hbm, 297, rfl⟩
abbrev main_call12_v13 : Ref sig .tc := ⟨.hbm, 298, rfl⟩
abbrev main_call12_v14 : Ref sig .tc := ⟨.hbm, 299, rfl⟩
abbrev main_v110 : Ref sig .tc := ⟨.hbm, 300, rfl⟩
abbrev main_v111 : Ref sig .tc := ⟨.hbm, 301, rfl⟩
abbrev main_v112 : Ref sig .tc := ⟨.hbm, 302, rfl⟩
abbrev main_v113 : Ref sig .tc := ⟨.hbm, 303, rfl⟩
abbrev main_v114 : Ref sig .tc := ⟨.hbm, 304, rfl⟩
abbrev main_v115 : Ref sig .tc := ⟨.hbm, 305, rfl⟩
abbrev main_v116 : Ref sig .tc := ⟨.hbm, 306, rfl⟩
abbrev main_v117 : Ref sig .tc := ⟨.hbm, 307, rfl⟩
abbrev main_cst_25 : Ref sig .tc := ⟨.hbm, 308, rfl⟩
abbrev main_cst_26 : Ref sig .tc := ⟨.hbm, 309, rfl⟩
abbrev main_call13_v0 : Ref sig .tc := ⟨.hbm, 310, rfl⟩
abbrev main_call13_v1 : Ref sig .tc := ⟨.hbm, 311, rfl⟩
abbrev main_call13_v2 : Ref sig .tc := ⟨.hbm, 312, rfl⟩
abbrev main_call13_v3 : Ref sig .tc := ⟨.hbm, 313, rfl⟩
abbrev main_call13_v4 : Ref sig .tc := ⟨.hbm, 314, rfl⟩
abbrev main_v118 : Ref sig .tc := ⟨.hbm, 315, rfl⟩
abbrev main_v119 : Ref sig .tc := ⟨.hbm, 316, rfl⟩
abbrev main_cst_27 : Ref sig .tc := ⟨.hbm, 317, rfl⟩
abbrev main_v120 : Ref sig .tc := ⟨.hbm, 318, rfl⟩
abbrev main_v121 : Ref sig .tc := ⟨.hbm, 319, rfl⟩
abbrev main_cst_28 : Ref sig .tc := ⟨.hbm, 320, rfl⟩
abbrev main_v122 : Ref sig .tc := ⟨.hbm, 321, rfl⟩
abbrev main_v123 : Ref sig .tc := ⟨.hbm, 322, rfl⟩
abbrev main_v124 : Ref sig .tc := ⟨.hbm, 323, rfl⟩
abbrev main_v125 : Ref sig .tc := ⟨.hbm, 324, rfl⟩
abbrev main_v126 : Ref sig .tc := ⟨.hbm, 325, rfl⟩
abbrev main_call14_v0 : Ref sig .tc := ⟨.hbm, 326, rfl⟩
abbrev main_call14_v1 : Ref sig .tc := ⟨.hbm, 327, rfl⟩
abbrev main_call14_c : Ref sig .tc := ⟨.hbm, 328, rfl⟩
abbrev main_call14_v2 : Ref sig .tc := ⟨.hbm, 329, rfl⟩
abbrev main_call14_v3 : Ref sig .tc := ⟨.hbm, 330, rfl⟩
abbrev main_call14_c_0 : Ref sig .tc := ⟨.hbm, 331, rfl⟩
abbrev main_call14_v4 : Ref sig .tc := ⟨.hbm, 332, rfl⟩
abbrev main_call14_v5 : Ref sig .tc := ⟨.hbm, 333, rfl⟩
abbrev main_call14_v6 : Ref sig .tc := ⟨.hbm, 334, rfl⟩
abbrev main_call14_c_1 : Ref sig .tc := ⟨.hbm, 335, rfl⟩
abbrev main_call14_v7 : Ref sig .tc := ⟨.hbm, 336, rfl⟩
abbrev main_call14_v8 : Ref sig .tc := ⟨.hbm, 337, rfl⟩
abbrev main_call14_c_2 : Ref sig .tc := ⟨.hbm, 338, rfl⟩
abbrev main_call14_v9 : Ref sig .tc := ⟨.hbm, 339, rfl⟩
abbrev main_call14_v10 : Ref sig .tc := ⟨.hbm, 340, rfl⟩
abbrev main_call14_v11 : Ref sig .tc := ⟨.hbm, 341, rfl⟩
abbrev main_call14_v12 : Ref sig .tc := ⟨.hbm, 342, rfl⟩
abbrev main_call14_v13 : Ref sig .tc := ⟨.hbm, 343, rfl⟩
abbrev main_call14_v14 : Ref sig .tc := ⟨.hbm, 344, rfl⟩
abbrev main_v127 : Ref sig .tc := ⟨.hbm, 345, rfl⟩
abbrev main_v128 : Ref sig .tc := ⟨.hbm, 346, rfl⟩
abbrev main_v129 : Ref sig .tc := ⟨.hbm, 347, rfl⟩
abbrev main_v130 : Ref sig .tc := ⟨.hbm, 348, rfl⟩
abbrev main_v131 : Ref sig .tc := ⟨.hbm, 349, rfl⟩
abbrev main_v132 : Ref sig .tc := ⟨.hbm, 350, rfl⟩
abbrev main_v133 : Ref sig .tc := ⟨.hbm, 351, rfl⟩
abbrev main_v134 : Ref sig .tc := ⟨.hbm, 352, rfl⟩
abbrev main_cst_29 : Ref sig .tc := ⟨.hbm, 353, rfl⟩
abbrev main_cst_30 : Ref sig .tc := ⟨.hbm, 354, rfl⟩
abbrev main_call15_v0 : Ref sig .tc := ⟨.hbm, 355, rfl⟩
abbrev main_call15_v1 : Ref sig .tc := ⟨.hbm, 356, rfl⟩
abbrev main_call15_v2 : Ref sig .tc := ⟨.hbm, 357, rfl⟩
abbrev main_call15_v3 : Ref sig .tc := ⟨.hbm, 358, rfl⟩
abbrev main_call15_v4 : Ref sig .tc := ⟨.hbm, 359, rfl⟩
abbrev main_v135 : Ref sig .tc := ⟨.hbm, 360, rfl⟩
abbrev main_v136 : Ref sig .tc := ⟨.hbm, 361, rfl⟩
abbrev main_cst_31 : Ref sig .tc := ⟨.hbm, 362, rfl⟩
abbrev main_v137 : Ref sig .tc := ⟨.hbm, 363, rfl⟩
abbrev main_v138 : Ref sig .tc := ⟨.hbm, 364, rfl⟩
abbrev main_cst_32 : Ref sig .tc := ⟨.hbm, 365, rfl⟩
abbrev main_v139 : Ref sig .tc := ⟨.hbm, 366, rfl⟩
abbrev main_v140 : Ref sig .tc := ⟨.hbm, 367, rfl⟩
abbrev main_v141 : Ref sig .tc := ⟨.hbm, 368, rfl⟩
abbrev main_v142 : Ref sig .tc := ⟨.hbm, 369, rfl⟩
abbrev main_v143 : Ref sig .tc := ⟨.hbm, 370, rfl⟩
abbrev main_call16_v0 : Ref sig .tc := ⟨.hbm, 371, rfl⟩
abbrev main_call16_v1 : Ref sig .tc := ⟨.hbm, 372, rfl⟩
abbrev main_call16_c : Ref sig .tc := ⟨.hbm, 373, rfl⟩
abbrev main_call16_v2 : Ref sig .tc := ⟨.hbm, 374, rfl⟩
abbrev main_call16_v3 : Ref sig .tc := ⟨.hbm, 375, rfl⟩
abbrev main_call16_c_0 : Ref sig .tc := ⟨.hbm, 376, rfl⟩
abbrev main_call16_v4 : Ref sig .tc := ⟨.hbm, 377, rfl⟩
abbrev main_call16_v5 : Ref sig .tc := ⟨.hbm, 378, rfl⟩
abbrev main_call16_v6 : Ref sig .tc := ⟨.hbm, 379, rfl⟩
abbrev main_call16_c_1 : Ref sig .tc := ⟨.hbm, 380, rfl⟩
abbrev main_call16_v7 : Ref sig .tc := ⟨.hbm, 381, rfl⟩
abbrev main_call16_v8 : Ref sig .tc := ⟨.hbm, 382, rfl⟩
abbrev main_call16_c_2 : Ref sig .tc := ⟨.hbm, 383, rfl⟩
abbrev main_call16_v9 : Ref sig .tc := ⟨.hbm, 384, rfl⟩
abbrev main_call16_v10 : Ref sig .tc := ⟨.hbm, 385, rfl⟩
abbrev main_call16_v11 : Ref sig .tc := ⟨.hbm, 386, rfl⟩
abbrev main_call16_v12 : Ref sig .tc := ⟨.hbm, 387, rfl⟩
abbrev main_call16_v13 : Ref sig .tc := ⟨.hbm, 388, rfl⟩
abbrev main_call16_v14 : Ref sig .tc := ⟨.hbm, 389, rfl⟩
abbrev main_v144 : Ref sig .tc := ⟨.hbm, 390, rfl⟩
abbrev main_v145 : Ref sig .tc := ⟨.hbm, 391, rfl⟩
abbrev main_v146 : Ref sig .tc := ⟨.hbm, 392, rfl⟩
abbrev main_v147 : Ref sig .tc := ⟨.hbm, 393, rfl⟩
abbrev main_v148 : Ref sig .tc := ⟨.hbm, 394, rfl⟩
abbrev main_v149 : Ref sig .tc := ⟨.hbm, 395, rfl⟩
abbrev main_v150 : Ref sig .tc := ⟨.hbm, 396, rfl⟩
abbrev main_v151 : Ref sig .tc := ⟨.hbm, 397, rfl⟩
abbrev main_cst_33 : Ref sig .tc := ⟨.hbm, 398, rfl⟩
abbrev main_cst_34 : Ref sig .tc := ⟨.hbm, 399, rfl⟩
abbrev main_call17_v0 : Ref sig .tc := ⟨.hbm, 400, rfl⟩
abbrev main_call17_v1 : Ref sig .tc := ⟨.hbm, 401, rfl⟩
abbrev main_call17_v2 : Ref sig .tc := ⟨.hbm, 402, rfl⟩
abbrev main_call17_v3 : Ref sig .tc := ⟨.hbm, 403, rfl⟩
abbrev main_call17_v4 : Ref sig .tc := ⟨.hbm, 404, rfl⟩
abbrev main_v152 : Ref sig .tc := ⟨.hbm, 405, rfl⟩
abbrev main_v153 : Ref sig .tc := ⟨.hbm, 406, rfl⟩
abbrev main_cst_35 : Ref sig .tc := ⟨.hbm, 407, rfl⟩
abbrev main_v154 : Ref sig .tc := ⟨.hbm, 408, rfl⟩
abbrev main_v155 : Ref sig .tc := ⟨.hbm, 409, rfl⟩
abbrev main_cst_36 : Ref sig .tc := ⟨.hbm, 410, rfl⟩
abbrev main_v156 : Ref sig .tc := ⟨.hbm, 411, rfl⟩
abbrev main_v157 : Ref sig .tc := ⟨.hbm, 412, rfl⟩
abbrev main_v158 : Ref sig .tc := ⟨.hbm, 413, rfl⟩
abbrev main_v159 : Ref sig .tc := ⟨.hbm, 414, rfl⟩
abbrev main_v160 : Ref sig .tc := ⟨.hbm, 415, rfl⟩
abbrev main_call18_v0 : Ref sig .tc := ⟨.hbm, 416, rfl⟩
abbrev main_call18_v1 : Ref sig .tc := ⟨.hbm, 417, rfl⟩
abbrev main_call18_c : Ref sig .tc := ⟨.hbm, 418, rfl⟩
abbrev main_call18_v2 : Ref sig .tc := ⟨.hbm, 419, rfl⟩
abbrev main_call18_v3 : Ref sig .tc := ⟨.hbm, 420, rfl⟩
abbrev main_call18_c_0 : Ref sig .tc := ⟨.hbm, 421, rfl⟩
abbrev main_call18_v4 : Ref sig .tc := ⟨.hbm, 422, rfl⟩
abbrev main_call18_v5 : Ref sig .tc := ⟨.hbm, 423, rfl⟩
abbrev main_call18_v6 : Ref sig .tc := ⟨.hbm, 424, rfl⟩
abbrev main_call18_c_1 : Ref sig .tc := ⟨.hbm, 425, rfl⟩
abbrev main_call18_v7 : Ref sig .tc := ⟨.hbm, 426, rfl⟩
abbrev main_call18_v8 : Ref sig .tc := ⟨.hbm, 427, rfl⟩
abbrev main_call18_c_2 : Ref sig .tc := ⟨.hbm, 428, rfl⟩
abbrev main_call18_v9 : Ref sig .tc := ⟨.hbm, 429, rfl⟩
abbrev main_call18_v10 : Ref sig .tc := ⟨.hbm, 430, rfl⟩
abbrev main_call18_v11 : Ref sig .tc := ⟨.hbm, 431, rfl⟩
abbrev main_call18_v12 : Ref sig .tc := ⟨.hbm, 432, rfl⟩
abbrev main_call18_v13 : Ref sig .tc := ⟨.hbm, 433, rfl⟩
abbrev main_call18_v14 : Ref sig .tc := ⟨.hbm, 434, rfl⟩
abbrev main_v161 : Ref sig .tc := ⟨.hbm, 435, rfl⟩
abbrev main_v162 : Ref sig .tc := ⟨.hbm, 436, rfl⟩
abbrev main_v163 : Ref sig .tc := ⟨.hbm, 437, rfl⟩
abbrev main_v164 : Ref sig .tc := ⟨.hbm, 438, rfl⟩
abbrev main_v165 : Ref sig .tc := ⟨.hbm, 439, rfl⟩
abbrev main_v166 : Ref sig .tc := ⟨.hbm, 440, rfl⟩
abbrev main_v167 : Ref sig .tc := ⟨.hbm, 441, rfl⟩
abbrev main_v168 : Ref sig .tc := ⟨.hbm, 442, rfl⟩
abbrev main_cst_37 : Ref sig .tc := ⟨.hbm, 443, rfl⟩
abbrev main_cst_38 : Ref sig .tc := ⟨.hbm, 444, rfl⟩
abbrev main_call19_v0 : Ref sig .tc := ⟨.hbm, 445, rfl⟩
abbrev main_call19_v1 : Ref sig .tc := ⟨.hbm, 446, rfl⟩
abbrev main_call19_v2 : Ref sig .tc := ⟨.hbm, 447, rfl⟩
abbrev main_call19_v3 : Ref sig .tc := ⟨.hbm, 448, rfl⟩
abbrev main_call19_v4 : Ref sig .tc := ⟨.hbm, 449, rfl⟩
abbrev main_v169 : Ref sig .tc := ⟨.hbm, 450, rfl⟩
abbrev main_v170 : Ref sig .tc := ⟨.hbm, 451, rfl⟩
abbrev main_v171 : Ref sig .tc := ⟨.hbm, 452, rfl⟩
abbrev main_v172 : Ref sig .tc := ⟨.hbm, 453, rfl⟩
abbrev main_v173 : Ref sig .tc := ⟨.hbm, 454, rfl⟩
abbrev main_v174 : Ref sig .tc := ⟨.hbm, 455, rfl⟩
abbrev main_v175 : Ref sig .tc := ⟨.hbm, 456, rfl⟩
abbrev main_v176 : Ref sig .tc := ⟨.hbm, 457, rfl⟩
abbrev main_v177 : Ref sig .tc := ⟨.hbm, 458, rfl⟩
abbrev main_v178 : Ref sig .tc := ⟨.hbm, 459, rfl⟩
abbrev main_v179 : Ref sig .tc := ⟨.hbm, 460, rfl⟩
abbrev main_v180 : Ref sig .tc := ⟨.hbm, 461, rfl⟩

abbrev nD : Nat := 1
abbrev τ : Topo := Topo.v7x

variable {F : FTy → Type} [FloatOps F]

class Facts₀ : Prop where
  slices_S64x64x6000_S64x64x600_0_0_0 : S64x64x6000.Slices ![0, 0, 0] S64x64x600
  reducesTo_S64x64x600_S64x64_d2 : S64x64x600.ReducesTo [2] S64x64
  h_S_ : 0 < S_.numel
  bcast_S64x64_S64x64x1_0_1 : S64x64.BroadcastsInDim S64x64x1 (![0, 1] : Fin 2 → Fin S64x64x1.rank)
  bcast_S_S64x64x1 : S_.BroadcastsInDim S64x64x1 (![] : Fin 0 → Fin S64x64x1.rank)
  bcast_S64x64x1_S64x64x600_0_1_2 : S64x64x1.BroadcastsInDim S64x64x600 (![0, 1, 2] : Fin 3 → Fin S64x64x600.rank)
  bcast_S_S64 : S_.BroadcastsInDim S64 (![] : Fin 0 → Fin S64.rank)
  bcast_S64_S64x1_0 : S64.BroadcastsInDim S64x1 (![0] : Fin 1 → Fin S64x1.rank)
  concatenates_S64x1_S64x1_S64x2_d1 : Shape.Concatenates [S64x1, S64x1] S64x2 1
  bcast_S64x64_S64x1x64_0_2 : S64x64.BroadcastsInDim S64x1x64 (![0, 2] : Fin 2 → Fin S64x1x64.rank)
  bcast_S64x64x1_S64x64x64_0_1_2 : S64x64x1.BroadcastsInDim S64x64x64 (![0, 1, 2] : Fin 3 → Fin S64x64x64.rank)
  bcast_S64x1x64_S64x64x64_0_1_2 : S64x1x64.BroadcastsInDim S64x64x64 (![0, 1, 2] : Fin 3 → Fin S64x64x64.rank)
  bcast_S_S64x64x64 : S_.BroadcastsInDim S64x64x64 (![] : Fin 0 → Fin S64x64x64.rank)
  slices_S64x64x6000_S64x64x600_0_0_600 : S64x64x6000.Slices ![0, 0, 600] S64x64x600
  slices_S64x64x6000_S64x64x600_0_0_1200 : S64x64x6000.Slices ![0, 0, 1200] S64x64x600
  slices_S64x64x6000_S64x64x600_0_0_1800 : S64x64x6000.Slices ![0, 0, 1800] S64x64x600
  slices_S64x64x6000_S64x64x600_0_0_2400 : S64x64x6000.Slices ![0, 0, 2400] S64x64x600
  slices_S64x64x6000_S64x64x600_0_0_3000 : S64x64x6000.Slices ![0, 0, 3000] S64x64x600
  slices_S64x64x6000_S64x64x600_0_0_3600 : S64x64x6000.Slices ![0, 0, 3600] S64x64x600
  slices_S64x64x6000_S64x64x600_0_0_4200 : S64x64x6000.Slices ![0, 0, 4200] S64x64x600
  slices_S64x64x6000_S64x64x600_0_0_4800 : S64x64x6000.Slices ![0, 0, 4800] S64x64x600
  slices_S64x64x6000_S64x64x600_0_0_5400 : S64x64x6000.Slices ![0, 0, 5400] S64x64x600
  bcast_S64x64x64_S64x1x64x64_0_2_3 : S64x64x64.BroadcastsInDim S64x1x64x64 (![0, 2, 3] : Fin 3 → Fin S64x1x64x64.rank)
  concatenates_S64x1x64x64_S64x1x64x64_S64x1x64x64_S64x1x64x64_S64x1x64x64_S64x1x64x64_S64x1x64x64_S64x1x64x64_S64x1x64x64_S64x1x64x64_S64x10x64x64_d1 : Shape.Concatenates [S64x1x64x64, S64x1x64x64, S64x1x64x64, S64x1x64x64, S64x1x64x64, S64x1x64x64, S64x1x64x64, S64x1x64x64, S64x1x64x64, S64x1x64x64] S64x10x64x64 1
  dot_S64x64x600_S64x64x600_S64x64x64_2_2_1_1_0_0_wf : DotDims.WF S64x64x600 S64x64x600 S64x64x64 [2] [2] [1] [1] [0] [0]
  gather_S64x64x64_S64x2_S64x64_0_12_n_n_12_1_6411_wf : GatherDims.WF S64x64x64 S64x2 S64x64 [0] [1, 2] [] [1, 2] [] 1 ![64, 1, 1]

variable [Facts₀]

def dot_S64x64x600_S64x64x600_S64x64x64_2_2_1_1_0_0 : DotDims S64x64x600 S64x64x600 S64x64x64 where
  lhsContracting := [2]
  rhsContracting := [2]
  lhsNonContracting := [1]
  rhsNonContracting := [1]
  lhsBatch := [0]
  rhsBatch := [0]
  wf := dot_S64x64x600_S64x64x600_S64x64x64_2_2_1_1_0_0_wf
def gather_S64x64x64_S64x2_S64x64_0_12_n_n_12_1_6411 : GatherDims S64x64x64 S64x2 S64x64 where
  offsetDims := [0]
  collapsedSliceDims := [1, 2]
  operandBatchingDims := []
  startIndicesBatchingDims := []
  startIndexMap := [1, 2]
  indexVectorDim := 1
  sliceSizes := ![64, 1, 1]
  wf := gather_S64x64x64_S64x2_S64x64_0_12_n_n_12_1_6411_wf

class Facts : Prop extends Facts₀ where

variable [Facts]
-- ==== Proof.LibRealLaw.lean ====
/- The real-number law behind a linear cross-attention, stated over the extended reals.

   At the ideal reading a float is an extended real.  Two programs compute, from real inputs
   `l e`, `g m e`, `v m`,

     reference:  ∑ m, ((∑ e, l e * g m e) / 1024) * v m
     kernel:     ∑ e, l e * ((∑ m, g m e * v m) * (1/1024))

   Over the reals these agree: distribute the constant and exchange the two finite sums.  Over the
   extended reals multiplication does not distribute over addition in general (`⊤ + ⊥`, `0 * ⊤`),
   so the law is stated for extended reals that are known to be (coercions of) real numbers, and
   proved by pulling the coercion `ℝ → EReal` outside every product and finite sum. -/
import Idealize.ShloMosaic.PureOps.Ideal

noncomputable section

open Idealize.ShloMosaic

namespace Cert.Attn.RealLaw

/-! ### Extended reals that are real numbers -/

/-- An extended real is *real* when it is the image of some real number, that is, it is neither
    `⊤` nor `⊥`. -/
def IsReal (x : EReal) : Prop := ∃ r : ℝ, x = (r : EReal)

/-- The image of a real number is real. -/
theorem isReal_coe (r : ℝ) : IsReal (r : EReal) := ⟨r, rfl⟩

/-- The product of two real extended reals is real: `↑a * ↑b = ↑(a * b)`. -/
theorem isReal_mul {x y : EReal} (hx : IsReal x) (hy : IsReal y) : IsReal (x * y) := by
  obtain ⟨a, rfl⟩ := hx
  obtain ⟨b, rfl⟩ := hy
  exact ⟨a * b, (EReal.coe_mul a b).symm⟩

/-- The sum of two real extended reals is real: `↑a + ↑b = ↑(a + b)`. -/
theorem isReal_add {x y : EReal} (hx : IsReal x) (hy : IsReal y) : IsReal (x + y) := by
  obtain ⟨a, rfl⟩ := hx
  obtain ⟨b, rfl⟩ := hy
  exact ⟨a + b, (EReal.coe_add a b).symm⟩

/-- The coercion `ℝ → EReal` commutes with a finite sum: the image of `∑ k ∈ s, f k` is the sum of
    the images. -/
theorem coe_sum {K : Type*} (s : Finset K) (f : K → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

variable {E M K : Type*} [Fintype E] [Fintype M] [Fintype K]

/-- A finite sum of real extended reals is real. -/
theorem isReal_sum {f : K → EReal} (hf : ∀ k, IsReal (f k)) : IsReal (∑ k, f k) := by
  choose f' hf' using hf
  refine ⟨∑ k, f' k, ?_⟩
  rw [coe_sum]
  exact Finset.sum_congr rfl fun k _ => hf' k

/-- A finite sum of products of real extended reals is real. -/
theorem isReal_sum_mul {a b : K → EReal} (ha : ∀ k, IsReal (a k)) (hb : ∀ k, IsReal (b k)) :
    IsReal (∑ k, a k * b k) :=
  isReal_sum fun k => isReal_mul (ha k) (hb k)

/-- The hyperbolic tangent of a real extended real is real: on the image of `r` it is the image of
    `Real.tanh r`. -/
theorem isReal_tanh {x : EReal} (hx : IsReal x) : IsReal (Ideal.tanh x) := by
  obtain ⟨r, rfl⟩ := hx
  exact ⟨Real.tanh r, Ideal.tanh_coe r⟩

/-! ### The two literals -/

/-- The single-precision pattern `0x3A800000` (sign `0`, exponent field `117`, significand field `0`)
    denotes `2 ^ (117 - 127) = 2 ^ (-10) = 1 / 1024`. -/
theorem inv_1024 : Ideal.ofBits .f32 0x3A800000#32 = (((1 / 1024 : ℝ)) : EReal) := by
  simp [Ideal.ofBits, Ideal.ieee, -EReal.coe_mul]; norm_num

/-- The single-precision pattern `0x44800000` (sign `0`, exponent field `137`, significand field `0`)
    denotes `2 ^ (137 - 127) = 2 ^ 10 = 1024`. -/
theorem lit_1024 : Ideal.ofBits .f32 0x44800000#32 = ((1024 : ℝ) : EReal) := by
  simp [Ideal.ofBits, Ideal.ieee, -EReal.coe_mul]; norm_num

/-! ### The law -/

/-- The reassociation law over the reals: for real numbers `l e`, `g m e`, `v m` over finite index
    types, `∑ m, ((∑ e, l e * g m e) * c) * v m = ∑ e, l e * ((∑ m, g m e * v m) * c)`.  Distribute
    the products over the inner sums, exchange the two sums, and compare term by term. -/
theorem reassoc_real (l : E → ℝ) (g : M → E → ℝ) (v : M → ℝ) (c : ℝ) :
    (∑ m, (∑ e, l e * g m e) * c * v m) = ∑ e, l e * ((∑ m, g m e * v m) * c) := by
  simp only [Finset.sum_mul, Finset.mul_sum]
  rw [Finset.sum_comm]
  refine Finset.sum_congr rfl fun e _ => Finset.sum_congr rfl fun m _ => ?_
  ring

/-- The reassociation law over the extended reals, for real entries: if every `l e`, `g m e` and
    `v m` is real then
    `∑ m, ((∑ e, l e * g m e) / 1024) * v m = ∑ e, l e * ((∑ m, g m e * v m) * (1/1024))`,
    where `/` is the ideal division.  Division by the nonzero real `1024` is multiplication by its
    reciprocal; then both sides are images of real numbers, equal by the law over the reals. -/
theorem reassoc (l : E → EReal) (g : M → E → EReal) (v : M → EReal)
    (hl : ∀ e, IsReal (l e)) (hg : ∀ m e, IsReal (g m e)) (hv : ∀ m, IsReal (v m)) :
    (∑ m, Ideal.div (∑ e, l e * g m e) ((1024 : ℝ) : EReal) * v m)
      = ∑ e, l e * ((∑ m, g m e * v m) * (((1 / 1024 : ℝ)) : EReal)) := by
  choose l' hl' using hl
  choose g' hg' using hg
  choose v' hv' using hv
  have h1024 : (1024 : ℝ) ≠ 0 := by norm_num
  simp only [hl', hg', hv', Ideal.div_coe h1024, ← EReal.coe_mul, ← coe_sum]
  exact congrArg _ (reassoc_real l' g' v' (1 / 1024))

/-- The same law with a common additive tail `x` (any extended real) on both sides. -/
theorem reassoc_add (l : E → EReal) (g : M → E → EReal) (v : M → EReal)
    (hl : ∀ e, IsReal (l e)) (hg : ∀ m e, IsReal (g m e)) (hv : ∀ m, IsReal (v m)) (x : EReal) :
    (∑ m, Ideal.div (∑ e, l e * g m e) ((1024 : ℝ) : EReal) * v m) + x
      = (∑ e, l e * ((∑ m, g m e * v m) * (((1 / 1024 : ℝ)) : EReal))) + x :=
  congrArg (· + x) (reassoc l g v hl hg hv)

end Cert.Attn.RealLaw

end
-- ==== Proof.Spec.lean ====
/- The Pearson correlation of channel rows, epoch by epoch, as one function of the input array.

   The input is an array x[B, C, L] with B = 64 batches, C = 64 channels and L = 6000 samples, cut along the
   last axis into ten epochs of 600 samples.  For batch B and epoch e write r_c for row c of that epoch,
   r_c(t) = x[B, c, 600 e + t].  Both programs produce, at (B, e, c, d),

       clip ( cov(r_c, r_d) / (sqrt cov(r_c, r_c) * sqrt cov(r_d, r_d)) )     clipped to [-1, 1],

   and differ only in how the covariance is computed:

       centered :  cov(f, g) = sum_t (f t - mean f) * (g t - mean g)
       raw      :  cov(f, g) = (sum_t f t * g t) - 600 * (mean f * mean g),      mean f = (sum_t f t) / 600.

   On real entries these agree: expanding the product, the two cross terms are each 600 * mean f * mean g and
   the constant term is 600 * mean f * mean g, so two of the three cancel against the subtraction.  On the
   extended reals the expansion needs distributivity, which fails at the infinities; so the law is stated for rows
   whose entries are real numbers. -/
import Idealize.ShloMosaic.PureOps.Ideal
import Idealize.ShloMosaic.Lib.ValueIdx
import proofs.«147870_j56942676410883_2_alg».proof.Proof.LibRealLaw

noncomputable section

open scoped BigOperators

namespace Cert.Corr

open Idealize.ShloMosaic Idealize.ShloMosaic.ValueIdx Cert.Attn.RealLaw

/-- The single-precision word of 600, as both programs print it. -/
abbrev w600 : EReal := Ideal.ofBits .f32 0x44160000#32
/-- The single-precision word of -1. -/
abbrev wNeg1 : EReal := Ideal.ofBits .f32 0xBF800000#32
/-- The single-precision word of 1. -/
abbrev wPos1 : EReal := Ideal.ofBits .f32 0x3F800000#32

/-- `0x44160000`: sign 0, exponent field 136, significand field `0x160000`; (1 + 0x160000 / 2^23) * 2^9 = 600. -/
theorem w600_eq : w600 = ((600 : ℝ) : EReal) := by
  simp [w600, Ideal.ofBits, Ideal.ieee, -EReal.coe_mul]; norm_num

/-- The mean of a row of 600 samples: the sum divided by 600. -/
def mean (f : Fin 600 → EReal) : EReal := Ideal.div (∑ t, f t) w600

/-- The covariance of two rows about their means (not normalised). -/
def covCentered (f g : Fin 600 → EReal) : EReal := ∑ t, (f t - mean f) * (g t - mean g)

/-- The same covariance from the raw second moment: the sum of products less 600 times the product of the means. -/
def covRaw (f g : Fin 600 → EReal) : EReal := (∑ t, f t * g t) - w600 * (mean f * mean g)

/-- A covariance over the product of the two standard deviations, clipped to [-1, 1]. -/
def clipCorr (cd cc dd : EReal) : EReal :=
  min wPos1 (max wNeg1 (Ideal.div cd (Ideal.sqrt cc * Ideal.sqrt dd)))

/-- Row `c` of epoch `e` of batch `B`: the 600 samples `x[B, c, 600 e + t]`. -/
def row (x : (⟨3, ![64, 64, 6000]⟩ : Shape).Idx → EReal) (B : Fin 64) (e : Fin 10) (c : Fin 64) : Fin 600 → EReal :=
  fun t => x (ix3 B c ⟨600 * e.val + t.val, by have := e.isLt; have := t.isLt; omega⟩)

/-- The correlation of channels `c` and `d` in epoch `e` of batch `B`, by centered covariances. -/
def corrCentered (x : (⟨3, ![64, 64, 6000]⟩ : Shape).Idx → EReal) (B : Fin 64) (e : Fin 10) (c d : Fin 64) : EReal :=
  clipCorr (covCentered (row x B e c) (row x B e d)) (covCentered (row x B e c) (row x B e c))
    (covCentered (row x B e d) (row x B e d))

/-- The same by raw covariances. -/
def corrRaw (x : (⟨3, ![64, 64, 6000]⟩ : Shape).Idx → EReal) (B : Fin 64) (e : Fin 10) (c d : Fin 64) : EReal :=
  clipCorr (covRaw (row x B e c) (row x B e d)) (covRaw (row x B e c) (row x B e c))
    (covRaw (row x B e d) (row x B e d))

/-- The whole result `[64, 10, 64, 64]` by centered covariances. -/
def G (x : (⟨3, ![64, 64, 6000]⟩ : Shape).Idx → EReal) : (⟨4, ![64, 10, 64, 64]⟩ : Shape).Idx → EReal :=
  fun i => corrCentered x (i 0) (i 1) (i 2) (i 3)

/-- The whole result by raw covariances. -/
def GRaw (x : (⟨3, ![64, 64, 6000]⟩ : Shape).Idx → EReal) : (⟨4, ![64, 10, 64, 64]⟩ : Shape).Idx → EReal :=
  fun i => corrRaw x (i 0) (i 1) (i 2) (i 3)

/-! ## The law -/

/-- Over the reals: `sum (f - a)(g - b) = sum f g - n * (a * b)` when `a = (sum f) / n`, `b = (sum g) / n` and `n ≠ 0`,
    the sum over a finite type of `n` elements. -/
theorem cov_real {K : Type*} [Fintype K] (f g : K → ℝ) (n : ℝ) (hn : n ≠ 0) (hcard : (Fintype.card K : ℝ) = n) :
    (∑ t, (f t - (∑ s, f s) * (1 / n)) * (g t - (∑ s, g s) * (1 / n)))
      = (∑ t, f t * g t) - n * ((∑ s, f s) * (1 / n) * ((∑ s, g s) * (1 / n))) := by
  set a := (∑ s, f s) * (1 / n) with ha
  set b := (∑ s, g s) * (1 / n) with hb
  have hfa : (∑ t, f t) = n * a := by rw [ha]; field_simp
  have hgb : (∑ t, g t) = n * b := by rw [hb]; field_simp
  have e1 : ∀ t, (f t - a) * (g t - b) = f t * g t - b * f t - a * g t + a * b := fun t => by ring
  simp only [e1, Finset.sum_add_distrib, Finset.sum_sub_distrib, ← Finset.mul_sum, Finset.sum_const,
    Finset.card_univ, nsmul_eq_mul, hfa, hgb, hcard]
  ring

/-- On rows of real entries the raw covariance is the centered one. -/
theorem covRaw_eq_covCentered (f g : Fin 600 → EReal) (hf : ∀ t, IsReal (f t)) (hg : ∀ t, IsReal (g t)) :
    covRaw f g = covCentered f g := by
  choose f' hf' using hf
  choose g' hg' using hg
  have h600 : (600 : ℝ) ≠ 0 := by norm_num
  unfold covRaw covCentered mean
  simp only [hf', hg', w600_eq, Ideal.div_coe h600, ← EReal.coe_mul, ← coe_sum, ← EReal.coe_sub]
  refine congrArg _ (cov_real f' g' 600 h600 ?_).symm
  simp

/-- On an array of real entries the correlation by raw covariances is the one by centered covariances. -/
theorem corrRaw_eq_corrCentered (x : (⟨3, ![64, 64, 6000]⟩ : Shape).Idx → EReal) (hx : ∀ i, IsReal (x i))
    (B : Fin 64) (e : Fin 10) (c d : Fin 64) : corrRaw x B e c d = corrCentered x B e c d := by
  have hr : ∀ (c : Fin 64) (t : Fin 600), IsReal (row x B e c t) := fun c t => hx _
  unfold corrRaw corrCentered
  rw [covRaw_eq_covCentered _ _ (hr c) (hr d), covRaw_eq_covCentered _ _ (hr c) (hr c),
    covRaw_eq_covCentered _ _ (hr d) (hr d)]

/-- So on an array of real entries the two results are one. -/
theorem GRaw_eq_G (x : (⟨3, ![64, 64, 6000]⟩ : Shape).Idx → EReal) (hx : ∀ i, IsReal (x i)) : GRaw x = G x :=
  funext fun i => corrRaw_eq_corrCentered x hx (i 0) (i 1) (i 2) (i 3)

end Cert.Corr

end
-- ==== Proof.Finite.lean ====
/- Finiteness of the input, read out of the precondition.

   The precondition is one `all` over the input array: every entry's absolute value is below +infinity.  On the
   extended reals `max x (-x) < ⊤` excludes both infinities, so every entry is (the image of) a real number; that is
   what the covariance law needs. -/
import proofs.«147870_j56942676410883_2_alg».proof.Pre_finite_inputs
import proofs.«147870_j56942676410883_2_alg».proof.Proof.LibRealLaw
import Idealize.ShloMosaic.Lib.ReduceAll
import Idealize.ShloMosaic.Lib.ValueIdx
import Idealize.ShloMosaic.PureOps.Ideal

noncomputable section

namespace Cert.Corr

open Idealize.ShloMosaic Cert.Attn.RealLaw

/-- A rank-zero shape has one index. -/
instance : Subsingleton (Cert.Pre_finite_inputs.S_.Idx) := ⟨fun a b => funext fun d => d.elim0⟩

/-- An extended real whose absolute value compares below the word of +infinity is a real number. -/
theorem isReal_of_abs_lt_inf (x : EReal)
    (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

variable [Cert.Pre_finite_inputs.Facts]

/-- If the precondition's `all` is one, every entry of the array is a real number. -/
theorem real_of_pre (x : FVec Ideal Cert.Pre_finite_inputs.S64x64x6000 .f32)
    (h : Cert.Pre_finite_inputs.fn (F := Ideal) x = fun _ => 1#1) : ∀ i, IsReal (x i) := by
  intro i
  have h0 := congrFun h ValueIdx.ix0
  dsimp only [Cert.Pre_finite_inputs.fn] at h0
  have hi := Host.reduce_andi_all _ _ _ _ _ h0 i
  exact isReal_of_abs_lt_inf (x i) hi

end Cert.Corr

end
-- ==== Proof.RefOps.lean ====
/- The reference program's arithmetic, written once.

   The reference cuts the input into ten epochs `x[:, :, 600 e : 600 (e + 1)]` and applies the same seventeen
   operations to each: the row means (a sum over the last axis divided by 600), the centered slab, its batched
   product with itself over the sample axis (the covariance matrices), the diagonal of each matrix (a gather at the
   index pairs `(i, i)`), its square root, the outer product of the standard deviations, the quotient and the clip
   to [-1, 1].  The ten results are stacked along a new second axis.  `refEpoch` is the one epoch as a function of
   its slab; `refOut` is the stack over the ten slabs of the input. -/
import proofs.«147870_j56942676410883_2_alg».proof.Proof.Gen.ReferenceIdeal

noncomputable section

namespace Cert.ReferenceIdeal.Hand

open Cert.ReferenceIdeal Idealize.ShloMosaic Idealize.ShloMosaic.TcCoe Idealize.ShloMosaic.StableHlo
open Cert.ReferenceIdeal.Facts₀

variable {F : FTy → Type} [FloatOps F]

/-- The row means of a slab, kept as a column: the sum over the sample axis divided by 600. -/
def refMean (s : FVec F S64x64x600 .f32) : FVec F S64x64x1 .f32 :=
  Host.divf (broadcastInDim S64x64x1 ![0, 1] bcast_S64x64_S64x64x1_0_1 (Host.reduceAdd s (constant S_ .f32 0x00000000#32) reducesTo_S64x64x600_S64x64_d2 h_S_)) (broadcastInDim S64x64x1 ![] bcast_S_S64x64x1 (constant S_ .f32 0x44160000#32))

/-- The slab less its row means. -/
def refCentered (s : FVec F S64x64x600 .f32) : FVec F S64x64x600 .f32 :=
  subf s (broadcastInDim S64x64x600 ![0, 1, 2] bcast_S64x64x1_S64x64x600_0_1_2 (refMean s))

/-- The covariance matrices: per batch, the centered slab times its own transpose over the sample axis. -/
def refCov (s : FVec F S64x64x600 .f32) : FVec F S64x64x64 .f32 :=
  Host.dotGeneral dot_S64x64x600_S64x64x600_S64x64x64_2_2_1_1_0_0 none (refCentered s) (refCentered s)

/-- The index pairs `(i, i)`, `i < 64`, as the diagonal's gather takes them (a negative index would wrap by 64; none is). -/
def diagIdx : IVec S64x2 32 :=
  concatenate S64x2 1 [⟨S64x1, (broadcastInDim S64x1 ![0] bcast_S64_S64x1_0 (select (cmpi .slt (iotaInDim S64 32 0) (broadcastInDim S64 ![] bcast_S_S64 (constantI S_ 32 0#32))) (addi (iotaInDim S64 32 0) (broadcastInDim S64 ![] bcast_S_S64 (constantI S_ 32 64#32))) (iotaInDim S64 32 0)))⟩, ⟨S64x1, (broadcastInDim S64x1 ![0] bcast_S64_S64x1_0 (select (cmpi .slt (iotaInDim S64 32 0) (broadcastInDim S64 ![] bcast_S_S64 (constantI S_ 32 0#32))) (addi (iotaInDim S64 32 0) (broadcastInDim S64 ![] bcast_S_S64 (constantI S_ 32 64#32))) (iotaInDim S64 32 0)))⟩] concatenates_S64x1_S64x1_S64x2_d1

/-- The standard deviations: the square root of each covariance matrix's diagonal. -/
def refStd (s : FVec F S64x64x600 .f32) : FVec F S64x64 .f32 :=
  Host.sqrt (Host.gather gather_S64x64x64_S64x2_S64x64_0_12_n_n_12_1_6411 (refCov s) diagIdx)

/-- One epoch: the covariance over the outer product of the standard deviations, clipped to [-1, 1]. -/
def refEpoch (s : FVec F S64x64x600 .f32) : FVec F S64x64x64 .f32 :=
  minimumf (broadcastInDim S64x64x64 ![] bcast_S_S64x64x64 (id (constant S_ .f32 0x3F800000#32))) (maximumf (broadcastInDim S64x64x64 ![] bcast_S_S64x64x64 (id (constant S_ .f32 0xBF800000#32))) (Host.divf (refCov s) (mulf (broadcastInDim S64x64x64 ![0, 1, 2] bcast_S64x64x1_S64x64x64_0_1_2 (broadcastInDim S64x64x1 ![0, 1] bcast_S64x64_S64x64x1_0_1 (refStd s))) (broadcastInDim S64x64x64 ![0, 1, 2] bcast_S64x1x64_S64x64x64_0_1_2 (broadcastInDim S64x1x64 ![0, 2] bcast_S64x64_S64x1x64_0_2 (refStd s))))))

/-- One epoch's result with the new epoch axis of extent one. -/
def refPlane (s : FVec F S64x64x600 .f32) : FVec F S64x1x64x64 .f32 :=
  broadcastInDim S64x1x64x64 ![0, 2, 3] bcast_S64x64x64_S64x1x64x64_0_2_3 (refEpoch s)

/-- Epoch 0's slab: samples 0 to 599. -/
def slab0 (x : FVec F S64x64x6000 .f32) : FVec F S64x64x600 .f32 :=
  extractStridedSlice S64x64x600 ![0, 0, 0] x slices_S64x64x6000_S64x64x600_0_0_0

/-- Epoch 1's slab: samples 600 to 1199. -/
def slab1 (x : FVec F S64x64x6000 .f32) : FVec F S64x64x600 .f32 :=
  extractStridedSlice S64x64x600 ![0, 0, 600] x slices_S64x64x6000_S64x64x600_0_0_600

/-- Epoch 2's slab: samples 1200 to 1799. -/
def slab2 (x : FVec F S64x64x6000 .f32) : FVec F S64x64x600 .f32 :=
  extractStridedSlice S64x64x600 ![0, 0, 1200] x slices_S64x64x6000_S64x64x600_0_0_1200

/-- Epoch 3's slab: samples 1800 to 2399. -/
def slab3 (x : FVec F S64x64x6000 .f32) : FVec F S64x64x600 .f32 :=
  extractStridedSlice S64x64x600 ![0, 0, 1800] x slices_S64x64x6000_S64x64x600_0_0_1800

/-- Epoch 4's slab: samples 2400 to 2999. -/
def slab4 (x : FVec F S64x64x6000 .f32) : FVec F S64x64x600 .f32 :=
  extractStridedSlice S64x64x600 ![0, 0, 2400] x slices_S64x64x6000_S64x64x600_0_0_2400

/-- Epoch 5's slab: samples 3000 to 3599. -/
def slab5 (x : FVec F S64x64x6000 .f32) : FVec F S64x64x600 .f32 :=
  extractStridedSlice S64x64x600 ![0, 0, 3000] x slices_S64x64x6000_S64x64x600_0_0_3000

/-- Epoch 6's slab: samples 3600 to 4199. -/
def slab6 (x : FVec F S64x64x6000 .f32) : FVec F S64x64x600 .f32 :=
  extractStridedSlice S64x64x600 ![0, 0, 3600] x slices_S64x64x6000_S64x64x600_0_0_3600

/-- Epoch 7's slab: samples 4200 to 4799. -/
def slab7 (x : FVec F S64x64x6000 .f32) : FVec F S64x64x600 .f32 :=
  extractStridedSlice S64x64x600 ![0, 0, 4200] x slices_S64x64x6000_S64x64x600_0_0_4200

/-- Epoch 8's slab: samples 4800 to 5399. -/
def slab8 (x : FVec F S64x64x6000 .f32) : FVec F S64x64x600 .f32 :=
  extractStridedSlice S64x64x600 ![0, 0, 4800] x slices_S64x64x6000_S64x64x600_0_0_4800

/-- Epoch 9's slab: samples 5400 to 5999. -/
def slab9 (x : FVec F S64x64x6000 .f32) : FVec F S64x64x600 .f32 :=
  extractStridedSlice S64x64x600 ![0, 0, 5400] x slices_S64x64x6000_S64x64x600_0_0_5400

/-- The reference's result: the ten epochs stacked along the second axis. -/
def refOut (x : FVec F S64x64x6000 .f32) : FVec F S64x10x64x64 .f32 :=
  concatenate S64x10x64x64 1 [⟨S64x1x64x64, refPlane (slab0 x)⟩, ⟨S64x1x64x64, refPlane (slab1 x)⟩, ⟨S64x1x64x64, refPlane (slab2 x)⟩, ⟨S64x1x64x64, refPlane (slab3 x)⟩, ⟨S64x1x64x64, refPlane (slab4 x)⟩, ⟨S64x1x64x64, refPlane (slab5 x)⟩, ⟨S64x1x64x64, refPlane (slab6 x)⟩, ⟨S64x1x64x64, refPlane (slab7 x)⟩, ⟨S64x1x64x64, refPlane (slab8 x)⟩, ⟨S64x1x64x64, refPlane (slab9 x)⟩] concatenates_S64x1x64x64_S64x1x64x64_S64x1x64x64_S64x1x64x64_S64x1x64x64_S64x1x64x64_S64x1x64x64_S64x1x64x64_S64x1x64x64_S64x1x64x64_S64x10x64x64_d1

end Cert.ReferenceIdeal.Hand

end
-- ==== Proof.RefRun.lean ====
/- The reference program runs, and its result buffer ends at `refOut` of the input array.

   The reference's @main is a straight line of host operations: each reads buffers written before it and writes
   one buffer of its own, so every weakly fair execution terminates and each buffer ends at the composition of the
   operations that lead to it, applied to the input as launched.  The called functions (the diagonal, the clip)
   stand in their calls' places over the calls' own buffers.  Composed, the ten epochs' operations are `refEpoch`
   of the ten slabs, stacked: `refOut`. -/
import proofs.«147870_j56942676410883_2_alg».proof.Proof.Gen.ReferenceIdeal
import proofs.«147870_j56942676410883_2_alg».proof.Proof.RefOps
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 8000000 in
/-- @main's operations in program order; a called function's operations stand at its call, over that call's buffers. -/
abbrev ops : List (HloOp τ sig (Elt F)) :=
  [ unary main_arg0 main_v0 ((extractStridedSlice S64x64x600 ![0, 0, 0] · slices_S64x64x6000_S64x64x600_0_0_0) : (⟨S64x64x6000, .f32⟩ : BufTy).Contents (Elt F) → (⟨S64x64x600, .f32⟩ : BufTy).Contents (Elt F)),
    nullary main_cst (constant S_ .f32 0x00000000#32),
    binary main_v0 main_cst main_v1 ((fun x v => Host.reduceAdd x v reducesTo_S64x64x600_S64x64_d2 h_S_) : (⟨S64x64x600, .f32⟩ : BufTy).Contents (Elt F) → (⟨S_, .f32⟩ : BufTy).Contents (Elt F) → (⟨S64x64, .f32⟩ : BufTy).Contents (Elt F)),
    unary main_v1 main_v2 (broadcastInDim S64x64x1 ![0, 1] bcast_S64x64_S64x64x1_0_1 : (⟨S64x64, .f32⟩ : BufTy).Contents (Elt F) → (⟨S64x64x1, .f32⟩ : BufTy).Contents (Elt F)),
    nullary main_cst_0 (constant S_ .f32 0x44160000#32),
    unary main_cst_0 main_v3 (broadcastInDim S64x64x1 ![] bcast_S_S64x64x1 : (⟨S_, .f32⟩ : BufTy).Contents (Elt F) → (⟨S64x64x1, .f32⟩ : BufTy).Contents (Elt F)),
    binary main_v2 main_v3 main_v4 (Host.divf : (⟨S64x64x1, .f32⟩ : BufTy).Contents (Elt F) → (⟨S64x64x1, .f32⟩ : BufTy).Contents (Elt F) → (⟨S64x64x1, .f32⟩ : BufTy).Contents (Elt F)),
    unary main_v4 main_v5 (broadcastInDim S64x64x600 ![0, 1, 2] bcast_S64x64x1_S64x64x600_0_1_2 : (⟨S64x64x1, .f32⟩ : BufTy).Contents (Elt F) → (⟨S64x64x600, .f32⟩ : BufTy).Contents (Elt F)),
    binary main_v0 main_v5 main_v6 (subf : (⟨S64x64x600, .f32⟩ : BufTy).Contents (Elt F) → (⟨S64x64x600, .f32⟩ : BufTy).Contents (Elt F) → (⟨S64x64x600, .f32⟩ : BufTy).Contents (Elt F)),
    binary main_v6 main_v6 main_v7 ((fun l r => Host.dotGeneral dot_S64x64x600_S64x64x600_S64x64x64_2_2_1_1_0_0 none l r) : (⟨S64x64x600, .f32⟩ : BufTy).Contents (Elt F) → (⟨S64x64x600, .f32⟩ : BufTy).Contents (Elt F) → (⟨S64x64x64, .f32⟩ : BufTy).Contents (Elt F)),
    TRef.nullary (TRef.of (T := ⟨S64, .i32⟩) main_call0_v0) (iotaInDim S64 32 0),
    TRef.nullary (TRef.of (T := ⟨S64, .i32⟩) main_call0_v1) (iotaInDim S64 32 0),
    TRef.nullary (TRef.of (T := ⟨S_, .i32⟩) main_call0_c) (constantI S_ 32 0#32),
    TRef.unary (TRef.of (T := ⟨S_, .i32⟩) main_call0_c) (TRef.of (T := ⟨S64, .i32⟩) main_call0_v2) (broadcastInDim S64 ![] bcast_S_S64),
    TRef.binary (TRef.of (T := ⟨S64, .i32⟩) main_call0_v0) (TRef.of (T := ⟨S64, .i32⟩) main_call0_v2) (TRef.of (T := ⟨S64, .i1⟩) main_call0_v3) (cmpi .slt),
    TRef.nullary (TRef.of (T := ⟨S_, .i32⟩) main_call0_c_0) (constantI S_ 32 64#32),
    TRef.unary (TRef.of (T := ⟨S_, .i32⟩) main_call0_c_0) (TRef.of (T := ⟨S64, .i32⟩) main_call0_v4) (broadcastInDim S64 ![] bcast_S_S64),
    TRef.binary (TRef.of (T := ⟨S64, .i32⟩) main_call0_v0) (TRef.of (T := ⟨S64, .i32⟩) main_call0_v4) (TRef.of (T := ⟨S64, .i32⟩) main_call0_v5) addi,
    TRef.ternary (TRef.of (T := ⟨S64, .i1⟩) main_call0_v3) (TRef.of (T := ⟨S64, .i32⟩) main_call0_v5) (TRef.of (T := ⟨S64, .i32⟩) main_call0_v0) (TRef.of (T := ⟨S64, .i32⟩) main_call0_v6) select,
    TRef.nullary (TRef.of (T := ⟨S_, .i32⟩) main_call0_c_1) (constantI S_ 32 0#32),
    TRef.unary (TRef.of (T := ⟨S_, .i32⟩) main_call0_c_1) (TRef.of (T := ⟨S64, .i32⟩) main_call0_v7) (broadcastInDim S64 ![] bcast_S_S64),
    TRef.binary (TRef.of (T := ⟨S64, .i32⟩) main_call0_v1) (TRef.of (T := ⟨S64, .i32⟩) main_call0_v7) (TRef.of (T := ⟨S64, .i1⟩) main_call0_v8) (cmpi .slt),
    TRef.nullary (TRef.of (T := ⟨S_, .i32⟩) main_call0_c_2) (constantI S_ 32 64#32),
    TRef.unary (TRef.of (T := ⟨S_, .i32⟩) main_call0_c_2) (TRef.of (T := ⟨S64, .i32⟩) main_call0_v9) (broadcastInDim S64 ![] bcast_S_S64),
    TRef.binary (TRef.of (T := ⟨S64, .i32⟩) main_call0_v1) (TRef.of (T := ⟨S64, .i32⟩) main_call0_v9) (TRef.of (T := ⟨S64, .i32⟩) main_call0_v10) addi,
    TRef.ternary (TRef.of (T := ⟨S64, .i1⟩) main_call0_v8) (TRef.of (T := ⟨S64, .i32⟩) main_call0_v10) (TRef.of (T := ⟨S64, .i32⟩) main_call0_v1) (TRef.of (T := ⟨S64, .i32⟩) main_call0_v11) select,
    TRef.unary (TRef.of (T := ⟨S64, .i32⟩) main_call0_v6) (TRef.of (T := ⟨S64x1, .i32⟩) main_call0_v12) (broadcastInDim S64x1 ![0] bcast_S64_S64x1_0),
    TRef.unary (TRef.of (T := ⟨S64, .i32⟩) main_call0_v11) (TRef.of (T := ⟨S64x1, .i32⟩) main_call0_v13) (broadcastInDim S64x1 ![0] bcast_S64_S64x1_0),
    TRef.binary (TRef.of (T := ⟨S64x1, .i32⟩) main_call0_v12) (TRef.of (T := ⟨S64x1, .i32⟩) main_call0_v13) (TRef.of (T := ⟨S64x2, .i32⟩) main_call0_v14) (fun a b => concatenate S64x2 1 [⟨S64x1, a⟩, ⟨S64x1, b⟩] concatenates_S64x1_S64x1_S64x2_d1),
    TRef.binary (TRef.of (T := ⟨S64x64x64, .f32⟩) main_v7) (TRef.of (T := ⟨S64x2, .i32⟩) main_call0_v14) (TRef.of (T := ⟨S64x64, .f32⟩) main_v8) (fun x i => Host.gather gather_S64x64x64_S64x2_S64x64_0_12_n_n_12_1_6411 x i),
    unary main_v8 main_v9 (Host.sqrt : (⟨S64x64, .f32⟩ : BufTy).Contents (Elt F) → (⟨S64x64, .f32⟩ : BufTy).Contents (Elt F)),
    unary main_v9 main_v10 (broadcastInDim S64x64x1 ![0, 1] bcast_S64x64_S64x64x1_0_1 : (⟨S64x64, .f32⟩ : BufTy).Contents (Elt F) → (⟨S64x64x1, .f32⟩ : BufTy).Contents (Elt F)),
    unary main_v9 main_v11 (broadcastInDim S64x1x64 ![0, 2] bcast_S64x64_S64x1x64_0_2 : (⟨S64x64, .f32⟩ : BufTy).Contents (Elt F) → (⟨S64x1x64, .f32⟩ : BufTy).Contents (Elt F)),
    unary main_v10 main_v12 (broadcastInDim S64x64x64 ![0, 1, 2] bcast_S64x64x1_S64x64x64_0_1_2 : (⟨S64x64x1, .f32⟩ : BufTy).Contents (Elt F) → (⟨S64x64x64, .f32⟩ : BufTy).Contents (Elt F)),
    unary main_v11 main_v13 (broadcastInDim S64x64x64 ![0, 1, 2] bcast_S64x1x64_S64x64x64_0_1_2 : (⟨S64x1x64, .f32⟩ : BufTy).Contents (Elt F) → (⟨S64x64x64, .f32⟩ : BufTy).Contents (Elt F)),
    binary main_v12 main_v13 main_v14 (mulf : (⟨S64x64x64, .f32⟩ : BufTy).Contents (Elt F) → (⟨S64x64x64, .f32⟩ : BufTy).Contents (Elt F) → (⟨S64x64x64, .f32⟩ : BufTy).Contents (Elt F)),
    binary main_v7 main_v14 main_v15 (Host.divf : (⟨S64x64x64, .f32⟩ : BufTy).Contents (Elt F) → (⟨S64x64x64, .f32⟩ : BufTy).Contents (Elt F) → (⟨S64x64x64, .f32⟩ : BufTy).Contents (Elt F)),
    nullary main_cst_1 (constant S_ .f32 0xBF800000#32),
    nullary main_cst_2 (constant S_ .f32 0x3F800000#32),
    TRef.unary (TRef.of (T := ⟨S_, .f32⟩) main_cst_1) (TRef.of (T := ⟨S_, .f32⟩) main_call1_v0) id,
    TRef.unary (TRef.of (T := ⟨S_, .f32⟩) main_call1_v0) (TRef.of (T := ⟨S64x64x64, .f32⟩) main_call1_v1) (broadcastInDim S64x64x64 ![] bcast_S_S64x64x64),
    TRef.binary (TRef.of (T := ⟨S64x64x64, .f32⟩) main_call1_v1) (TRef.of (T := ⟨S64x64x64, .f32⟩) main_v15) (TRef.of (T := ⟨S64x64x64, .f32⟩) main_call1_v2) maximumf,
    TRef.unary (TRef.of (T := ⟨S_, .f32⟩) main_cst_2) (TRef.of (T := ⟨S_, .f32⟩) main_call1_v3) id,
    TRef.unary (TRef.of (T := ⟨S_, .f32⟩) main_call1_v3) (TRef.of (T := ⟨S64x64x64, .f32⟩) main_call1_v4) (broadcastInDim S64x64x64 ![] bcast_S_S64x64x64),
    TRef.binary (TRef.of (T := ⟨S64x64x64, .f32⟩) main_call1_v4) (TRef.of (T := ⟨S64x64x64, .f32⟩) main_call1_v2) (TRef.of (T := ⟨S64x64x64, .f32⟩) main_v16) minimumf,
    unary main_arg0 main_v17 ((extractStridedSlice S64x64x600 ![0, 0, 600] · slices_S64x64x6000_S64x64x600_0_0_600) : (⟨S64x64x6000, .f32⟩ : BufTy).Contents (Elt F) → (⟨S64x64x600, .f32⟩ : BufTy).Contents (Elt F)),
    nullary main_cst_3 (constant S_ .f32 0x00000000#32),
    binary main_v17 main_cst_3 main_v18 ((fun x v => Host.reduceAdd x v reducesTo_S64x64x600_S64x64_d2 h_S_) : (⟨S64x64x600, .f32⟩ : BufTy).Contents (Elt F) → (⟨S_, .f32⟩ : BufTy).Contents (Elt F) → (⟨S64x64, .f32⟩ : BufTy).Contents (Elt F)),
    unary main_v18 main_v19 (broadcastInDim S64x64x1 ![0, 1] bcast_S64x64_S64x64x1_0_1 : (⟨S64x64, .f32⟩ : BufTy).Contents (Elt F) → (⟨S64x64x1, .f32⟩ : BufTy).Contents (Elt F)),
    nullary main_cst_4 (constant S_ .f32 0x44160000#32),
    unary main_cst_4 main_v20 (broadcastInDim S64x64x1 ![] bcast_S_S64x64x1 : (⟨S_, .f32⟩ : BufTy).Contents (Elt F) → (⟨S64x64x1, .f32⟩ : BufTy).Contents (Elt F)),
    binary main_v19 main_v20 main_v21 (Host.divf : (⟨S64x64x1, .f32⟩ : BufTy).Contents (Elt F) → (⟨S64x64x1, .f32⟩ : BufTy).Contents (Elt F) → (⟨S64x64x1, .f32⟩ : BufTy).Contents (Elt F)),
    unary main_v21 main_v22 (broadcastInDim S64x64x600 ![0, 1, 2] bcast_S64x64x1_S64x64x600_0_1_2 : (⟨S64x64x1, .f32⟩ : BufTy).Contents (Elt F) → (⟨S64x64x600, .f32⟩ : BufTy).Contents (Elt F)),
    binary main_v17 main_v22 main_v23 (subf : (⟨S64x64x600, .f32⟩ : BufTy).Contents (Elt F) → (⟨S64x64x600, .f32⟩ : BufTy).Contents (Elt F) → (⟨S64x64x600, .f32⟩ : BufTy).Contents (Elt F)),
    binary main_v23 main_v23 main_v24 ((fun l r => Host.dotGeneral dot_S64x64x600_S64x64x600_S64x64x64_2_2_1_1_0_0 none l r) : (⟨S64x64x600, .f32⟩ : BufTy).Contents (Elt F) → (⟨S64x64x600, .f32⟩ : BufTy).Contents (Elt F) → (⟨S64x64x64, .f32⟩ : BufTy).Contents (Elt F)),
    TRef.nullary (TRef.of (T := ⟨S64, .i32⟩) main_call2_v0) (iotaInDim S64 32 0),
    TRef.nullary (TRef.of (T := ⟨S64, .i32⟩) main_call2_v1) (iotaInDim S64 32 0),
    TRef.nullary (TRef.of (T := ⟨S_, .i32⟩) main_call2_c) (constantI S_ 32 0#32),
    TRef.unary (TRef.of (T := ⟨S_, .i32⟩) main_call2_c) (TRef.of (T := ⟨S64, .i32⟩) main_call2_v2) (broadcastInDim S64 ![] bcast_S_S64),
    TRef.binary (TRef.of (T := ⟨S64, .i32⟩) main_call2_v0) (TRef.of (T := ⟨S64, .i32⟩) main_call2_v2) (TRef.of (T := ⟨S64, .i1⟩) main_call2_v3) (cmpi .slt),
    TRef.nullary (TRef.of (T := ⟨S_, .i32⟩) main_call2_c_0) (constantI S_ 32 64#32),
    TRef.unary (TRef.of (T := ⟨S_, .i32⟩) main_call2_c_0) (TRef.of (T := ⟨S64, .i32⟩) main_call2_v4) (broadcastInDim S64 ![] bcast_S_S64),
    TRef.binary (TRef.of (T := ⟨S64, .i32⟩) main_call2_v0) (TRef.of (T := ⟨S64, .i32⟩) main_call2_v4) (TRef.of (T := ⟨S64, .i32⟩) main_call2_v5) addi,
    TRef.ternary (TRef.of (T := ⟨S64, .i1⟩) main_call2_v3) (TRef.of (T := ⟨S64, .i32⟩) main_call2_v5) (TRef.of (T := ⟨S64, .i32⟩) main_call2_v0) (TRef.of (T := ⟨S64, .i32⟩) main_call2_v6) select,
    TRef.nullary (TRef.of (T := ⟨S_, .i32⟩) main_call2_c_1) (constantI S_ 32 0#32),
    TRef.unary (TRef.of (T := ⟨S_, .i32⟩) main_call2_c_1) (TRef.of (T := ⟨S64, .i32⟩) main_call2_v7) (broadcastInDim S64 ![] bcast_S_S64),
    TRef.binary (TRef.of (T := ⟨S64, .i32⟩) main_call2_v1) (TRef.of (T := ⟨S64, .i32⟩) main_call2_v7) (TRef.of (T := ⟨S64, .i1⟩) main_call2_v8) (cmpi .slt),
    TRef.nullary (TRef.of (T := ⟨S_, .i32⟩) main_call2_c_2) (constantI S_ 32 64#32),
    TRef.unary (TRef.of (T := ⟨S_, .i32⟩) main_call2_c_2) (TRef.of (T := ⟨S64, .i32⟩) main_call2_v9) (broadcastInDim S64 ![] bcast_S_S64),
    TRef.binary (TRef.of (T := ⟨S64, .i32⟩) main_call2_v1) (TRef.of (T := ⟨S64, .i32⟩) main_call2_v9) (TRef.of (T := ⟨S64, .i32⟩) main_call2_v10) addi,
    TRef.ternary (TRef.of (T := ⟨S64, .i1⟩) main_call2_v8) (TRef.of (T := ⟨S64, .i32⟩) main_call2_v10) (TRef.of (T := ⟨S64, .i32⟩) main_call2_v1) (TRef.of (T := ⟨S64, .i32⟩) main_call2_v11) select,
    TRef.unary (TRef.of (T := ⟨S64, .i32⟩) main_call2_v6) (TRef.of (T := ⟨S64x1, .i32⟩) main_call2_v12) (broadcastInDim S64x1 ![0] bcast_S64_S64x1_0),
    TRef.unary (TRef.of (T := ⟨S64, .i32⟩) main_call2_v11) (TRef.of (T := ⟨S64x1, .i32⟩) main_call2_v13) (broadcastInDim S64x1 ![0] bcast_S64_S64x1_0),
    TRef.binary (TRef.of (T := ⟨S64x1, .i32⟩) main_call2_v12) (TRef.of (T := ⟨S64x1, .i32⟩) main_call2_v13) (TRef.of (T := ⟨S64x2, .i32⟩) main_call2_v14) (fun a b => concatenate S64x2 1 [⟨S64x1, a⟩, ⟨S64x1, b⟩] concatenates_S64x1_S64x1_S64x2_d1),
    TRef.binary (TRef.of (T := ⟨S64x64x64, .f32⟩) main_v24) (TRef.of (T := ⟨S64x2, .i32⟩) main_call2_v14) (TRef.of (T := ⟨S64x64, .f32⟩) main_v25) (fun x i => Host.gather gather_S64x64x64_S64x2_S64x64_0_12_n_n_12_1_6411 x i),
    unary main_v25 main_v26 (Host.sqrt : (⟨S64x64, .f32⟩ : BufTy).Contents (Elt F) → (⟨S64x64, .f32⟩ : BufTy).Contents (Elt F)),
    unary main_v26 main_v27 (broadcastInDim S64x64x1 ![0, 1] bcast_S64x64_S64x64x1_0_1 : (⟨S64x64, .f32⟩ : BufTy).Contents (Elt F) → (⟨S64x64x1, .f32⟩ : BufTy).Contents (Elt F)),
    unary main_v26 main_v28 (broadcastInDim S64x1x64 ![0, 2] bcast_S64x64_S64x1x64_0_2 : (⟨S64x64, .f32⟩ : BufTy).Contents (Elt F) → (⟨S64x1x64, .f32⟩ : BufTy).Contents (Elt F)),
    unary main_v27 main_v29 (broadcastInDim S64x64x64 ![0, 1, 2] bcast_S64x64x1_S64x64x64_0_1_2 : (⟨S64x64x1, .f32⟩ : BufTy).Contents (Elt F) → (⟨S64x64x64, .f32⟩ : BufTy).Contents (Elt F)),
    unary main_v28 main_v30 (broadcastInDim S64x64x64 ![0, 1, 2] bcast_S64x1x64_S64x64x64_0_1_2 : (⟨S64x1x64, .f32⟩ : BufTy).Contents (Elt F) → (⟨S64x64x64, .f32⟩ : BufTy).Contents (Elt F)),
    binary main_v29 main_v30 main_v31 (mulf : (⟨S64x64x64, .f32⟩ : BufTy).Contents (Elt F) → (⟨S64x64x64, .f32⟩ : BufTy).Contents (Elt F) → (⟨S64x64x64, .f32⟩ : BufTy).Contents (Elt F)),
    binary main_v24 main_v31 main_v32 (Host.divf : (⟨S64x64x64, .f32⟩ : BufTy).Contents (Elt F) → (⟨S64x64x64, .f32⟩ : BufTy).Contents (Elt F) → (⟨S64x64x64, .f32⟩ : BufTy).Contents (Elt F)),
    nullary main_cst_5 (constant S_ .f32 0xBF800000#32),
    nullary main_cst_6 (constant S_ .f32 0x3F800000#32),
    TRef.unary (TRef.of (T := ⟨S_, .f32⟩) main_cst_5) (TRef.of (T := ⟨S_, .f32⟩) main_call3_v0) id,
    TRef.unary (TRef.of (T := ⟨S_, .f32⟩) main_call3_v0) (TRef.of (T := ⟨S64x64x64, .f32⟩) main_call3_v1) (broadcastInDim S64x64x64 ![] bcast_S_S64x64x64),
    TRef.binary (TRef.of (T := ⟨S64x64x64, .f32⟩) main_call3_v1) (TRef.of (T := ⟨S64x64x64, .f32⟩) main_v32) (TRef.of (T := ⟨S64x64x64, .f32⟩) main_call3_v2) maximumf,
    TRef.unary (TRef.of (T := ⟨S_, .f32⟩) main_cst_6) (TRef.of (T := ⟨S_, .f32⟩) main_call3_v3) id,
    TRef.unary (TRef.of (T := ⟨S_, .f32⟩) main_call3_v3) (TRef.of (T := ⟨S64x64x64, .f32⟩) main_call3_v4) (broadcastInDim S64x64x64 ![] bcast_S_S64x64x64),
    TRef.binary (TRef.of (T := ⟨S64x64x64, .f32⟩) main_call3_v4) (TRef.of (T := ⟨S64x64x64, .f32⟩) main_call3_v2) (TRef.of (T := ⟨S64x64x64, .f32⟩) main_v33) minimumf,
    unary main_arg0 main_v34 ((extractStridedSlice S64x64x600 ![0, 0, 1200] · slices_S64x64x6000_S64x64x600_0_0_1200) : (⟨S64x64x6000, .f32⟩ : BufTy).Contents (Elt F) → (⟨S64x64x600, .f32⟩ : BufTy).Contents (Elt F)),
    nullary main_cst_7 (constant S_ .f32 0x00000000#32),
    binary main_v34 main_cst_7 main_v35 ((fun x v => Host.reduceAdd x v reducesTo_S64x64x600_S64x64_d2 h_S_) : (⟨S64x64x600, .f32⟩ : BufTy).Contents (Elt F) → (⟨S_, .f32⟩ : BufTy).Contents (Elt F) → (⟨S64x64, .f32⟩ : BufTy).Contents (Elt F)),
    unary main_v35 main_v36 (broadcastInDim S64x64x1 ![0, 1] bcast_S64x64_S64x64x1_0_1 : (⟨S64x64, .f32⟩ : BufTy).Contents (Elt F) → (⟨S64x64x1, .f32⟩ : BufTy).Contents (Elt F)),
    nullary main_cst_8 (constant S_ .f32 0x44160000#32),
    unary main_cst_8 main_v37 (broadcastInDim S64x64x1 ![] bcast_S_S64x64x1 : (⟨S_, .f32⟩ : BufTy).Contents (Elt F) → (⟨S64x64x1, .f32⟩ : BufTy).Contents (Elt F)),
    binary main_v36 main_v37 main_v38 (Host.divf : (⟨S64x64x1, .f32⟩ : BufTy).Contents (Elt F) → (⟨S64x64x1, .f32⟩ : BufTy).Contents (Elt F) → (⟨S64x64x1, .f32⟩ : BufTy).Contents (Elt F)),
    unary main_v38 main_v39 (broadcastInDim S64x64x600 ![0, 1, 2] bcast_S64x64x1_S64x64x600_0_1_2 : (⟨S64x64x1, .f32⟩ : BufTy).Contents (Elt F) → (⟨S64x64x600, .f32⟩ : BufTy).Contents (Elt F)),
    binary main_v34 main_v39 main_v40 (subf : (⟨S64x64x600, .f32⟩ : BufTy).Contents (Elt F) → (⟨S64x64x600, .f32⟩ : BufTy).Contents (Elt F) → (⟨S64x64x600, .f32⟩ : BufTy).Contents (Elt F)),
    binary main_v40 main_v40 main_v41 ((fun l r => Host.dotGeneral dot_S64x64x600_S64x64x600_S64x64x64_2_2_1_1_0_0 none l r) : (⟨S64x64x600, .f32⟩ : BufTy).Contents (Elt F) → (⟨S64x64x600, .f32⟩ : BufTy).Contents (Elt F) → (⟨S64x64x64, .f32⟩ : BufTy).Contents (Elt F)),
    TRef.nullary (TRef.of (T := ⟨S64, .i32⟩) main_call4_v0) (iotaInDim S64 32 0),
    TRef.nullary (TRef.of (T := ⟨S64, .i32⟩) main_call4_v1) (iotaInDim S64 32 0),
    TRef.nullary (TRef.of (T := ⟨S_, .i32⟩) main_call4_c) (constantI S_ 32 0#32),
    TRef.unary (TRef.of (T := ⟨S_, .i32⟩) main_call4_c) (TRef.of (T := ⟨S64, .i32⟩) main_call4_v2) (broadcastInDim S64 ![] bcast_S_S64),
    TRef.binary (TRef.of (T := ⟨S64, .i32⟩) main_call4_v0) (TRef.of (T := ⟨S64, .i32⟩) main_call4_v2) (TRef.of (T := ⟨S64, .i1⟩) main_call4_v3) (cmpi .slt),
    TRef.nullary (TRef.of (T := ⟨S_, .i32⟩) main_call4_c_0) (constantI S_ 32 64#32),
    TRef.unary (TRef.of (T := ⟨S_, .i32⟩) main_call4_c_0) (TRef.of (T := ⟨S64, .i32⟩) main_call4_v4) (broadcastInDim S64 ![] bcast_S_S64),
    TRef.binary (TRef.of (T := ⟨S64, .i32⟩) main_call4_v0) (TRef.of (T := ⟨S64, .i32⟩) main_call4_v4) (TRef.of (T := ⟨S64, .i32⟩) main_call4_v5) addi,
    TRef.ternary (TRef.of (T := ⟨S64, .i1⟩) main_call4_v3) (TRef.of (T := ⟨S64, .i32⟩) main_call4_v5) (TRef.of (T := ⟨S64, .i32⟩) main_call4_v0) (TRef.of (T := ⟨S64, .i32⟩) main_call4_v6) select,
    TRef.nullary (TRef.of (T := ⟨S_, .i32⟩) main_call4_c_1) (constantI S_ 32 0#32),
    TRef.unary (TRef.of (T := ⟨S_, .i32⟩) main_call4_c_1) (TRef.of (T := ⟨S64, .i32⟩) main_call4_v7) (broadcastInDim S64 ![] bcast_S_S64),
    TRef.binary (TRef.of (T := ⟨S64, .i32⟩) main_call4_v1) (TRef.of (T := ⟨S64, .i32⟩) main_call4_v7) (TRef.of (T := ⟨S64, .i1⟩) main_call4_v8) (cmpi .slt),
    TRef.nullary (TRef.of (T := ⟨S_, .i32⟩) main_call4_c_2) (constantI S_ 32 64#32),
    TRef.unary (TRef.of (T := ⟨S_, .i32⟩) main_call4_c_2) (TRef.of (T := ⟨S64, .i32⟩) main_call4_v9) (broadcastInDim S64 ![] bcast_S_S64),
    TRef.binary (TRef.of (T := ⟨S64, .i32⟩) main_call4_v1) (TRef.of (T := ⟨S64, .i32⟩) main_call4_v9) (TRef.of (T := ⟨S64, .i32⟩) main_call4_v10) addi,
    TRef.ternary (TRef.of (T := ⟨S64, .i1⟩) main_call4_v8) (TRef.of (T := ⟨S64, .i32⟩) main_call4_v10) (TRef.of (T := ⟨S64, .i32⟩) main_call4_v1) (TRef.of (T := ⟨S64, .i32⟩) main_call4_v11) select,
    TRef.unary (TRef.of (T := ⟨S64, .i32⟩) main_call4_v6) (TRef.of (T := ⟨S64x1, .i32⟩) main_call4_v12) (broadcastInDim S64x1 ![0] bcast_S64_S64x1_0),
    TRef.unary (TRef.of (T := ⟨S64, .i32⟩) main_call4_v11) (TRef.of (T := ⟨S64x1, .i32⟩) main_call4_v13) (broadcastInDim S64x1 ![0] bcast_S64_S64x1_0),
    TRef.binary (TRef.of (T := ⟨S64x1, .i32⟩) main_call4_v12) (TRef.of (T := ⟨S64x1, .i32⟩) main_call4_v13) (TRef.of (T := ⟨S64x2, .i32⟩) main_call4_v14) (fun a b => concatenate S64x2 1 [⟨S64x1, a⟩, ⟨S64x1, b⟩] concatenates_S64x1_S64x1_S64x2_d1),
    TRef.binary (TRef.of (T := ⟨S64x64x64, .f32⟩) main_v41) (TRef.of (T := ⟨S64x2, .i32⟩) main_call4_v14) (TRef.of (T := ⟨S64x64, .f32⟩) main_v42) (fun x i => Host.gather gather_S64x64x64_S64x2_S64x64_0_12_n_n_12_1_6411 x i),
    unary main_v42 main_v43 (Host.sqrt : (⟨S64x64, .f32⟩ : BufTy).Contents (Elt F) → (⟨S64x64, .f32⟩ : BufTy).Contents (Elt F)),
    unary main_v43 main_v44 (broadcastInDim S64x64x1 ![0, 1] bcast_S64x64_S64x64x1_0_1 : (⟨S64x64, .f32⟩ : BufTy).Contents (Elt F) → (⟨S64x64x1, .f32⟩ : BufTy).Contents (Elt F)),
    unary main_v43 main_v45 (broadcastInDim S64x1x64 ![0, 2] bcast_S64x64_S64x1x64_0_2 : (⟨S64x64, .f32⟩ : BufTy).Contents (Elt F) → (⟨S64x1x64, .f32⟩ : BufTy).Contents (Elt F)),
    unary main_v44 main_v46 (broadcastInDim S64x64x64 ![0, 1, 2] bcast_S64x64x1_S64x64x64_0_1_2 : (⟨S64x64x1, .f32⟩ : BufTy).Contents (Elt F) → (⟨S64x64x64, .f32⟩ : BufTy).Contents (Elt F)),
    unary main_v45 main_v47 (broadcastInDim S64x64x64 ![0, 1, 2] bcast_S64x1x64_S64x64x64_0_1_2 : (⟨S64x1x64, .f32⟩ : BufTy).Contents (Elt F) → (⟨S64x64x64, .f32⟩ : BufTy).Contents (Elt F)),
    binary main_v46 main_v47 main_v48 (mulf : (⟨S64x64x64, .f32⟩ : BufTy).Contents (Elt F) → (⟨S64x64x64, .f32⟩ : BufTy).Contents (Elt F) → (⟨S64x64x64, .f32⟩ : BufTy).Contents (Elt F)),
    binary main_v41 main_v48 main_v49 (Host.divf : (⟨S64x64x64, .f32⟩ : BufTy).Contents (Elt F) → (⟨S64x64x64, .f32⟩ : BufTy).Contents (Elt F) → (⟨S64x64x64, .f32⟩ : BufTy).Contents (Elt F)),
    nullary main_cst_9 (constant S_ .f32 0xBF800000#32),
    nullary main_cst_10 (constant S_ .f32 0x3F800000#32),
    TRef.unary (TRef.of (T := ⟨S_, .f32⟩) main_cst_9) (TRef.of (T := ⟨S_, .f32⟩) main_call5_v0) id,
    TRef.unary (TRef.of (T := ⟨S_, .f32⟩) main_call5_v0) (TRef.of (T := ⟨S64x64x64, .f32⟩) main_call5_v1) (broadcastInDim S64x64x64 ![] bcast_S_S64x64x64),
    TRef.binary (TRef.of (T := ⟨S64x64x64, .f32⟩) main_call5_v1) (TRef.of (T := ⟨S64x64x64, .f32⟩) main_v49) (TRef.of (T := ⟨S64x64x64, .f32⟩) main_call5_v2) maximumf,
    TRef.unary (TRef.of (T := ⟨S_, .f32⟩) main_cst_10) (TRef.of (T := ⟨S_, .f32⟩) main_call5_v3) id,
    TRef.unary (TRef.of (T := ⟨S_, .f32⟩) main_call5_v3) (TRef.of (T := ⟨S64x64x64, .f32⟩) main_call5_v4) (broadcastInDim S64x64x64 ![] bcast_S_S64x64x64),
    TRef.binary (TRef.of (T := ⟨S64x64x64, .f32⟩) main_call5_v4) (TRef.of (T := ⟨S64x64x64, .f32⟩) main_call5_v2) (TRef.of (T := ⟨S64x64x64, .f32⟩) main_v50) minimumf,
    unary main_arg0 main_v51 ((extractStridedSlice S64x64x600 ![0, 0, 1800] · slices_S64x64x6000_S64x64x600_0_0_1800) : (⟨S64x64x6000, .f32⟩ : BufTy).Contents (Elt F) → (⟨S64x64x600, .f32⟩ : BufTy).Contents (Elt F)),
    nullary main_cst_11 (constant S_ .f32 0x00000000#32),
    binary main_v51 main_cst_11 main_v52 ((fun x v => Host.reduceAdd x v reducesTo_S64x64x600_S64x64_d2 h_S_) : (⟨S64x64x600, .f32⟩ : BufTy).Contents (Elt F) → (⟨S_, .f32⟩ : BufTy).Contents (Elt F) → (⟨S64x64, .f32⟩ : BufTy).Contents (Elt F)),
    unary main_v52 main_v53 (broadcastInDim S64x64x1 ![0, 1] bcast_S64x64_S64x64x1_0_1 : (⟨S64x64, .f32⟩ : BufTy).Contents (Elt F) → (⟨S64x64x1, .f32⟩ : BufTy).Contents (Elt F)),
    nullary main_cst_12 (constant S_ .f32 0x44160000#32),
    unary main_cst_12 main_v54 (broadcastInDim S64x64x1 ![] bcast_S_S64x64x1 : (⟨S_, .f32⟩ : BufTy).Contents (Elt F) → (⟨S64x64x1, .f32⟩ : BufTy).Contents (Elt F)),
    binary main_v53 main_v54 main_v55 (Host.divf : (⟨S64x64x1, .f32⟩ : BufTy).Contents (Elt F) → (⟨S64x64x1, .f32⟩ : BufTy).Contents (Elt F) → (⟨S64x64x1, .f32⟩ : BufTy).Contents (Elt F)),
    unary main_v55 main_v56 (broadcastInDim S64x64x600 ![0, 1, 2] bcast_S64x64x1_S64x64x600_0_1_2 : (⟨S64x64x1, .f32⟩ : BufTy).Contents (Elt F) → (⟨S64x64x600, .f32⟩ : BufTy).Contents (Elt F)),
    binary main_v51 main_v56 main_v57 (subf : (⟨S64x64x600, .f32⟩ : BufTy).Contents (Elt F) → (⟨S64x64x600, .f32⟩ : BufTy).Contents (Elt F) → (⟨S64x64x600, .f32⟩ : BufTy).Contents (Elt F)),
    binary main_v57 main_v57 main_v58 ((fun l r => Host.dotGeneral dot_S64x64x600_S64x64x600_S64x64x64_2_2_1_1_0_0 none l r) : (⟨S64x64x600, .f32⟩ : BufTy).Contents (Elt F) → (⟨S64x64x600, .f32⟩ : BufTy).Contents (Elt F) → (⟨S64x64x64, .f32⟩ : BufTy).Contents (Elt F)),
    TRef.nullary (TRef.of (T := ⟨S64, .i32⟩) main_call6_v0) (iotaInDim S64 32 0),
    TRef.nullary (TRef.of (T := ⟨S64, .i32⟩) main_call6_v1) (iotaInDim S64 32 0),
    TRef.nullary (TRef.of (T := ⟨S_, .i32⟩) main_call6_c) (constantI S_ 32 0#32),
    TRef.unary (TRef.of (T := ⟨S_, .i32⟩) main_call6_c) (TRef.of (T := ⟨S64, .i32⟩) main_call6_v2) (broadcastInDim S64 ![] bcast_S_S64),
    TRef.binary (TRef.of (T := ⟨S64, .i32⟩) main_call6_v0) (TRef.of (T := ⟨S64, .i32⟩) main_call6_v2) (TRef.of (T := ⟨S64, .i1⟩) main_call6_v3) (cmpi .slt),
    TRef.nullary (TRef.of (T := ⟨S_, .i32⟩) main_call6_c_0) (constantI S_ 32 64#32),
    TRef.unary (TRef.of (T := ⟨S_, .i32⟩) main_call6_c_0) (TRef.of (T := ⟨S64, .i32⟩) main_call6_v4) (broadcastInDim S64 ![] bcast_S_S64),
    TRef.binary (TRef.of (T := ⟨S64, .i32⟩) main_call6_v0) (TRef.of (T := ⟨S64, .i32⟩) main_call6_v4) (TRef.of (T := ⟨S64, .i32⟩) main_call6_v5) addi,
    TRef.ternary (TRef.of (T := ⟨S64, .i1⟩) main_call6_v3) (TRef.of (T := ⟨S64, .i32⟩) main_call6_v5) (TRef.of (T := ⟨S64, .i32⟩) main_call6_v0) (TRef.of (T := ⟨S64, .i32⟩) main_call6_v6) select,
    TRef.nullary (TRef.of (T := ⟨S_, .i32⟩) main_call6_c_1) (constantI S_ 32 0#32),
    TRef.unary (TRef.of (T := ⟨S_, .i32⟩) main_call6_c_1) (TRef.of (T := ⟨S64, .i32⟩) main_call6_v7) (broadcastInDim S64 ![] bcast_S_S64),
    TRef.binary (TRef.of (T := ⟨S64, .i32⟩) main_call6_v1) (TRef.of (T := ⟨S64, .i32⟩) main_call6_v7) (TRef.of (T := ⟨S64, .i1⟩) main_call6_v8) (cmpi .slt),
    TRef.nullary (TRef.of (T := ⟨S_, .i32⟩) main_call6_c_2) (constantI S_ 32 64#32),
    TRef.unary (TRef.of (T := ⟨S_, .i32⟩) main_call6_c_2) (TRef.of (T := ⟨S64, .i32⟩) main_call6_v9) (broadcastInDim S64 ![] bcast_S_S64),
    TRef.binary (TRef.of (T := ⟨S64, .i32⟩) main_call6_v1) (TRef.of (T := ⟨S64, .i32⟩) main_call6_v9) (TRef.of (T := ⟨S64, .i32⟩) main_call6_v10) addi,
    TRef.ternary (TRef.of (T := ⟨S64, .i1⟩) main_call6_v8) (TRef.of (T := ⟨S64, .i32⟩) main_call6_v10) (TRef.of (T := ⟨S64, .i32⟩) main_call6_v1) (TRef.of (T := ⟨S64, .i32⟩) main_call6_v11) select,
    TRef.unary (TRef.of (T := ⟨S64, .i32⟩) main_call6_v6) (TRef.of (T := ⟨S64x1, .i32⟩) main_call6_v12) (broadcastInDim S64x1 ![0] bcast_S64_S64x1_0),
    TRef.unary (TRef.of (T := ⟨S64, .i32⟩) main_call6_v11) (TRef.of (T := ⟨S64x1, .i32⟩) main_call6_v13) (broadcastInDim S64x1 ![0] bcast_S64_S64x1_0),
    TRef.binary (TRef.of (T := ⟨S64x1, .i32⟩) main_call6_v12) (TRef.of (T := ⟨S64x1, .i32⟩) main_call6_v13) (TRef.of (T := ⟨S64x2, .i32⟩) main_call6_v14) (fun a b => concatenate S64x2 1 [⟨S64x1, a⟩, ⟨S64x1, b⟩] concatenates_S64x1_S64x1_S64x2_d1),
    TRef.binary (TRef.of (T := ⟨S64x64x64, .f32⟩) main_v58) (TRef.of (T := ⟨S64x2, .i32⟩) main_call6_v14) (TRef.of (T := ⟨S64x64, .f32⟩) main_v59) (fun x i => Host.gather gather_S64x64x64_S64x2_S64x64_0_12_n_n_12_1_6411 x i),
    unary main_v59 main_v60 (Host.sqrt : (⟨S64x64, .f32⟩ : BufTy).Contents (Elt F) → (⟨S64x64, .f32⟩ : BufTy).Contents (Elt F)),
    unary main_v60 main_v61 (broadcastInDim S64x64x1 ![0, 1] bcast_S64x64_S64x64x1_0_1 : (⟨S64x64, .f32⟩ : BufTy).Contents (Elt F) → (⟨S64x64x1, .f32⟩ : BufTy).Contents (Elt F)),
    unary main_v60 main_v62 (broadcastInDim S64x1x64 ![0, 2] bcast_S64x64_S64x1x64_0_2 : (⟨S64x64, .f32⟩ : BufTy).Contents (Elt F) → (⟨S64x1x64, .f32⟩ : BufTy).Contents (Elt F)),
    unary main_v61 main_v63 (broadcastInDim S64x64x64 ![0, 1, 2] bcast_S64x64x1_S64x64x64_0_1_2 : (⟨S64x64x1, .f32⟩ : BufTy).Contents (Elt F) → (⟨S64x64x64, .f32⟩ : BufTy).Contents (Elt F)),
    unary main_v62 main_v64 (broadcastInDim S64x64x64 ![0, 1, 2] bcast_S64x1x64_S64x64x64_0_1_2 : (⟨S64x1x64, .f32⟩ : BufTy).Contents (Elt F) → (⟨S64x64x64, .f32⟩ : BufTy).Contents (Elt F)),
    binary main_v63 main_v64 main_v65 (mulf : (⟨S64x64x64, .f32⟩ : BufTy).Contents (Elt F) → (⟨S64x64x64, .f32⟩ : BufTy).Contents (Elt F) → (⟨S64x64x64, .f32⟩ : BufTy).Contents (Elt F)),
    binary main_v58 main_v65 main_v66 (Host.divf : (⟨S64x64x64, .f32⟩ : BufTy).Contents (Elt F) → (⟨S64x64x64, .f32⟩ : BufTy).Contents (Elt F) → (⟨S64x64x64, .f32⟩ : BufTy).Contents (Elt F)),
    nullary main_cst_13 (constant S_ .f32 0xBF800000#32),
    nullary main_cst_14 (constant S_ .f32 0x3F800000#32),
    TRef.unary (TRef.of (T := ⟨S_, .f32⟩) main_cst_13) (TRef.of (T := ⟨S_, .f32⟩) main_call7_v0) id,
    TRef.unary (TRef.of (T := ⟨S_, .f32⟩) main_call7_v0) (TRef.of (T := ⟨S64x64x64, .f32⟩) main_call7_v1) (broadcastInDim S64x64x64 ![] bcast_S_S64x64x64),
    TRef.binary (TRef.of (T := ⟨S64x64x64, .f32⟩) main_call7_v1) (TRef.of (T := ⟨S64x64x64, .f32⟩) main_v66) (TRef.of (T := ⟨S64x64x64, .f32⟩) main_call7_v2) maximumf,
    TRef.unary (TRef.of (T := ⟨S_, .f32⟩) main_cst_14) (TRef.of (T := ⟨S_, .f32⟩) main_call7_v3) id,
    TRef.unary (TRef.of (T := ⟨S_, .f32⟩) main_call7_v3) (TRef.of (T := ⟨S64x64x64, .f32⟩) main_call7_v4) (broadcastInDim S64x64x64 ![] bcast_S_S64x64x64),
    TRef.binary (TRef.of (T := ⟨S64x64x64, .f32⟩) main_call7_v4) (TRef.of (T := ⟨S64x64x64, .f32⟩) main_call7_v2) (TRef.of (T := ⟨S64x64x64, .f32⟩) main_v67) minimumf,
    unary main_arg0 main_v68 ((extractStridedSlice S64x64x600 ![0, 0, 2400] · slices_S64x64x6000_S64x64x600_0_0_2400) : (⟨S64x64x6000, .f32⟩ : BufTy).Contents (Elt F) → (⟨S64x64x600, .f32⟩ : BufTy).Contents (Elt F)),
    nullary main_cst_15 (constant S_ .f32 0x00000000#32),
    binary main_v68 main_cst_15 main_v69 ((fun x v => Host.reduceAdd x v reducesTo_S64x64x600_S64x64_d2 h_S_) : (⟨S64x64x600, .f32⟩ : BufTy).Contents (Elt F) → (⟨S_, .f32⟩ : BufTy).Contents (Elt F) → (⟨S64x64, .f32⟩ : BufTy).Contents (Elt F)),
    unary main_v69 main_v70 (broadcastInDim S64x64x1 ![0, 1] bcast_S64x64_S64x64x1_0_1 : (⟨S64x64, .f32⟩ : BufTy).Contents (Elt F) → (⟨S64x64x1, .f32⟩ : BufTy).Contents (Elt F)),
    nullary main_cst_16 (constant S_ .f32 0x44160000#32),
    unary main_cst_16 main_v71 (broadcastInDim S64x64x1 ![] bcast_S_S64x64x1 : (⟨S_, .f32⟩ : BufTy).Contents (Elt F) → (⟨S64x64x1, .f32⟩ : BufTy).Contents (Elt F)),
    binary main_v70 main_v71 main_v72 (Host.divf : (⟨S64x64x1, .f32⟩ : BufTy).Contents (Elt F) → (⟨S64x64x1, .f32⟩ : BufTy).Contents (Elt F) → (⟨S64x64x1, .f32⟩ : BufTy).Contents (Elt F)),
    unary main_v72 main_v73 (broadcastInDim S64x64x600 ![0, 1, 2] bcast_S64x64x1_S64x64x600_0_1_2 : (⟨S64x64x1, .f32⟩ : BufTy).Contents (Elt F) → (⟨S64x64x600, .f32⟩ : BufTy).Contents (Elt F)),
    binary main_v68 main_v73 main_v74 (subf : (⟨S64x64x600, .f32⟩ : BufTy).Contents (Elt F) → (⟨S64x64x600, .f32⟩ : BufTy).Contents (Elt F) → (⟨S64x64x600, .f32⟩ : BufTy).Contents (Elt F)),
    binary main_v74 main_v74 main_v75 ((fun l r => Host.dotGeneral dot_S64x64x600_S64x64x600_S64x64x64_2_2_1_1_0_0 none l r) : (⟨S64x64x600, .f32⟩ : BufTy).Contents (Elt F) → (⟨S64x64x600, .f32⟩ : BufTy).Contents (Elt F) → (⟨S64x64x64, .f32⟩ : BufTy).Contents (Elt F)),
    TRef.nullary (TRef.of (T := ⟨S64, .i32⟩) main_call8_v0) (iotaInDim S64 32 0),
    TRef.nullary (TRef.of (T := ⟨S64, .i32⟩) main_call8_v1) (iotaInDim S64 32 0),
    TRef.nullary (TRef.of (T := ⟨S_, .i32⟩) main_call8_c) (constantI S_ 32 0#32),
    TRef.unary (TRef.of (T := ⟨S_, .i32⟩) main_call8_c) (TRef.of (T := ⟨S64, .i32⟩) main_call8_v2) (broadcastInDim S64 ![] bcast_S_S64),
    TRef.binary (TRef.of (T := ⟨S64, .i32⟩) main_call8_v0) (TRef.of (T := ⟨S64, .i32⟩) main_call8_v2) (TRef.of (T := ⟨S64, .i1⟩) main_call8_v3) (cmpi .slt),
    TRef.nullary (TRef.of (T := ⟨S_, .i32⟩) main_call8_c_0) (constantI S_ 32 64#32),
    TRef.unary (TRef.of (T := ⟨S_, .i32⟩) main_call8_c_0) (TRef.of (T := ⟨S64, .i32⟩) main_call8_v4) (broadcastInDim S64 ![] bcast_S_S64),
    TRef.binary (TRef.of (T := ⟨S64, .i32⟩) main_call8_v0) (TRef.of (T := ⟨S64, .i32⟩) main_call8_v4) (TRef.of (T := ⟨S64, .i32⟩) main_call8_v5) addi,
    TRef.ternary (TRef.of (T := ⟨S64, .i1⟩) main_call8_v3) (TRef.of (T := ⟨S64, .i32⟩) main_call8_v5) (TRef.of (T := ⟨S64, .i32⟩) main_call8_v0) (TRef.of (T := ⟨S64, .i32⟩) main_call8_v6) select,
    TRef.nullary (TRef.of (T := ⟨S_, .i32⟩) main_call8_c_1) (constantI S_ 32 0#32),
    TRef.unary (TRef.of (T := ⟨S_, .i32⟩) main_call8_c_1) (TRef.of (T := ⟨S64, .i32⟩) main_call8_v7) (broadcastInDim S64 ![] bcast_S_S64),
    TRef.binary (TRef.of (T := ⟨S64, .i32⟩) main_call8_v1) (TRef.of (T := ⟨S64, .i32⟩) main_call8_v7) (TRef.of (T := ⟨S64, .i1⟩) main_call8_v8) (cmpi .slt),
    TRef.nullary (TRef.of (T := ⟨S_, .i32⟩) main_call8_c_2) (constantI S_ 32 64#32),
    TRef.unary (TRef.of (T := ⟨S_, .i32⟩) main_call8_c_2) (TRef.of (T := ⟨S64, .i32⟩) main_call8_v9) (broadcastInDim S64 ![] bcast_S_S64),
    TRef.binary (TRef.of (T := ⟨S64, .i32⟩) main_call8_v1) (TRef.of (T := ⟨S64, .i32⟩) main_call8_v9) (TRef.of (T := ⟨S64, .i32⟩) main_call8_v10) addi,
    TRef.ternary (TRef.of (T := ⟨S64, .i1⟩) main_call8_v8) (TRef.of (T := ⟨S64, .i32⟩) main_call8_v10) (TRef.of (T := ⟨S64, .i32⟩) main_call8_v1) (TRef.of (T := ⟨S64, .i32⟩) main_call8_v11) select,
    TRef.unary (TRef.of (T := ⟨S64, .i32⟩) main_call8_v6) (TRef.of (T := ⟨S64x1, .i32⟩) main_call8_v12) (broadcastInDim S64x1 ![0] bcast_S64_S64x1_0),
    TRef.unary (TRef.of (T := ⟨S64, .i32⟩) main_call8_v11) (TRef.of (T := ⟨S64x1, .i32⟩) main_call8_v13) (broadcastInDim S64x1 ![0] bcast_S64_S64x1_0),
    TRef.binary (TRef.of (T := ⟨S64x1, .i32⟩) main_call8_v12) (TRef.of (T := ⟨S64x1, .i32⟩) main_call8_v13) (TRef.of (T := ⟨S64x2, .i32⟩) main_call8_v14) (fun a b => concatenate S64x2 1 [⟨S64x1, a⟩, ⟨S64x1, b⟩] concatenates_S64x1_S64x1_S64x2_d1),
    TRef.binary (TRef.of (T := ⟨S64x64x64, .f32⟩) main_v75) (TRef.of (T := ⟨S64x2, .i32⟩) main_call8_v14) (TRef.of (T := ⟨S64x64, .f32⟩) main_v76) (fun x i => Host.gather gather_S64x64x64_S64x2_S64x64_0_12_n_n_12_1_6411 x i),
    unary main_v76 main_v77 (Host.sqrt : (⟨S64x64, .f32⟩ : BufTy).Contents (Elt F) → (⟨S64x64, .f32⟩ : BufTy).Contents (Elt F)),
    unary main_v77 main_v78 (broadcastInDim S64x64x1 ![0, 1] bcast_S64x64_S64x64x1_0_1 : (⟨S64x64, .f32⟩ : BufTy).Contents (Elt F) → (⟨S64x64x1, .f32⟩ : BufTy).Contents (Elt F)),
    unary main_v77 main_v79 (broadcastInDim S64x1x64 ![0, 2] bcast_S64x64_S64x1x64_0_2 : (⟨S64x64, .f32⟩ : BufTy).Contents (Elt F) → (⟨S64x1x64, .f32⟩ : BufTy).Contents (Elt F)),
    unary main_v78 main_v80 (broadcastInDim S64x64x64 ![0, 1, 2] bcast_S64x64x1_S64x64x64_0_1_2 : (⟨S64x64x1, .f32⟩ : BufTy).Contents (Elt F) → (⟨S64x64x64, .f32⟩ : BufTy).Contents (Elt F)),
    unary main_v79 main_v81 (broadcastInDim S64x64x64 ![0, 1, 2] bcast_S64x1x64_S64x64x64_0_1_2 : (⟨S64x1x64, .f32⟩ : BufTy).Contents (Elt F) → (⟨S64x64x64, .f32⟩ : BufTy).Contents (Elt F)),
    binary main_v80 main_v81 main_v82 (mulf : (⟨S64x64x64, .f32⟩ : BufTy).Contents (Elt F) → (⟨S64x64x64, .f32⟩ : BufTy).Contents (Elt F) → (⟨S64x64x64, .f32⟩ : BufTy).Contents (Elt F)),
    binary main_v75 main_v82 main_v83 (Host.divf : (⟨S64x64x64, .f32⟩ : BufTy).Contents (Elt F) → (⟨S64x64x64, .f32⟩ : BufTy).Contents (Elt F) → (⟨S64x64x64, .f32⟩ : BufTy).Contents (Elt F)),
    nullary main_cst_17 (constant S_ .f32 0xBF800000#32),
    nullary main_cst_18 (constant S_ .f32 0x3F800000#32),
    TRef.unary (TRef.of (T := ⟨S_, .f32⟩) main_cst_17) (TRef.of (T := ⟨S_, .f32⟩) main_call9_v0) id,
    TRef.unary (TRef.of (T := ⟨S_, .f32⟩) main_call9_v0) (TRef.of (T := ⟨S64x64x64, .f32⟩) main_call9_v1) (broadcastInDim S64x64x64 ![] bcast_S_S64x64x64),
    TRef.binary (TRef.of (T := ⟨S64x64x64, .f32⟩) main_call9_v1) (TRef.of (T := ⟨S64x64x64, .f32⟩) main_v83) (TRef.of (T := ⟨S64x64x64, .f32⟩) main_call9_v2) maximumf,
    TRef.unary (TRef.of (T := ⟨S_, .f32⟩) main_cst_18) (TRef.of (T := ⟨S_, .f32⟩) main_call9_v3) id,
    TRef.unary (TRef.of (T := ⟨S_, .f32⟩) main_call9_v3) (TRef.of (T := ⟨S64x64x64, .f32⟩) main_call9_v4) (broadcastInDim S64x64x64 ![] bcast_S_S64x64x64),
    TRef.binary (TRef.of (T := ⟨S64x64x64, .f32⟩) main_call9_v4) (TRef.of (T := ⟨S64x64x64, .f32⟩) main_call9_v2) (TRef.of (T := ⟨S64x64x64, .f32⟩) main_v84) minimumf,
    unary main_arg0 main_v85 ((extractStridedSlice S64x64x600 ![0, 0, 3000] · slices_S64x64x6000_S64x64x600_0_0_3000) : (⟨S64x64x6000, .f32⟩ : BufTy).Contents (Elt F) → (⟨S64x64x600, .f32⟩ : BufTy).Contents (Elt F)),
    nullary main_cst_19 (constant S_ .f32 0x00000000#32),
    binary main_v85 main_cst_19 main_v86 ((fun x v => Host.reduceAdd x v reducesTo_S64x64x600_S64x64_d2 h_S_) : (⟨S64x64x600, .f32⟩ : BufTy).Contents (Elt F) → (⟨S_, .f32⟩ : BufTy).Contents (Elt F) → (⟨S64x64, .f32⟩ : BufTy).Contents (Elt F)),
    unary main_v86 main_v87 (broadcastInDim S64x64x1 ![0, 1] bcast_S64x64_S64x64x1_0_1 : (⟨S64x64, .f32⟩ : BufTy).Contents (Elt F) → (⟨S64x64x1, .f32⟩ : BufTy).Contents (Elt F)),
    nullary main_cst_20 (constant S_ .f32 0x44160000#32),
    unary main_cst_20 main_v88 (broadcastInDim S64x64x1 ![] bcast_S_S64x64x1 : (⟨S_, .f32⟩ : BufTy).Contents (Elt F) → (⟨S64x64x1, .f32⟩ : BufTy).Contents (Elt F)),
    binary main_v87 main_v88 main_v89 (Host.divf : (⟨S64x64x1, .f32⟩ : BufTy).Contents (Elt F) → (⟨S64x64x1, .f32⟩ : BufTy).Contents (Elt F) → (⟨S64x64x1, .f32⟩ : BufTy).Contents (Elt F)),
    unary main_v89 main_v90 (broadcastInDim S64x64x600 ![0, 1, 2] bcast_S64x64x1_S64x64x600_0_1_2 : (⟨S64x64x1, .f32⟩ : BufTy).Contents (Elt F) → (⟨S64x64x600, .f32⟩ : BufTy).Contents (Elt F)),
    binary main_v85 main_v90 main_v91 (subf : (⟨S64x64x600, .f32⟩ : BufTy).Contents (Elt F) → (⟨S64x64x600, .f32⟩ : BufTy).Contents (Elt F) → (⟨S64x64x600, .f32⟩ : BufTy).Contents (Elt F)),
    binary main_v91 main_v91 main_v92 ((fun l r => Host.dotGeneral dot_S64x64x600_S64x64x600_S64x64x64_2_2_1_1_0_0 none l r) : (⟨S64x64x600, .f32⟩ : BufTy).Contents (Elt F) → (⟨S64x64x600, .f32⟩ : BufTy).Contents (Elt F) → (⟨S64x64x64, .f32⟩ : BufTy).Contents (Elt F)),
    TRef.nullary (TRef.of (T := ⟨S64, .i32⟩) main_call10_v0) (iotaInDim S64 32 0),
    TRef.nullary (TRef.of (T := ⟨S64, .i32⟩) main_call10_v1) (iotaInDim S64 32 0),
    TRef.nullary (TRef.of (T := ⟨S_, .i32⟩) main_call10_c) (constantI S_ 32 0#32),
    TRef.unary (TRef.of (T := ⟨S_, .i32⟩) main_call10_c) (TRef.of (T := ⟨S64, .i32⟩) main_call10_v2) (broadcastInDim S64 ![] bcast_S_S64),
    TRef.binary (TRef.of (T := ⟨S64, .i32⟩) main_call10_v0) (TRef.of (T := ⟨S64, .i32⟩) main_call10_v2) (TRef.of (T := ⟨S64, .i1⟩) main_call10_v3) (cmpi .slt),
    TRef.nullary (TRef.of (T := ⟨S_, .i32⟩) main_call10_c_0) (constantI S_ 32 64#32),
    TRef.unary (TRef.of (T := ⟨S_, .i32⟩) main_call10_c_0) (TRef.of (T := ⟨S64, .i32⟩) main_call10_v4) (broadcastInDim S64 ![] bcast_S_S64),
    TRef.binary (TRef.of (T := ⟨S64, .i32⟩) main_call10_v0) (TRef.of (T := ⟨S64, .i32⟩) main_call10_v4) (TRef.of (T := ⟨S64, .i32⟩) main_call10_v5) addi,
    TRef.ternary (TRef.of (T := ⟨S64, .i1⟩) main_call10_v3) (TRef.of (T := ⟨S64, .i32⟩) main_call10_v5) (TRef.of (T := ⟨S64, .i32⟩) main_call10_v0) (TRef.of (T := ⟨S64, .i32⟩) main_call10_v6) select,
    TRef.nullary (TRef.of (T := ⟨S_, .i32⟩) main_call10_c_1) (constantI S_ 32 0#32),
    TRef.unary (TRef.of (T := ⟨S_, .i32⟩) main_call10_c_1) (TRef.of (T := ⟨S64, .i32⟩) main_call10_v7) (broadcastInDim S64 ![] bcast_S_S64),
    TRef.binary (TRef.of (T := ⟨S64, .i32⟩) main_call10_v1) (TRef.of (T := ⟨S64, .i32⟩) main_call10_v7) (TRef.of (T := ⟨S64, .i1⟩) main_call10_v8) (cmpi .slt),
    TRef.nullary (TRef.of (T := ⟨S_, .i32⟩) main_call10_c_2) (constantI S_ 32 64#32),
    TRef.unary (TRef.of (T := ⟨S_, .i32⟩) main_call10_c_2) (TRef.of (T := ⟨S64, .i32⟩) main_call10_v9) (broadcastInDim S64 ![] bcast_S_S64),
    TRef.binary (TRef.of (T := ⟨S64, .i32⟩) main_call10_v1) (TRef.of (T := ⟨S64, .i32⟩) main_call10_v9) (TRef.of (T := ⟨S64, .i32⟩) main_call10_v10) addi,
    TRef.ternary (TRef.of (T := ⟨S64, .i1⟩) main_call10_v8) (TRef.of (T := ⟨S64, .i32⟩) main_call10_v10) (TRef.of (T := ⟨S64, .i32⟩) main_call10_v1) (TRef.of (T := ⟨S64, .i32⟩) main_call10_v11) select,
    TRef.unary (TRef.of (T := ⟨S64, .i32⟩) main_call10_v6) (TRef.of (T := ⟨S64x1, .i32⟩) main_call10_v12) (broadcastInDim S64x1 ![0] bcast_S64_S64x1_0),
    TRef.unary (TRef.of (T := ⟨S64, .i32⟩) main_call10_v11) (TRef.of (T := ⟨S64x1, .i32⟩) main_call10_v13) (broadcastInDim S64x1 ![0] bcast_S64_S64x1_0),
    TRef.binary (TRef.of (T := ⟨S64x1, .i32⟩) main_call10_v12) (TRef.of (T := ⟨S64x1, .i32⟩) main_call10_v13) (TRef.of (T := ⟨S64x2, .i32⟩) main_call10_v14) (fun a b => concatenate S64x2 1 [⟨S64x1, a⟩, ⟨S64x1, b⟩] concatenates_S64x1_S64x1_S64x2_d1),
    TRef.binary (TRef.of (T := ⟨S64x64x64, .f32⟩) main_v92) (TRef.of (T := ⟨S64x2, .i32⟩) main_call10_v14) (TRef.of (T := ⟨S64x64, .f32⟩) main_v93) (fun x i => Host.gather gather_S64x64x64_S64x2_S64x64_0_12_n_n_12_1_6411 x i),
    unary main_v93 main_v94 (Host.sqrt : (⟨S64x64, .f32⟩ : BufTy).Contents (Elt F) → (⟨S64x64, .f32⟩ : BufTy).Contents (Elt F)),
    unary main_v94 main_v95 (broadcastInDim S64x64x1 ![0, 1] bcast_S64x64_S64x64x1_0_1 : (⟨S64x64, .f32⟩ : BufTy).Contents (Elt F) → (⟨S64x64x1, .f32⟩ : BufTy).Contents (Elt F)),
    unary main_v94 main_v96 (broadcastInDim S64x1x64 ![0, 2] bcast_S64x64_S64x1x64_0_2 : (⟨S64x64, .f32⟩ : BufTy).Contents (Elt F) → (⟨S64x1x64, .f32⟩ : BufTy).Contents (Elt F)),
    unary main_v95 main_v97 (broadcastInDim S64x64x64 ![0, 1, 2] bcast_S64x64x1_S64x64x64_0_1_2 : (⟨S64x64x1, .f32⟩ : BufTy).Contents (Elt F) → (⟨S64x64x64, .f32⟩ : BufTy).Contents (Elt F)),
    unary main_v96 main_v98 (broadcastInDim S64x64x64 ![0, 1, 2] bcast_S64x1x64_S64x64x64_0_1_2 : (⟨S64x1x64, .f32⟩ : BufTy).Contents (Elt F) → (⟨S64x64x64, .f32⟩ : BufTy).Contents (Elt F)),
    binary main_v97 main_v98 main_v99 (mulf : (⟨S64x64x64, .f32⟩ : BufTy).Contents (Elt F) → (⟨S64x64x64, .f32⟩ : BufTy).Contents (Elt F) → (⟨S64x64x64, .f32⟩ : BufTy).Contents (Elt F)),
    binary main_v92 main_v99 main_v100 (Host.divf : (⟨S64x64x64, .f32⟩ : BufTy).Contents (Elt F) → (⟨S64x64x64, .f32⟩ : BufTy).Contents (Elt F) → (⟨S64x64x64, .f32⟩ : BufTy).Contents (Elt F)),
    nullary main_cst_21 (constant S_ .f32 0xBF800000#32),
    nullary main_cst_22 (constant S_ .f32 0x3F800000#32),
    TRef.unary (TRef.of (T := ⟨S_, .f32⟩) main_cst_21) (TRef.of (T := ⟨S_, .f32⟩) main_call11_v0) id,
    TRef.unary (TRef.of (T := ⟨S_, .f32⟩) main_call11_v0) (TRef.of (T := ⟨S64x64x64, .f32⟩) main_call11_v1) (broadcastInDim S64x64x64 ![] bcast_S_S64x64x64),
    TRef.binary (TRef.of (T := ⟨S64x64x64, .f32⟩) main_call11_v1) (TRef.of (T := ⟨S64x64x64, .f32⟩) main_v100) (TRef.of (T := ⟨S64x64x64, .f32⟩) main_call11_v2) maximumf,
    TRef.unary (TRef.of (T := ⟨S_, .f32⟩) main_cst_22) (TRef.of (T := ⟨S_, .f32⟩) main_call11_v3) id,
    TRef.unary (TRef.of (T := ⟨S_, .f32⟩) main_call11_v3) (TRef.of (T := ⟨S64x64x64, .f32⟩) main_call11_v4) (broadcastInDim S64x64x64 ![] bcast_S_S64x64x64),
    TRef.binary (TRef.of (T := ⟨S64x64x64, .f32⟩) main_call11_v4) (TRef.of (T := ⟨S64x64x64, .f32⟩) main_call11_v2) (TRef.of (T := ⟨S64x64x64, .f32⟩) main_v101) minimumf,
    unary main_arg0 main_v102 ((extractStridedSlice S64x64x600 ![0, 0, 3600] · slices_S64x64x6000_S64x64x600_0_0_3600) : (⟨S64x64x6000, .f32⟩ : BufTy).Contents (Elt F) → (⟨S64x64x600, .f32⟩ : BufTy).Contents (Elt F)),
    nullary main_cst_23 (constant S_ .f32 0x00000000#32),
    binary main_v102 main_cst_23 main_v103 ((fun x v => Host.reduceAdd x v reducesTo_S64x64x600_S64x64_d2 h_S_) : (⟨S64x64x600, .f32⟩ : BufTy).Contents (Elt F) → (⟨S_, .f32⟩ : BufTy).Contents (Elt F) → (⟨S64x64, .f32⟩ : BufTy).Contents (Elt F)),
    unary main_v103 main_v104 (broadcastInDim S64x64x1 ![0, 1] bcast_S64x64_S64x64x1_0_1 : (⟨S64x64, .f32⟩ : BufTy).Contents (Elt F) → (⟨S64x64x1, .f32⟩ : BufTy).Contents (Elt F)),
    nullary main_cst_24 (constant S_ .f32 0x44160000#32),
    unary main_cst_24 main_v105 (broadcastInDim S64x64x1 ![] bcast_S_S64x64x1 : (⟨S_, .f32⟩ : BufTy).Contents (Elt F) → (⟨S64x64x1, .f32⟩ : BufTy).Contents (Elt F)),
    binary main_v104 main_v105 main_v106 (Host.divf : (⟨S64x64x1, .f32⟩ : BufTy).Contents (Elt F) → (⟨S64x64x1, .f32⟩ : BufTy).Contents (Elt F) → (⟨S64x64x1, .f32⟩ : BufTy).Contents (Elt F)),
    unary main_v106 main_v107 (broadcastInDim S64x64x600 ![0, 1, 2] bcast_S64x64x1_S64x64x600_0_1_2 : (⟨S64x64x1, .f32⟩ : BufTy).Contents (Elt F) → (⟨S64x64x600, .f32⟩ : BufTy).Contents (Elt F)),
    binary main_v102 main_v107 main_v108 (subf : (⟨S64x64x600, .f32⟩ : BufTy).Contents (Elt F) → (⟨S64x64x600, .f32⟩ : BufTy).Contents (Elt F) → (⟨S64x64x600, .f32⟩ : BufTy).Contents (Elt F)),
    binary main_v108 main_v108 main_v109 ((fun l r => Host.dotGeneral dot_S64x64x600_S64x64x600_S64x64x64_2_2_1_1_0_0 none l r) : (⟨S64x64x600, .f32⟩ : BufTy).Contents (Elt F) → (⟨S64x64x600, .f32⟩ : BufTy).Contents (Elt F) → (⟨S64x64x64, .f32⟩ : BufTy).Contents (Elt F)),
    TRef.nullary (TRef.of (T := ⟨S64, .i32⟩) main_call12_v0) (iotaInDim S64 32 0),
    TRef.nullary (TRef.of (T := ⟨S64, .i32⟩) main_call12_v1) (iotaInDim S64 32 0),
    TRef.nullary (TRef.of (T := ⟨S_, .i32⟩) main_call12_c) (constantI S_ 32 0#32),
    TRef.unary (TRef.of (T := ⟨S_, .i32⟩) main_call12_c) (TRef.of (T := ⟨S64, .i32⟩) main_call12_v2) (broadcastInDim S64 ![] bcast_S_S64),
    TRef.binary (TRef.of (T := ⟨S64, .i32⟩) main_call12_v0) (TRef.of (T := ⟨S64, .i32⟩) main_call12_v2) (TRef.of (T := ⟨S64, .i1⟩) main_call12_v3) (cmpi .slt),
    TRef.nullary (TRef.of (T := ⟨S_, .i32⟩) main_call12_c_0) (constantI S_ 32 64#32),
    TRef.unary (TRef.of (T := ⟨S_, .i32⟩) main_call12_c_0) (TRef.of (T := ⟨S64, .i32⟩) main_call12_v4) (broadcastInDim S64 ![] bcast_S_S64),
    TRef.binary (TRef.of (T := ⟨S64, .i32⟩) main_call12_v0) (TRef.of (T := ⟨S64, .i32⟩) main_call12_v4) (TRef.of (T := ⟨S64, .i32⟩) main_call12_v5) addi,
    TRef.ternary (TRef.of (T := ⟨S64, .i1⟩) main_call12_v3) (TRef.of (T := ⟨S64, .i32⟩) main_call12_v5) (TRef.of (T := ⟨S64, .i32⟩) main_call12_v0) (TRef.of (T := ⟨S64, .i32⟩) main_call12_v6) select,
    TRef.nullary (TRef.of (T := ⟨S_, .i32⟩) main_call12_c_1) (constantI S_ 32 0#32),
    TRef.unary (TRef.of (T := ⟨S_, .i32⟩) main_call12_c_1) (TRef.of (T := ⟨S64, .i32⟩) main_call12_v7) (broadcastInDim S64 ![] bcast_S_S64),
    TRef.binary (TRef.of (T := ⟨S64, .i32⟩) main_call12_v1) (TRef.of (T := ⟨S64, .i32⟩) main_call12_v7) (TRef.of (T := ⟨S64, .i1⟩) main_call12_v8) (cmpi .slt),
    TRef.nullary (TRef.of (T := ⟨S_, .i32⟩) main_call12_c_2) (constantI S_ 32 64#32),
    TRef.unary (TRef.of (T := ⟨S_, .i32⟩) main_call12_c_2) (TRef.of (T := ⟨S64, .i32⟩) main_call12_v9) (broadcastInDim S64 ![] bcast_S_S64),
    TRef.binary (TRef.of (T := ⟨S64, .i32⟩) main_call12_v1) (TRef.of (T := ⟨S64, .i32⟩) main_call12_v9) (TRef.of (T := ⟨S64, .i32⟩) main_call12_v10) addi,
    TRef.ternary (TRef.of (T := ⟨S64, .i1⟩) main_call12_v8) (TRef.of (T := ⟨S64, .i32⟩) main_call12_v10) (TRef.of (T := ⟨S64, .i32⟩) main_call12_v1) (TRef.of (T := ⟨S64, .i32⟩) main_call12_v11) select,
    TRef.unary (TRef.of (T := ⟨S64, .i32⟩) main_call12_v6) (TRef.of (T := ⟨S64x1, .i32⟩) main_call12_v12) (broadcastInDim S64x1 ![0] bcast_S64_S64x1_0),
    TRef.unary (TRef.of (T := ⟨S64, .i32⟩) main_call12_v11) (TRef.of (T := ⟨S64x1, .i32⟩) main_call12_v13) (broadcastInDim S64x1 ![0] bcast_S64_S64x1_0),
    TRef.binary (TRef.of (T := ⟨S64x1, .i32⟩) main_call12_v12) (TRef.of (T := ⟨S64x1, .i32⟩) main_call12_v13) (TRef.of (T := ⟨S64x2, .i32⟩) main_call12_v14) (fun a b => concatenate S64x2 1 [⟨S64x1, a⟩, ⟨S64x1, b⟩] concatenates_S64x1_S64x1_S64x2_d1),
    TRef.binary (TRef.of (T := ⟨S64x64x64, .f32⟩) main_v109) (TRef.of (T := ⟨S64x2, .i32⟩) main_call12_v14) (TRef.of (T := ⟨S64x64, .f32⟩) main_v110) (fun x i => Host.gather gather_S64x64x64_S64x2_S64x64_0_12_n_n_12_1_6411 x i),
    unary main_v110 main_v111 (Host.sqrt : (⟨S64x64, .f32⟩ : BufTy).Contents (Elt F) → (⟨S64x64, .f32⟩ : BufTy).Contents (Elt F)),
    unary main_v111 main_v112 (broadcastInDim S64x64x1 ![0, 1] bcast_S64x64_S64x64x1_0_1 : (⟨S64x64, .f32⟩ : BufTy).Contents (Elt F) → (⟨S64x64x1, .f32⟩ : BufTy).Contents (Elt F)),
    unary main_v111 main_v113 (broadcastInDim S64x1x64 ![0, 2] bcast_S64x64_S64x1x64_0_2 : (⟨S64x64, .f32⟩ : BufTy).Contents (Elt F) → (⟨S64x1x64, .f32⟩ : BufTy).Contents (Elt F)),
    unary main_v112 main_v114 (broadcastInDim S64x64x64 ![0, 1, 2] bcast_S64x64x1_S64x64x64_0_1_2 : (⟨S64x64x1, .f32⟩ : BufTy).Contents (Elt F) → (⟨S64x64x64, .f32⟩ : BufTy).Contents (Elt F)),
    unary main_v113 main_v115 (broadcastInDim S64x64x64 ![0, 1, 2] bcast_S64x1x64_S64x64x64_0_1_2 : (⟨S64x1x64, .f32⟩ : BufTy).Contents (Elt F) → (⟨S64x64x64, .f32⟩ : BufTy).Contents (Elt F)),
    binary main_v114 main_v115 main_v116 (mulf : (⟨S64x64x64, .f32⟩ : BufTy).Contents (Elt F) → (⟨S64x64x64, .f32⟩ : BufTy).Contents (Elt F) → (⟨S64x64x64, .f32⟩ : BufTy).Contents (Elt F)),
    binary main_v109 main_v116 main_v117 (Host.divf : (⟨S64x64x64, .f32⟩ : BufTy).Contents (Elt F) → (⟨S64x64x64, .f32⟩ : BufTy).Contents (Elt F) → (⟨S64x64x64, .f32⟩ : BufTy).Contents (Elt F)),
    nullary main_cst_25 (constant S_ .f32 0xBF800000#32),
    nullary main_cst_26 (constant S_ .f32 0x3F800000#32),
    TRef.unary (TRef.of (T := ⟨S_, .f32⟩) main_cst_25) (TRef.of (T := ⟨S_, .f32⟩) main_call13_v0) id,
    TRef.unary (TRef.of (T := ⟨S_, .f32⟩) main_call13_v0) (TRef.of (T := ⟨S64x64x64, .f32⟩) main_call13_v1) (broadcastInDim S64x64x64 ![] bcast_S_S64x64x64),
    TRef.binary (TRef.of (T := ⟨S64x64x64, .f32⟩) main_call13_v1) (TRef.of (T := ⟨S64x64x64, .f32⟩) main_v117) (TRef.of (T := ⟨S64x64x64, .f32⟩) main_call13_v2) maximumf,
    TRef.unary (TRef.of (T := ⟨S_, .f32⟩) main_cst_26) (TRef.of (T := ⟨S_, .f32⟩) main_call13_v3) id,
    TRef.unary (TRef.of (T := ⟨S_, .f32⟩) main_call13_v3) (TRef.of (T := ⟨S64x64x64, .f32⟩) main_call13_v4) (broadcastInDim S64x64x64 ![] bcast_S_S64x64x64),
    TRef.binary (TRef.of (T := ⟨S64x64x64, .f32⟩) main_call13_v4) (TRef.of (T := ⟨S64x64x64, .f32⟩) main_call13_v2) (TRef.of (T := ⟨S64x64x64, .f32⟩) main_v118) minimumf,
    unary main_arg0 main_v119 ((extractStridedSlice S64x64x600 ![0, 0, 4200] · slices_S64x64x6000_S64x64x600_0_0_4200) : (⟨S64x64x6000, .f32⟩ : BufTy).Contents (Elt F) → (⟨S64x64x600, .f32⟩ : BufTy).Contents (Elt F)),
    nullary main_cst_27 (constant S_ .f32 0x00000000#32),
    binary main_v119 main_cst_27 main_v120 ((fun x v => Host.reduceAdd x v reducesTo_S64x64x600_S64x64_d2 h_S_) : (⟨S64x64x600, .f32⟩ : BufTy).Contents (Elt F) → (⟨S_, .f32⟩ : BufTy).Contents (Elt F) → (⟨S64x64, .f32⟩ : BufTy).Contents (Elt F)),
    unary main_v120 main_v121 (broadcastInDim S64x64x1 ![0, 1] bcast_S64x64_S64x64x1_0_1 : (⟨S64x64, .f32⟩ : BufTy).Contents (Elt F) → (⟨S64x64x1, .f32⟩ : BufTy).Contents (Elt F)),
    nullary main_cst_28 (constant S_ .f32 0x44160000#32),
    unary main_cst_28 main_v122 (broadcastInDim S64x64x1 ![] bcast_S_S64x64x1 : (⟨S_, .f32⟩ : BufTy).Contents (Elt F) → (⟨S64x64x1, .f32⟩ : BufTy).Contents (Elt F)),
    binary main_v121 main_v122 main_v123 (Host.divf : (⟨S64x64x1, .f32⟩ : BufTy).Contents (Elt F) → (⟨S64x64x1, .f32⟩ : BufTy).Contents (Elt F) → (⟨S64x64x1, .f32⟩ : BufTy).Contents (Elt F)),
    unary main_v123 main_v124 (broadcastInDim S64x64x600 ![0, 1, 2] bcast_S64x64x1_S64x64x600_0_1_2 : (⟨S64x64x1, .f32⟩ : BufTy).Contents (Elt F) → (⟨S64x64x600, .f32⟩ : BufTy).Contents (Elt F)),
    binary main_v119 main_v124 main_v125 (subf : (⟨S64x64x600, .f32⟩ : BufTy).Contents (Elt F) → (⟨S64x64x600, .f32⟩ : BufTy).Contents (Elt F) → (⟨S64x64x600, .f32⟩ : BufTy).Contents (Elt F)),
    binary main_v125 main_v125 main_v126 ((fun l r => Host.dotGeneral dot_S64x64x600_S64x64x600_S64x64x64_2_2_1_1_0_0 none l r) : (⟨S64x64x600, .f32⟩ : BufTy).Contents (Elt F) → (⟨S64x64x600, .f32⟩ : BufTy).Contents (Elt F) → (⟨S64x64x64, .f32⟩ : BufTy).Contents (Elt F)),
    TRef.nullary (TRef.of (T := ⟨S64, .i32⟩) main_call14_v0) (iotaInDim S64 32 0),
    TRef.nullary (TRef.of (T := ⟨S64, .i32⟩) main_call14_v1) (iotaInDim S64 32 0),
    TRef.nullary (TRef.of (T := ⟨S_, .i32⟩) main_call14_c) (constantI S_ 32 0#32),
    TRef.unary (TRef.of (T := ⟨S_, .i32⟩) main_call14_c) (TRef.of (T := ⟨S64, .i32⟩) main_call14_v2) (broadcastInDim S64 ![] bcast_S_S64),
    TRef.binary (TRef.of (T := ⟨S64, .i32⟩) main_call14_v0) (TRef.of (T := ⟨S64, .i32⟩) main_call14_v2) (TRef.of (T := ⟨S64, .i1⟩) main_call14_v3) (cmpi .slt),
    TRef.nullary (TRef.of (T := ⟨S_, .i32⟩) main_call14_c_0) (constantI S_ 32 64#32),
    TRef.unary (TRef.of (T := ⟨S_, .i32⟩) main_call14_c_0) (TRef.of (T := ⟨S64, .i32⟩) main_call14_v4) (broadcastInDim S64 ![] bcast_S_S64),
    TRef.binary (TRef.of (T := ⟨S64, .i32⟩) main_call14_v0) (TRef.of (T := ⟨S64, .i32⟩) main_call14_v4) (TRef.of (T := ⟨S64, .i32⟩) main_call14_v5) addi,
    TRef.ternary (TRef.of (T := ⟨S64, .i1⟩) main_call14_v3) (TRef.of (T := ⟨S64, .i32⟩) main_call14_v5) (TRef.of (T := ⟨S64, .i32⟩) main_call14_v0) (TRef.of (T := ⟨S64, .i32⟩) main_call14_v6) select,
    TRef.nullary (TRef.of (T := ⟨S_, .i32⟩) main_call14_c_1) (constantI S_ 32 0#32),
    TRef.unary (TRef.of (T := ⟨S_, .i32⟩) main_call14_c_1) (TRef.of (T := ⟨S64, .i32⟩) main_call14_v7) (broadcastInDim S64 ![] bcast_S_S64),
    TRef.binary (TRef.of (T := ⟨S64, .i32⟩) main_call14_v1) (TRef.of (T := ⟨S64, .i32⟩) main_call14_v7) (TRef.of (T := ⟨S64, .i1⟩) main_call14_v8) (cmpi .slt),
    TRef.nullary (TRef.of (T := ⟨S_, .i32⟩) main_call14_c_2) (constantI S_ 32 64#32),
    TRef.unary (TRef.of (T := ⟨S_, .i32⟩) main_call14_c_2) (TRef.of (T := ⟨S64, .i32⟩) main_call14_v9) (broadcastInDim S64 ![] bcast_S_S64),
    TRef.binary (TRef.of (T := ⟨S64, .i32⟩) main_call14_v1) (TRef.of (T := ⟨S64, .i32⟩) main_call14_v9) (TRef.of (T := ⟨S64, .i32⟩) main_call14_v10) addi,
    TRef.ternary (TRef.of (T := ⟨S64, .i1⟩) main_call14_v8) (TRef.of (T := ⟨S64, .i32⟩) main_call14_v10) (TRef.of (T := ⟨S64, .i32⟩) main_call14_v1) (TRef.of (T := ⟨S64, .i32⟩) main_call14_v11) select,
    TRef.unary (TRef.of (T := ⟨S64, .i32⟩) main_call14_v6) (TRef.of (T := ⟨S64x1, .i32⟩) main_call14_v12) (broadcastInDim S64x1 ![0] bcast_S64_S64x1_0),
    TRef.unary (TRef.of (T := ⟨S64, .i32⟩) main_call14_v11) (TRef.of (T := ⟨S64x1, .i32⟩) main_call14_v13) (broadcastInDim S64x1 ![0] bcast_S64_S64x1_0),
    TRef.binary (TRef.of (T := ⟨S64x1, .i32⟩) main_call14_v12) (TRef.of (T := ⟨S64x1, .i32⟩) main_call14_v13) (TRef.of (T := ⟨S64x2, .i32⟩) main_call14_v14) (fun a b => concatenate S64x2 1 [⟨S64x1, a⟩, ⟨S64x1, b⟩] concatenates_S64x1_S64x1_S64x2_d1),
    TRef.binary (TRef.of (T := ⟨S64x64x64, .f32⟩) main_v126) (TRef.of (T := ⟨S64x2, .i32⟩) main_call14_v14) (TRef.of (T := ⟨S64x64, .f32⟩) main_v127) (fun x i => Host.gather gather_S64x64x64_S64x2_S64x64_0_12_n_n_12_1_6411 x i),
    unary main_v127 main_v128 (Host.sqrt : (⟨S64x64, .f32⟩ : BufTy).Contents (Elt F) → (⟨S64x64, .f32⟩ : BufTy).Contents (Elt F)),
    unary main_v128 main_v129 (broadcastInDim S64x64x1 ![0, 1] bcast_S64x64_S64x64x1_0_1 : (⟨S64x64, .f32⟩ : BufTy).Contents (Elt F) → (⟨S64x64x1, .f32⟩ : BufTy).Contents (Elt F)),
    unary main_v128 main_v130 (broadcastInDim S64x1x64 ![0, 2] bcast_S64x64_S64x1x64_0_2 : (⟨S64x64, .f32⟩ : BufTy).Contents (Elt F) → (⟨S64x1x64, .f32⟩ : BufTy).Contents (Elt F)),
    unary main_v129 main_v131 (broadcastInDim S64x64x64 ![0, 1, 2] bcast_S64x64x1_S64x64x64_0_1_2 : (⟨S64x64x1, .f32⟩ : BufTy).Contents (Elt F) → (⟨S64x64x64, .f32⟩ : BufTy).Contents (Elt F)),
    unary main_v130 main_v132 (broadcastInDim S64x64x64 ![0, 1, 2] bcast_S64x1x64_S64x64x64_0_1_2 : (⟨S64x1x64, .f32⟩ : BufTy).Contents (Elt F) → (⟨S64x64x64, .f32⟩ : BufTy).Contents (Elt F)),
    binary main_v131 main_v132 main_v133 (mulf : (⟨S64x64x64, .f32⟩ : BufTy).Contents (Elt F) → (⟨S64x64x64, .f32⟩ : BufTy).Contents (Elt F) → (⟨S64x64x64, .f32⟩ : BufTy).Contents (Elt F)),
    binary main_v126 main_v133 main_v134 (Host.divf : (⟨S64x64x64, .f32⟩ : BufTy).Contents (Elt F) → (⟨S64x64x64, .f32⟩ : BufTy).Contents (Elt F) → (⟨S64x64x64, .f32⟩ : BufTy).Contents (Elt F)),
    nullary main_cst_29 (constant S_ .f32 0xBF800000#32),
    nullary main_cst_30 (constant S_ .f32 0x3F800000#32),
    TRef.unary (TRef.of (T := ⟨S_, .f32⟩) main_cst_29) (TRef.of (T := ⟨S_, .f32⟩) main_call15_v0) id,
    TRef.unary (TRef.of (T := ⟨S_, .f32⟩) main_call15_v0) (TRef.of (T := ⟨S64x64x64, .f32⟩) main_call15_v1) (broadcastInDim S64x64x64 ![] bcast_S_S64x64x64),
    TRef.binary (TRef.of (T := ⟨S64x64x64, .f32⟩) main_call15_v1) (TRef.of (T := ⟨S64x64x64, .f32⟩) main_v134) (TRef.of (T := ⟨S64x64x64, .f32⟩) main_call15_v2) maximumf,
    TRef.unary (TRef.of (T := ⟨S_, .f32⟩) main_cst_30) (TRef.of (T := ⟨S_, .f32⟩) main_call15_v3) id,
    TRef.unary (TRef.of (T := ⟨S_, .f32⟩) main_call15_v3) (TRef.of (T := ⟨S64x64x64, .f32⟩) main_call15_v4) (broadcastInDim S64x64x64 ![] bcast_S_S64x64x64),
    TRef.binary (TRef.of (T := ⟨S64x64x64, .f32⟩) main_call15_v4) (TRef.of (T := ⟨S64x64x64, .f32⟩) main_call15_v2) (TRef.of (T := ⟨S64x64x64, .f32⟩) main_v135) minimumf,
    unary main_arg0 main_v136 ((extractStridedSlice S64x64x600 ![0, 0, 4800] · slices_S64x64x6000_S64x64x600_0_0_4800) : (⟨S64x64x6000, .f32⟩ : BufTy).Contents (Elt F) → (⟨S64x64x600, .f32⟩ : BufTy).Contents (Elt F)),
    nullary main_cst_31 (constant S_ .f32 0x00000000#32),
    binary main_v136 main_cst_31 main_v137 ((fun x v => Host.reduceAdd x v reducesTo_S64x64x600_S64x64_d2 h_S_) : (⟨S64x64x600, .f32⟩ : BufTy).Contents (Elt F) → (⟨S_, .f32⟩ : BufTy).Contents (Elt F) → (⟨S64x64, .f32⟩ : BufTy).Contents (Elt F)),
    unary main_v137 main_v138 (broadcastInDim S64x64x1 ![0, 1] bcast_S64x64_S64x64x1_0_1 : (⟨S64x64, .f32⟩ : BufTy).Contents (Elt F) → (⟨S64x64x1, .f32⟩ : BufTy).Contents (Elt F)),
    nullary main_cst_32 (constant S_ .f32 0x44160000#32),
    unary main_cst_32 main_v139 (broadcastInDim S64x64x1 ![] bcast_S_S64x64x1 : (⟨S_, .f32⟩ : BufTy).Contents (Elt F) → (⟨S64x64x1, .f32⟩ : BufTy).Contents (Elt F)),
    binary main_v138 main_v139 main_v140 (Host.divf : (⟨S64x64x1, .f32⟩ : BufTy).Contents (Elt F) → (⟨S64x64x1, .f32⟩ : BufTy).Contents (Elt F) → (⟨S64x64x1, .f32⟩ : BufTy).Contents (Elt F)),
    unary main_v140 main_v141 (broadcastInDim S64x64x600 ![0, 1, 2] bcast_S64x64x1_S64x64x600_0_1_2 : (⟨S64x64x1, .f32⟩ : BufTy).Contents (Elt F) → (⟨S64x64x600, .f32⟩ : BufTy).Contents (Elt F)),
    binary main_v136 main_v141 main_v142 (subf : (⟨S64x64x600, .f32⟩ : BufTy).Contents (Elt F) → (⟨S64x64x600, .f32⟩ : BufTy).Contents (Elt F) → (⟨S64x64x600, .f32⟩ : BufTy).Contents (Elt F)),
    binary main_v142 main_v142 main_v143 ((fun l r => Host.dotGeneral dot_S64x64x600_S64x64x600_S64x64x64_2_2_1_1_0_0 none l r) : (⟨S64x64x600, .f32⟩ : BufTy).Contents (Elt F) → (⟨S64x64x600, .f32⟩ : BufTy).Contents (Elt F) → (⟨S64x64x64, .f32⟩ : BufTy).Contents (Elt F)),
    TRef.nullary (TRef.of (T := ⟨S64, .i32⟩) main_call16_v0) (iotaInDim S64 32 0),
    TRef.nullary (TRef.of (T := ⟨S64, .i32⟩) main_call16_v1) (iotaInDim S64 32 0),
    TRef.nullary (TRef.of (T := ⟨S_, .i32⟩) main_call16_c) (constantI S_ 32 0#32),
    TRef.unary (TRef.of (T := ⟨S_, .i32⟩) main_call16_c) (TRef.of (T := ⟨S64, .i32⟩) main_call16_v2) (broadcastInDim S64 ![] bcast_S_S64),
    TRef.binary (TRef.of (T := ⟨S64, .i32⟩) main_call16_v0) (TRef.of (T := ⟨S64, .i32⟩) main_call16_v2) (TRef.of (T := ⟨S64, .i1⟩) main_call16_v3) (cmpi .slt),
    TRef.nullary (TRef.of (T := ⟨S_, .i32⟩) main_call16_c_0) (constantI S_ 32 64#32),
    TRef.unary (TRef.of (T := ⟨S_, .i32⟩) main_call16_c_0) (TRef.of (T := ⟨S64, .i32⟩) main_call16_v4) (broadcastInDim S64 ![] bcast_S_S64),
    TRef.binary (TRef.of (T := ⟨S64, .i32⟩) main_call16_v0) (TRef.of (T := ⟨S64, .i32⟩) main_call16_v4) (TRef.of (T := ⟨S64, .i32⟩) main_call16_v5) addi,
    TRef.ternary (TRef.of (T := ⟨S64, .i1⟩) main_call16_v3) (TRef.of (T := ⟨S64, .i32⟩) main_call16_v5) (TRef.of (T := ⟨S64, .i32⟩) main_call16_v0) (TRef.of (T := ⟨S64, .i32⟩) main_call16_v6) select,
    TRef.nullary (TRef.of (T := ⟨S_, .i32⟩) main_call16_c_1) (constantI S_ 32 0#32),
    TRef.unary (TRef.of (T := ⟨S_, .i32⟩) main_call16_c_1) (TRef.of (T := ⟨S64, .i32⟩) main_call16_v7) (broadcastInDim S64 ![] bcast_S_S64),
    TRef.binary (TRef.of (T := ⟨S64, .i32⟩) main_call16_v1) (TRef.of (T := ⟨S64, .i32⟩) main_call16_v7) (TRef.of (T := ⟨S64, .i1⟩) main_call16_v8) (cmpi .slt),
    TRef.nullary (TRef.of (T := ⟨S_, .i32⟩) main_call16_c_2) (constantI S_ 32 64#32),
    TRef.unary (TRef.of (T := ⟨S_, .i32⟩) main_call16_c_2) (TRef.of (T := ⟨S64, .i32⟩) main_call16_v9) (broadcastInDim S64 ![] bcast_S_S64),
    TRef.binary (TRef.of (T := ⟨S64, .i32⟩) main_call16_v1) (TRef.of (T := ⟨S64, .i32⟩) main_call16_v9) (TRef.of (T := ⟨S64, .i32⟩) main_call16_v10) addi,
    TRef.ternary (TRef.of (T := ⟨S64, .i1⟩) main_call16_v8) (TRef.of (T := ⟨S64, .i32⟩) main_call16_v10) (TRef.of (T := ⟨S64, .i32⟩) main_call16_v1) (TRef.of (T := ⟨S64, .i32⟩) main_call16_v11) select,
    TRef.unary (TRef.of (T := ⟨S64, .i32⟩) main_call16_v6) (TRef.of (T := ⟨S64x1, .i32⟩) main_call16_v12) (broadcastInDim S64x1 ![0] bcast_S64_S64x1_0),
    TRef.unary (TRef.of (T := ⟨S64, .i32⟩) main_call16_v11) (TRef.of (T := ⟨S64x1, .i32⟩) main_call16_v13) (broadcastInDim S64x1 ![0] bcast_S64_S64x1_0),
    TRef.binary (TRef.of (T := ⟨S64x1, .i32⟩) main_call16_v12) (TRef.of (T := ⟨S64x1, .i32⟩) main_call16_v13) (TRef.of (T := ⟨S64x2, .i32⟩) main_call16_v14) (fun a b => concatenate S64x2 1 [⟨S64x1, a⟩, ⟨S64x1, b⟩] concatenates_S64x1_S64x1_S64x2_d1),
    TRef.binary (TRef.of (T := ⟨S64x64x64, .f32⟩) main_v143) (TRef.of (T := ⟨S64x2, .i32⟩) main_call16_v14) (TRef.of (T := ⟨S64x64, .f32⟩) main_v144) (fun x i => Host.gather gather_S64x64x64_S64x2_S64x64_0_12_n_n_12_1_6411 x i),
    unary main_v144 main_v145 (Host.sqrt : (⟨S64x64, .f32⟩ : BufTy).Contents (Elt F) → (⟨S64x64, .f32⟩ : BufTy).Contents (Elt F)),
    unary main_v145 main_v146 (broadcastInDim S64x64x1 ![0, 1] bcast_S64x64_S64x64x1_0_1 : (⟨S64x64, .f32⟩ : BufTy).Contents (Elt F) → (⟨S64x64x1, .f32⟩ : BufTy).Contents (Elt F)),
    unary main_v145 main_v147 (broadcastInDim S64x1x64 ![0, 2] bcast_S64x64_S64x1x64_0_2 : (⟨S64x64, .f32⟩ : BufTy).Contents (Elt F) → (⟨S64x1x64, .f32⟩ : BufTy).Contents (Elt F)),
    unary main_v146 main_v148 (broadcastInDim S64x64x64 ![0, 1, 2] bcast_S64x64x1_S64x64x64_0_1_2 : (⟨S64x64x1, .f32⟩ : BufTy).Contents (Elt F) → (⟨S64x64x64, .f32⟩ : BufTy).Contents (Elt F)),
    unary main_v147 main_v149 (broadcastInDim S64x64x64 ![0, 1, 2] bcast_S64x1x64_S64x64x64_0_1_2 : (⟨S64x1x64, .f32⟩ : BufTy).Contents (Elt F) → (⟨S64x64x64, .f32⟩ : BufTy).Contents (Elt F)),
    binary main_v148 main_v149 main_v150 (mulf : (⟨S64x64x64, .f32⟩ : BufTy).Contents (Elt F) → (⟨S64x64x64, .f32⟩ : BufTy).Contents (Elt F) → (⟨S64x64x64, .f32⟩ : BufTy).Contents (Elt F)),
    binary main_v143 main_v150 main_v151 (Host.divf : (⟨S64x64x64, .f32⟩ : BufTy).Contents (Elt F) → (⟨S64x64x64, .f32⟩ : BufTy).Contents (Elt F) → (⟨S64x64x64, .f32⟩ : BufTy).Contents (Elt F)),
    nullary main_cst_33 (constant S_ .f32 0xBF800000#32),
    nullary main_cst_34 (constant S_ .f32 0x3F800000#32),
    TRef.unary (TRef.of (T := ⟨S_, .f32⟩) main_cst_33) (TRef.of (T := ⟨S_, .f32⟩) main_call17_v0) id,
    TRef.unary (TRef.of (T := ⟨S_, .f32⟩) main_call17_v0) (TRef.of (T := ⟨S64x64x64, .f32⟩) main_call17_v1) (broadcastInDim S64x64x64 ![] bcast_S_S64x64x64),
    TRef.binary (TRef.of (T := ⟨S64x64x64, .f32⟩) main_call17_v1) (TRef.of (T := ⟨S64x64x64, .f32⟩) main_v151) (TRef.of (T := ⟨S64x64x64, .f32⟩) main_call17_v2) maximumf,
    TRef.unary (TRef.of (T := ⟨S_, .f32⟩) main_cst_34) (TRef.of (T := ⟨S_, .f32⟩) main_call17_v3) id,
    TRef.unary (TRef.of (T := ⟨S_, .f32⟩) main_call17_v3) (TRef.of (T := ⟨S64x64x64, .f32⟩) main_call17_v4) (broadcastInDim S64x64x64 ![] bcast_S_S64x64x64),
    TRef.binary (TRef.of (T := ⟨S64x64x64, .f32⟩) main_call17_v4) (TRef.of (T := ⟨S64x64x64, .f32⟩) main_call17_v2) (TRef.of (T := ⟨S64x64x64, .f32⟩) main_v152) minimumf,
    unary main_arg0 main_v153 ((extractStridedSlice S64x64x600 ![0, 0, 5400] · slices_S64x64x6000_S64x64x600_0_0_5400) : (⟨S64x64x6000, .f32⟩ : BufTy).Contents (Elt F) → (⟨S64x64x600, .f32⟩ : BufTy).Contents (Elt F)),
    nullary main_cst_35 (constant S_ .f32 0x00000000#32),
    binary main_v153 main_cst_35 main_v154 ((fun x v => Host.reduceAdd x v reducesTo_S64x64x600_S64x64_d2 h_S_) : (⟨S64x64x600, .f32⟩ : BufTy).Contents (Elt F) → (⟨S_, .f32⟩ : BufTy).Contents (Elt F) → (⟨S64x64, .f32⟩ : BufTy).Contents (Elt F)),
    unary main_v154 main_v155 (broadcastInDim S64x64x1 ![0, 1] bcast_S64x64_S64x64x1_0_1 : (⟨S64x64, .f32⟩ : BufTy).Contents (Elt F) → (⟨S64x64x1, .f32⟩ : BufTy).Contents (Elt F)),
    nullary main_cst_36 (constant S_ .f32 0x44160000#32),
    unary main_cst_36 main_v156 (broadcastInDim S64x64x1 ![] bcast_S_S64x64x1 : (⟨S_, .f32⟩ : BufTy).Contents (Elt F) → (⟨S64x64x1, .f32⟩ : BufTy).Contents (Elt F)),
    binary main_v155 main_v156 main_v157 (Host.divf : (⟨S64x64x1, .f32⟩ : BufTy).Contents (Elt F) → (⟨S64x64x1, .f32⟩ : BufTy).Contents (Elt F) → (⟨S64x64x1, .f32⟩ : BufTy).Contents (Elt F)),
    unary main_v157 main_v158 (broadcastInDim S64x64x600 ![0, 1, 2] bcast_S64x64x1_S64x64x600_0_1_2 : (⟨S64x64x1, .f32⟩ : BufTy).Contents (Elt F) → (⟨S64x64x600, .f32⟩ : BufTy).Contents (Elt F)),
    binary main_v153 main_v158 main_v159 (subf : (⟨S64x64x600, .f32⟩ : BufTy).Contents (Elt F) → (⟨S64x64x600, .f32⟩ : BufTy).Contents (Elt F) → (⟨S64x64x600, .f32⟩ : BufTy).Contents (Elt F)),
    binary main_v159 main_v159 main_v160 ((fun l r => Host.dotGeneral dot_S64x64x600_S64x64x600_S64x64x64_2_2_1_1_0_0 none l r) : (⟨S64x64x600, .f32⟩ : BufTy).Contents (Elt F) → (⟨S64x64x600, .f32⟩ : BufTy).Contents (Elt F) → (⟨S64x64x64, .f32⟩ : BufTy).Contents (Elt F)),
    TRef.nullary (TRef.of (T := ⟨S64, .i32⟩) main_call18_v0) (iotaInDim S64 32 0),
    TRef.nullary (TRef.of (T := ⟨S64, .i32⟩) main_call18_v1) (iotaInDim S64 32 0),
    TRef.nullary (TRef.of (T := ⟨S_, .i32⟩) main_call18_c) (constantI S_ 32 0#32),
    TRef.unary (TRef.of (T := ⟨S_, .i32⟩) main_call18_c) (TRef.of (T := ⟨S64, .i32⟩) main_call18_v2) (broadcastInDim S64 ![] bcast_S_S64),
    TRef.binary (TRef.of (T := ⟨S64, .i32⟩) main_call18_v0) (TRef.of (T := ⟨S64, .i32⟩) main_call18_v2) (TRef.of (T := ⟨S64, .i1⟩) main_call18_v3) (cmpi .slt),
    TRef.nullary (TRef.of (T := ⟨S_, .i32⟩) main_call18_c_0) (constantI S_ 32 64#32),
    TRef.unary (TRef.of (T := ⟨S_, .i32⟩) main_call18_c_0) (TRef.of (T := ⟨S64, .i32⟩) main_call18_v4) (broadcastInDim S64 ![] bcast_S_S64),
    TRef.binary (TRef.of (T := ⟨S64, .i32⟩) main_call18_v0) (TRef.of (T := ⟨S64, .i32⟩) main_call18_v4) (TRef.of (T := ⟨S64, .i32⟩) main_call18_v5) addi,
    TRef.ternary (TRef.of (T := ⟨S64, .i1⟩) main_call18_v3) (TRef.of (T := ⟨S64, .i32⟩) main_call18_v5) (TRef.of (T := ⟨S64, .i32⟩) main_call18_v0) (TRef.of (T := ⟨S64, .i32⟩) main_call18_v6) select,
    TRef.nullary (TRef.of (T := ⟨S_, .i32⟩) main_call18_c_1) (constantI S_ 32 0#32),
    TRef.unary (TRef.of (T := ⟨S_, .i32⟩) main_call18_c_1) (TRef.of (T := ⟨S64, .i32⟩) main_call18_v7) (broadcastInDim S64 ![] bcast_S_S64),
    TRef.binary (TRef.of (T := ⟨S64, .i32⟩) main_call18_v1) (TRef.of (T := ⟨S64, .i32⟩) main_call18_v7) (TRef.of (T := ⟨S64, .i1⟩) main_call18_v8) (cmpi .slt),
    TRef.nullary (TRef.of (T := ⟨S_, .i32⟩) main_call18_c_2) (constantI S_ 32 64#32),
    TRef.unary (TRef.of (T := ⟨S_, .i32⟩) main_call18_c_2) (TRef.of (T := ⟨S64, .i32⟩) main_call18_v9) (broadcastInDim S64 ![] bcast_S_S64),
    TRef.binary (TRef.of (T := ⟨S64, .i32⟩) main_call18_v1) (TRef.of (T := ⟨S64, .i32⟩) main_call18_v9) (TRef.of (T := ⟨S64, .i32⟩) main_call18_v10) addi,
    TRef.ternary (TRef.of (T := ⟨S64, .i1⟩) main_call18_v8) (TRef.of (T := ⟨S64, .i32⟩) main_call18_v10) (TRef.of (T := ⟨S64, .i32⟩) main_call18_v1) (TRef.of (T := ⟨S64, .i32⟩) main_call18_v11) select,
    TRef.unary (TRef.of (T := ⟨S64, .i32⟩) main_call18_v6) (TRef.of (T := ⟨S64x1, .i32⟩) main_call18_v12) (broadcastInDim S64x1 ![0] bcast_S64_S64x1_0),
    TRef.unary (TRef.of (T := ⟨S64, .i32⟩) main_call18_v11) (TRef.of (T := ⟨S64x1, .i32⟩) main_call18_v13) (broadcastInDim S64x1 ![0] bcast_S64_S64x1_0),
    TRef.binary (TRef.of (T := ⟨S64x1, .i32⟩) main_call18_v12) (TRef.of (T := ⟨S64x1, .i32⟩) main_call18_v13) (TRef.of (T := ⟨S64x2, .i32⟩) main_call18_v14) (fun a b => concatenate S64x2 1 [⟨S64x1, a⟩, ⟨S64x1, b⟩] concatenates_S64x1_S64x1_S64x2_d1),
    TRef.binary (TRef.of (T := ⟨S64x64x64, .f32⟩) main_v160) (TRef.of (T := ⟨S64x2, .i32⟩) main_call18_v14) (TRef.of (T := ⟨S64x64, .f32⟩) main_v161) (fun x i => Host.gather gather_S64x64x64_S64x2_S64x64_0_12_n_n_12_1_6411 x i),
    unary main_v161 main_v162 (Host.sqrt : (⟨S64x64, .f32⟩ : BufTy).Contents (Elt F) → (⟨S64x64, .f32⟩ : BufTy).Contents (Elt F)),
    unary main_v162 main_v163 (broadcastInDim S64x64x1 ![0, 1] bcast_S64x64_S64x64x1_0_1 : (⟨S64x64, .f32⟩ : BufTy).Contents (Elt F) → (⟨S64x64x1, .f32⟩ : BufTy).Contents (Elt F)),
    unary main_v162 main_v164 (broadcastInDim S64x1x64 ![0, 2] bcast_S64x64_S64x1x64_0_2 : (⟨S64x64, .f32⟩ : BufTy).Contents (Elt F) → (⟨S64x1x64, .f32⟩ : BufTy).Contents (Elt F)),
    unary main_v163 main_v165 (broadcastInDim S64x64x64 ![0, 1, 2] bcast_S64x64x1_S64x64x64_0_1_2 : (⟨S64x64x1, .f32⟩ : BufTy).Contents (Elt F) → (⟨S64x64x64, .f32⟩ : BufTy).Contents (Elt F)),
    unary main_v164 main_v166 (broadcastInDim S64x64x64 ![0, 1, 2] bcast_S64x1x64_S64x64x64_0_1_2 : (⟨S64x1x64, .f32⟩ : BufTy).Contents (Elt F) → (⟨S64x64x64, .f32⟩ : BufTy).Contents (Elt F)),
    binary main_v165 main_v166 main_v167 (mulf : (⟨S64x64x64, .f32⟩ : BufTy).Contents (Elt F) → (⟨S64x64x64, .f32⟩ : BufTy).Contents (Elt F) → (⟨S64x64x64, .f32⟩ : BufTy).Contents (Elt F)),
    binary main_v160 main_v167 main_v168 (Host.divf : (⟨S64x64x64, .f32⟩ : BufTy).Contents (Elt F) → (⟨S64x64x64, .f32⟩ : BufTy).Contents (Elt F) → (⟨S64x64x64, .f32⟩ : BufTy).Contents (Elt F)),
    nullary main_cst_37 (constant S_ .f32 0xBF800000#32),
    nullary main_cst_38 (constant S_ .f32 0x3F800000#32),
    TRef.unary (TRef.of (T := ⟨S_, .f32⟩) main_cst_37) (TRef.of (T := ⟨S_, .f32⟩) main_call19_v0) id,
    TRef.unary (TRef.of (T := ⟨S_, .f32⟩) main_call19_v0) (TRef.of (T := ⟨S64x64x64, .f32⟩) main_call19_v1) (broadcastInDim S64x64x64 ![] bcast_S_S64x64x64),
    TRef.binary (TRef.of (T := ⟨S64x64x64, .f32⟩) main_call19_v1) (TRef.of (T := ⟨S64x64x64, .f32⟩) main_v168) (TRef.of (T := ⟨S64x64x64, .f32⟩) main_call19_v2) maximumf,
    TRef.unary (TRef.of (T := ⟨S_, .f32⟩) main_cst_38) (TRef.of (T := ⟨S_, .f32⟩) main_call19_v3) id,
    TRef.unary (TRef.of (T := ⟨S_, .f32⟩) main_call19_v3) (TRef.of (T := ⟨S64x64x64, .f32⟩) main_call19_v4) (broadcastInDim S64x64x64 ![] bcast_S_S64x64x64),
    TRef.binary (TRef.of (T := ⟨S64x64x64, .f32⟩) main_call19_v4) (TRef.of (T := ⟨S64x64x64, .f32⟩) main_call19_v2) (TRef.of (T := ⟨S64x64x64, .f32⟩) main_v169) minimumf,
    unary main_v16 main_v170 (broadcastInDim S64x1x64x64 ![0, 2, 3] bcast_S64x64x64_S64x1x64x64_0_2_3 : (⟨S64x64x64, .f32⟩ : BufTy).Contents (Elt F) → (⟨S64x1x64x64, .f32⟩ : BufTy).Contents (Elt F)),
    unary main_v33 main_v171 (broadcastInDim S64x1x64x64 ![0, 2, 3] bcast_S64x64x64_S64x1x64x64_0_2_3 : (⟨S64x64x64, .f32⟩ : BufTy).Contents (Elt F) → (⟨S64x1x64x64, .f32⟩ : BufTy).Contents (Elt F)),
    unary main_v50 main_v172 (broadcastInDim S64x1x64x64 ![0, 2, 3] bcast_S64x64x64_S64x1x64x64_0_2_3 : (⟨S64x64x64, .f32⟩ : BufTy).Contents (Elt F) → (⟨S64x1x64x64, .f32⟩ : BufTy).Contents (Elt F)),
    unary main_v67 main_v173 (broadcastInDim S64x1x64x64 ![0, 2, 3] bcast_S64x64x64_S64x1x64x64_0_2_3 : (⟨S64x64x64, .f32⟩ : BufTy).Contents (Elt F) → (⟨S64x1x64x64, .f32⟩ : BufTy).Contents (Elt F)),
    unary main_v84 main_v174 (broadcastInDim S64x1x64x64 ![0, 2, 3] bcast_S64x64x64_S64x1x64x64_0_2_3 : (⟨S64x64x64, .f32⟩ : BufTy).Contents (Elt F) → (⟨S64x1x64x64, .f32⟩ : BufTy).Contents (Elt F)),
    unary main_v101 main_v175 (broadcastInDim S64x1x64x64 ![0, 2, 3] bcast_S64x64x64_S64x1x64x64_0_2_3 : (⟨S64x64x64, .f32⟩ : BufTy).Contents (Elt F) → (⟨S64x1x64x64, .f32⟩ : BufTy).Contents (Elt F)),
    unary main_v118 main_v176 (broadcastInDim S64x1x64x64 ![0, 2, 3] bcast_S64x64x64_S64x1x64x64_0_2_3 : (⟨S64x64x64, .f32⟩ : BufTy).Contents (Elt F) → (⟨S64x1x64x64, .f32⟩ : BufTy).Contents (Elt F)),
    unary main_v135 main_v177 (broadcastInDim S64x1x64x64 ![0, 2, 3] bcast_S64x64x64_S64x1x64x64_0_2_3 : (⟨S64x64x64, .f32⟩ : BufTy).Contents (Elt F) → (⟨S64x1x64x64, .f32⟩ : BufTy).Contents (Elt F)),
    unary main_v152 main_v178 (broadcastInDim S64x1x64x64 ![0, 2, 3] bcast_S64x64x64_S64x1x64x64_0_2_3 : (⟨S64x64x64, .f32⟩ : BufTy).Contents (Elt F) → (⟨S64x1x64x64, .f32⟩ : BufTy).Contents (Elt F)),
    unary main_v169 main_v179 (broadcastInDim S64x1x64x64 ![0, 2, 3] bcast_S64x64x64_S64x1x64x64_0_2_3 : (⟨S64x64x64, .f32⟩ : BufTy).Contents (Elt F) → (⟨S64x1x64x64, .f32⟩ : BufTy).Contents (Elt F)),
    nary ![main_v170, main_v171, main_v172, main_v173, main_v174, main_v175, main_v176, main_v177, main_v178, main_v179] main_v180 (fun u => concatenate S64x10x64x64 1 [⟨S64x1x64x64, u 0⟩, ⟨S64x1x64x64, u 1⟩, ⟨S64x1x64x64, u 2⟩, ⟨S64x1x64x64, u 3⟩, ⟨S64x1x64x64, u 4⟩, ⟨S64x1x64x64, u 5⟩, ⟨S64x1x64x64, u 6⟩, ⟨S64x1x64x64, u 7⟩, ⟨S64x1x64x64, u 8⟩, ⟨S64x1x64x64, u 9⟩] concatenates_S64x1x64x64_S64x1x64x64_S64x1x64x64_S64x1x64x64_S64x1x64x64_S64x1x64x64_S64x1x64x64_S64x1x64x64_S64x1x64x64_S64x1x64x64_S64x10x64x64_d1) ]

end Cert.ReferenceIdeal.HandRun

end
-- ==== Proof.RefRunFacts.lean ====
/- The reference's @main is the sequence of its operations (`HandRun.ops`), none of its buffers or semaphores is
   scoped, and every operation touches TensorCore buffers only: the three facts the straight-line run theorem asks. -/
import proofs.«147870_j56942676410883_2_alg».proof.Proof.RefRun

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 100000 in
set_option maxHeartbeats 8000000 in
/-- @main is the sequence of these operations. -/
theorem main_eq (c : Dev nD) : main (F := F) c = seq ops := rfl
/-- No TensorCore buffer of the program is scoped, -/
theorem scopedRefs_eq : (Finset.univ.filter fun b : Ref sig .tc => b.isScoped) = ∅ := by decide
/-- and no semaphore. -/
theorem scopedSems_eq : (Finset.univ.filter fun sm : SemLoc sig => sm.isScoped .tc) = ∅ := by decide
set_option maxRecDepth 100000 in
set_option maxHeartbeats 8000000 in
/-- Every operation touches TensorCore buffers only. -/
theorem ops_sub : (ops : List (HloOp τ sig (Elt F))).Forall fun op => op.bufs ⊆ tcRefs τ sig :=
  ⟨unary_bufs_sub .., nullary_bufs_sub .., binary_bufs_sub .., unary_bufs_sub .., nullary_bufs_sub .., unary_bufs_sub .., binary_bufs_sub .., unary_bufs_sub .., binary_bufs_sub .., binary_bufs_sub .., nullary_bufs_sub .., nullary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., unary_bufs_sub .., unary_bufs_sub .., unary_bufs_sub .., unary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., binary_bufs_sub .., unary_bufs_sub .., nullary_bufs_sub .., unary_bufs_sub .., binary_bufs_sub .., unary_bufs_sub .., binary_bufs_sub .., binary_bufs_sub .., nullary_bufs_sub .., nullary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., unary_bufs_sub .., unary_bufs_sub .., unary_bufs_sub .., unary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., binary_bufs_sub .., unary_bufs_sub .., nullary_bufs_sub .., unary_bufs_sub .., binary_bufs_sub .., unary_bufs_sub .., binary_bufs_sub .., binary_bufs_sub .., nullary_bufs_sub .., nullary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., unary_bufs_sub .., unary_bufs_sub .., unary_bufs_sub .., unary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., binary_bufs_sub .., unary_bufs_sub .., nullary_bufs_sub .., unary_bufs_sub .., binary_bufs_sub .., unary_bufs_sub .., binary_bufs_sub .., binary_bufs_sub .., nullary_bufs_sub .., nullary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., unary_bufs_sub .., unary_bufs_sub .., unary_bufs_sub .., unary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., binary_bufs_sub .., unary_bufs_sub .., nullary_bufs_sub .., unary_bufs_sub .., binary_bufs_sub .., unary_bufs_sub .., binary_bufs_sub .., binary_bufs_sub .., nullary_bufs_sub .., nullary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., unary_bufs_sub .., unary_bufs_sub .., unary_bufs_sub .., unary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., binary_bufs_sub .., unary_bufs_sub .., nullary_bufs_sub .., unary_bufs_sub .., binary_bufs_sub .., unary_bufs_sub .., binary_bufs_sub .., binary_bufs_sub .., nullary_bufs_sub .., nullary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., unary_bufs_sub .., unary_bufs_sub .., unary_bufs_sub .., unary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., binary_bufs_sub .., unary_bufs_sub .., nullary_bufs_sub .., unary_bufs_sub .., binary_bufs_sub .., unary_bufs_sub .., binary_bufs_sub .., binary_bufs_sub .., nullary_bufs_sub .., nullary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., unary_bufs_sub .., unary_bufs_sub .., unary_bufs_sub .., unary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., binary_bufs_sub .., unary_bufs_sub .., nullary_bufs_sub .., unary_bufs_sub .., binary_bufs_sub .., unary_bufs_sub .., binary_bufs_sub .., binary_bufs_sub .., nullary_bufs_sub .., nullary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., unary_bufs_sub .., unary_bufs_sub .., unary_bufs_sub .., unary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., binary_bufs_sub .., unary_bufs_sub .., nullary_bufs_sub .., unary_bufs_sub .., binary_bufs_sub .., unary_bufs_sub .., binary_bufs_sub .., binary_bufs_sub .., nullary_bufs_sub .., nullary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., unary_bufs_sub .., unary_bufs_sub .., unary_bufs_sub .., unary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., binary_bufs_sub .., unary_bufs_sub .., nullary_bufs_sub .., unary_bufs_sub .., binary_bufs_sub .., unary_bufs_sub .., binary_bufs_sub .., binary_bufs_sub .., nullary_bufs_sub .., nullary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., unary_bufs_sub .., unary_bufs_sub .., unary_bufs_sub .., unary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., unary_bufs_sub .., unary_bufs_sub .., unary_bufs_sub .., unary_bufs_sub .., unary_bufs_sub .., unary_bufs_sub .., unary_bufs_sub .., unary_bufs_sub .., unary_bufs_sub .., unary_bufs_sub .., nary_bufs_sub ..⟩

end Cert.ReferenceIdeal.HandRun

end
-- ==== Proof.RefRunMain.lean ====
/- The reference's run read back: from any memory, every weakly fair execution of the reference's @main terminates
   with the result buffer at `refOut` of the input array and the input array unchanged.  The operations run in order
   (`HandRun.ops`), each result buffer ends at the composition of the operations that lead to it, and for the last
   buffer that composition is, term for term, the ten epochs' `refEpoch` stacked. -/
import proofs.«147870_j56942676410883_2_alg».proof.Proof.RefRunFacts

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 100000 in
set_option maxHeartbeats 184400000 in
/-- The reference terminates with its result at `refOut` of the input and the input unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v180) = Hand.refOut (F := F) (m ((c.tc : Thread nD τ).loc main_arg0))
      ∧ r.2.mem ((c.tc : Thread nD τ).loc main_arg0) = m ((c.tc : Thread nD τ).loc main_arg0) :=
  (θ_run defs _ _).mono (fun _ h c => ⟨(h c main_v180).trans (by after_results_simp <;> rfl),
      (h c main_arg0).trans (by after_results_simp <;> rfl)⟩)
    (run_seq scopedRefs_eq scopedSems_eq defs main (fun _ => ops) main_eq (fun _ => ops_sub) m ρ)

end Cert.ReferenceIdeal.HandRun

end
-- ==== Proof.LibGatherPairs.lean ====
/- A gather at index pairs for the last two axes of a rank-3 array.

   A `stablehlo.gather` with offset_dims [0], collapsed_slice_dims [1, 2], start_index_map [1, 2], index_vector_dim 1
   and slice_sizes [A, 1, 1] takes, for each row `e` of an `[E, 2]` array of start indices, the whole first axis of
   an `[A, N, M]` operand at the position the pair names on the other two axes.  Result entry `(b, e)` is therefore
   the operand at `(b, p, q)` with `p`, `q` the two components of pair `e`, each read as a signed integer and
   clamped into its axis.  Any extents `A`, `N`, `M`, `E`, any index width, any element type.  (With the pairs
   `(i, i)` this is the diagonal of each matrix of a stack, which is what `jnp.diagonal` lowers to.) -/
import Idealize.ShloMosaic.Lib.Pipeline.Value
import Idealize.ShloMosaic.Lib.ValueIdx
import Idealize.ShloMosaic.Lib.DynamicIndex

noncomputable section

namespace Cert.LibGatherPairs

open Idealize.ShloMosaic Idealize.ShloMosaic.ValueIdx

section Pairs
variable {α : Type}

/-- The dimension numbers: operand `[A, N, M]`, start indices `[E, 2]` (row `e` a pair for axes 1 and 2), result
    `[A, E]`; the first axis is kept whole (slice size `A`), the other two collapsed (slice size 1). -/
abbrev pairDims (A N M E : Nat)
    (wf : GatherDims.WF ⟨3, ![A, N, M]⟩ ⟨2, ![E, 2]⟩ ⟨2, ![A, E]⟩ [0] [1, 2] [] [1, 2] [] 1 ![A, 1, 1]) :
    GatherDims ⟨3, ![A, N, M]⟩ ⟨2, ![E, 2]⟩ ⟨2, ![A, E]⟩ where
  offsetDims := [0]
  collapsedSliceDims := [1, 2]
  operandBatchingDims := []
  startIndicesBatchingDims := []
  startIndexMap := [1, 2]
  indexVectorDim := 1
  sliceSizes := ![A, 1, 1]
  wf := wf

/-- The position a start index names on an axis of extent `N`: the word read signed, clamped into `[0, N - 1]`. -/
def clampTo {w : Nat} (N : Nat) (hN : 0 < N) (b : BitVec w) : Fin N := ⟨min b.toInt.toNat (N - 1), by omega⟩

/-- An axis of a rank-3 shape is its first, second or third. -/
private theorem axis_cases3 (a : Fin 3) : a = 0 ∨ a = 1 ∨ a = 2 := by fin_cases a <;> simp
private theorem zero_not_mem : (0 : Fin 3) ∉ ([1, 2] : List (Fin 3)) := by decide
private theorem one_mem : (1 : Fin 3) ∈ ([1, 2] : List (Fin 3)) := by decide
private theorem two_mem : (2 : Fin 3) ∈ ([1, 2] : List (Fin 3)) := by decide

/-- The gather read at `(b, e)`: the operand at `b` and the two positions start index `e` names. -/
theorem gather_pairs_apply {A N M E w : Nat} (hN : 0 < N) (hM : 0 < M)
    (wf : GatherDims.WF ⟨3, ![A, N, M]⟩ ⟨2, ![E, 2]⟩ ⟨2, ![A, E]⟩ [0] [1, 2] [] [1, 2] [] 1 ![A, 1, 1])
    (x : (⟨3, ![A, N, M]⟩ : Shape).Idx → α) (idx : IVec ⟨2, ![E, 2]⟩ w) (b : Fin A) (e : Fin E) :
    Host.gather (pairDims A N M E wf) x idx (ix2 b e)
      = x (ix3 b (clampTo N hN (idx (ix2 e (0 : Fin 2)))) (clampTo M hM (idx (ix2 e (1 : Fin 2))))) := by
  unfold Host.gather
  congr 1
  funext a
  refine Fin.ext ?_
  show (pairDims A N M E wf).start (ix2 b e) idx a + (pairDims A N M E wf).batchCoord (ix2 b e) a
      + (pairDims A N M E wf).offCoord (ix2 b e) a = _
  rw [GatherDims.batchCoord_eq_zero _ _ _ List.not_mem_nil]
  rcases axis_cases3 a with rfl | rfl | rfl
  · -- the kept axis: no start index, the result's first coordinate as the offset
    unfold GatherDims.start
    rw [dif_neg (show (0 : Fin 3) ∉ (pairDims A N M E wf).startIndexMap from zero_not_mem)]
    simp only [Nat.zero_add, Nat.add_zero]
    have hk : (0 : Fin 3) ∈ (pairDims A N M E wf).sKept :=
      ((pairDims A N M E wf).mem_sKept 0).mpr ⟨zero_not_mem, List.not_mem_nil⟩
    unfold GatherDims.offCoord
    rw [dif_pos hk]
    rfl
  · -- the first collapsed axis: the pair's first component, no offset
    rw [GatherDims.offCoord_eq_zero _ _ _ (fun h => ((GatherDims.mem_sKept _ _).mp h).1 one_mem)]
    simp only [Nat.add_zero]
    unfold GatherDims.start
    rw [dif_pos (show (1 : Fin 3) ∈ (pairDims A N M E wf).startIndexMap from one_mem)]
    have hsi : (pairDims A N M E wf).siIdx (ix2 b e) ⟨List.idxOf (1 : Fin 3) (pairDims A N M E wf).startIndexMap,
        List.idxOf_lt_length_iff.2 one_mem⟩ = ix2 e (0 : Fin 2) := by
      funext c; refine Fin.ext ?_
      match c with
      | ⟨0, _⟩ => rfl
      | ⟨1, _⟩ => rfl
    rw [hsi]
    rfl
  · -- the second collapsed axis: the pair's second component
    rw [GatherDims.offCoord_eq_zero _ _ _ (fun h => ((GatherDims.mem_sKept _ _).mp h).1 two_mem)]
    simp only [Nat.add_zero]
    unfold GatherDims.start
    rw [dif_pos (show (2 : Fin 3) ∈ (pairDims A N M E wf).startIndexMap from two_mem)]
    have hsi : (pairDims A N M E wf).siIdx (ix2 b e) ⟨List.idxOf (2 : Fin 3) (pairDims A N M E wf).startIndexMap,
        List.idxOf_lt_length_iff.2 two_mem⟩ = ix2 e (1 : Fin 2) := by
      funext c; refine Fin.ext ?_
      match c with
      | ⟨0, _⟩ => rfl
      | ⟨1, _⟩ => rfl
    rw [hsi]
    rfl

end Pairs

end Cert.LibGatherPairs

end
-- ==== Proof.RefReadDiag.lean ====
/- The diagonal of a stack of square matrices, as the reference reads it.

   The reference takes the diagonal of each covariance matrix by a gather: start index `i` is the pair `(i, i)`, the
   gather keeps the batch axis whole and collapses the two matrix axes, so result entry `(B, i)` is entry
   `(B, i, i)` of the operand.  A start index is read as a signed integer and clamped into the axis; the pairs here
   are the numbers `0 .. 63` themselves (the index column is an iota, under a select on "negative" that never fires),
   so the clamp does nothing.  The general fact — a gather of a rank-3 array at a list of index pairs for its last
   two axes — is a module of its own; here the reference's own index array is read and the diagonal concluded. -/
import proofs.«147870_j56942676410883_2_alg».proof.Proof.RefOps
import proofs.«147870_j56942676410883_2_alg».proof.Proof.LibGatherPairs
import Idealize.ShloMosaic.Lib.Pipeline.Value
import Idealize.ShloMosaic.Lib.ValueIdx
import Idealize.ShloMosaic.Lib.DynamicIndex

noncomputable section

namespace Cert.ReferenceIdeal.Hand

open Cert.ReferenceIdeal Idealize.ShloMosaic Idealize.ShloMosaic.ValueIdx Idealize.ShloMosaic.StableHlo
open Cert.ReferenceIdeal.Facts₀ Cert.LibGatherPairs

/-! ## The reference's index pairs -/

/-- The index column both halves of the pair array are made of: the numbers `0 .. 63` (the iota, where a negative
    entry would have 64 added; none is negative). -/
theorem diagCol_apply (i : Fin 64) :
    select (cmpi .slt (iotaInDim S64 32 0) (broadcastInDim S64 ![] bcast_S_S64 (constantI S_ 32 0#32)))
        (addi (iotaInDim S64 32 0) (broadcastInDim S64 ![] bcast_S_S64 (constantI S_ 32 64#32))) (iotaInDim S64 32 0) (ix1 i)
      = BitVec.ofNat 32 i.val := by
  show Scalar.select (IntOp.cmpi .slt (BitVec.ofNat 32 i.val) 0#32) (IntOp.addi (BitVec.ofNat 32 i.val) 64#32)
      (BitVec.ofNat 32 i.val) = BitVec.ofNat 32 i.val
  revert i
  decide

/-- Row `i` of the pair array is `(i, i)`: both components are the word of `i`. -/
theorem diagIdx_apply (i : Fin 64) (k : Fin 2) : diagIdx (ix2 i k) = BitVec.ofNat 32 i.val := by
  have hcol : ∀ col : IVec S64 32, broadcastInDim S64x1 ![0] bcast_S64_S64x1_0 col (ix2 i (0 : Fin 1)) = col (ix1 i) :=
    fun col => broadcastInDim_apply _ bcast_S64_S64x1_0 col (ix2 i (0 : Fin 1)) (ix1 i) (fun a => match a with
      | ⟨0, _⟩ => by show i.val = if (64 : Nat) = 1 then 0 else i.val; rw [if_neg (by decide)])
  unfold diagIdx
  match k with
  | ⟨0, _⟩ =>
    refine (concatenate_pair_apply_left (t := S64x2) (s₁ := S64x1) (s₂ := S64x1) (1 : Fin 2) _ _ concatenates_S64x1_S64x1_S64x2_d1 (ix2 i (0 : Fin 2)) rfl
      (ix2 i (0 : Fin 1)) (fun b => match b with | ⟨0, _⟩ => rfl | ⟨1, _⟩ => rfl)).trans ?_
    exact (hcol _).trans (diagCol_apply i)
  | ⟨1, _⟩ =>
    refine (concatenate_pair_apply_right (t := S64x2) (s₁ := S64x1) (s₂ := S64x1) (1 : Fin 2) _ _ concatenates_S64x1_S64x1_S64x2_d1 (ix2 i (1 : Fin 2)) rfl rfl
      (ix2 i (0 : Fin 1)) (fun b hb => match b, hb with
        | ⟨0, _⟩, _ => rfl
        | ⟨1, _⟩, hb => absurd rfl hb) rfl).trans ?_
    exact (hcol _).trans (diagCol_apply i)

/-- The word of a number below 64, read signed and clamped into `[0, 63]`, is the number. -/
theorem clampTo_ofNat (i : Fin 64) : clampTo 64 (by decide) (BitVec.ofNat 32 i.val) = i := by
  refine Fin.ext ?_
  show min (BitVec.ofNat 32 i.val).toInt.toNat (64 - 1) = i.val
  rw [toInt_ofNat_of_lt (by have := i.isLt; omega), Int.toNat_natCast]
  have := i.isLt
  omega

/-- The diagonal: the reference's gather of a `[64, 64, 64]` array at its index pairs reads, at `(B, i)`, entry
    `(B, i, i)`. -/
theorem gather_diag_apply {α : Type} (v : S64x64x64.Idx → α) (B i : Fin 64) :
    Host.gather gather_S64x64x64_S64x2_S64x64_0_12_n_n_12_1_6411 v diagIdx (ix2 B i) = v (ix3 B i i) := by
  show Host.gather (pairDims 64 64 64 64 gather_S64x64x64_S64x2_S64x64_0_12_n_n_12_1_6411_wf) v diagIdx (ix2 B i) = _
  rw [gather_pairs_apply (by decide) (by decide), diagIdx_apply, diagIdx_apply, clampTo_ofNat]

end Cert.ReferenceIdeal.Hand

end
-- ==== Proof.RefReadEpoch.lean ====
/- One epoch of the reference, read at an index.

   For a slab `s[B, c, t]` of 600 samples per row, the reference computes the row means (the row sum over 600),
   subtracts them, multiplies the centered slab by its own transpose over the sample axis batch by batch (the
   covariance matrices), takes the square root of each matrix's diagonal, divides each covariance by the product of
   the two standard deviations and clips to [-1, 1].  Read at `(B, c, d)` that is the clipped correlation of rows
   `c` and `d` of batch `B`, with covariances about the means. -/
import proofs.«147870_j56942676410883_2_alg».proof.Proof.RefOps
import proofs.«147870_j56942676410883_2_alg».proof.Proof.Spec
import proofs.«147870_j56942676410883_2_alg».proof.Proof.RefReadDiag
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.ReferenceIdeal.Hand

open Cert.ReferenceIdeal Idealize.ShloMosaic Idealize.ShloMosaic.ValueIdx Idealize.ShloMosaic.StableHlo
open Cert.ReferenceIdeal.Facts₀

/-- Row `c` of batch `B` of a slab: its 600 samples. -/
def slabRow (s : FVec Ideal S64x64x600 .f32) (B c : Fin 64) : Fin 600 → EReal := fun t => s (ix3 B c t)

/-! ## The row means -/

/-- The sum over the sample axis, from the zero word: at `(B, c)` the sum of row `c` of batch `B`. -/
theorem rowSum_apply (s : FVec Ideal S64x64x600 .f32) (B c : Fin 64) :
    Host.reduceAdd (F := Ideal) s (constant (F := Ideal) S_ .f32 0x00000000#32) reducesTo_S64x64x600_S64x64_d2 h_S_ (ix2 B c)
      = ∑ t : Fin 600, s (ix3 B c t) := by
  rw [hostReduceAdd_apply, Ideal.hostReduceAdd_single reducesTo_S64x64x600_S64x64_d2 (by decide)]
  rw [constant_apply, Ideal.ofBits_zero_f32, zero_add]
  refine Finset.sum_congr rfl fun k _ => ?_
  exact congrArg s (funext fun a => Fin.ext (by match a with | ⟨0, _⟩ => rfl | ⟨1, _⟩ => rfl | ⟨2, _⟩ => rfl))

/-- The means, kept as a column: at `(B, c, 0)` the mean of row `c` of batch `B`. -/
theorem refMean_apply (s : FVec Ideal S64x64x600 .f32) (B c : Fin 64) (u : Fin 1) :
    refMean (F := Ideal) s (ix3 B c u) = Cert.Corr.mean (slabRow s B c) := by
  unfold refMean
  rw [hostDivf_apply]
  rw [broadcastInDim_apply _ bcast_S64x64_S64x64x1_0_1 _ (ix3 B c u) (ix2 B c) (fun a => match a with
    | ⟨0, _⟩ => by show B.val = if (64 : Nat) = 1 then 0 else B.val; rw [if_neg (by decide)]
    | ⟨1, _⟩ => by show c.val = if (64 : Nat) = 1 then 0 else c.val; rw [if_neg (by decide)])]
  rw [rowSum_apply, broadcastInDim_scalar_apply, constant_apply]
  rfl

/-! ## The centered slab and the covariance matrices -/

/-- The slab less its row means: at `(B, c, t)` sample `t` of row `c` less that row's mean. -/
theorem refCentered_apply (s : FVec Ideal S64x64x600 .f32) (B c : Fin 64) (t : Fin 600) :
    refCentered (F := Ideal) s (ix3 B c t) = slabRow s B c t - Cert.Corr.mean (slabRow s B c) := by
  unfold refCentered
  rw [subf_apply]
  rw [broadcastInDim_apply _ bcast_S64x64x1_S64x64x600_0_1_2 _ (ix3 B c t) (ix3 B c (0 : Fin 1)) (fun a => match a with
    | ⟨0, _⟩ => by show B.val = if (64 : Nat) = 1 then 0 else B.val; rw [if_neg (by decide)]
    | ⟨1, _⟩ => by show c.val = if (64 : Nat) = 1 then 0 else c.val; rw [if_neg (by decide)]
    | ⟨2, _⟩ => by show 0 = if (1 : Nat) = 1 then 0 else t.val; rw [if_pos rfl])]
  rw [refMean_apply]
  rfl

/-- The left operand's index of the batched product, axis by axis: batch and row from the result, sample from the
    contraction. -/
private theorem dot_lhs0 (i : S64x64x64.Idx) (q : dot_S64x64x600_S64x64x600_S64x64x64_2_2_1_1_0_0.contr.Idx) : (dot_S64x64x600_S64x64x600_S64x64x64_2_2_1_1_0_0.lhsIdx i q 0).val = (i 0).val := by
  unfold DotDims.lhsIdx
  rw [dif_pos (show (0 : Fin S64x64x600.rank) ∈ dot_S64x64x600_S64x64x600_S64x64x64_2_2_1_1_0_0.lhsBatch by decide)]
  rfl
private theorem dot_lhs1 (i : S64x64x64.Idx) (q : dot_S64x64x600_S64x64x600_S64x64x64_2_2_1_1_0_0.contr.Idx) : (dot_S64x64x600_S64x64x600_S64x64x64_2_2_1_1_0_0.lhsIdx i q 1).val = (i 1).val := by
  unfold DotDims.lhsIdx
  rw [dif_neg (show ¬(1 : Fin S64x64x600.rank) ∈ dot_S64x64x600_S64x64x600_S64x64x64_2_2_1_1_0_0.lhsBatch by decide),
    dif_pos (show (1 : Fin S64x64x600.rank) ∈ dot_S64x64x600_S64x64x600_S64x64x64_2_2_1_1_0_0.lhsNonContracting by decide)]
  rfl
private theorem dot_lhs2 (i : S64x64x64.Idx) (q : dot_S64x64x600_S64x64x600_S64x64x64_2_2_1_1_0_0.contr.Idx) : (dot_S64x64x600_S64x64x600_S64x64x64_2_2_1_1_0_0.lhsIdx i q 2).val = (q ⟨0, by decide⟩).val :=
  dot_S64x64x600_S64x64x600_S64x64x64_2_2_1_1_0_0.lhsIdx_val_of_single rfl i q
/-- The right operand's: batch from the result, row from the result's last coordinate, sample from the contraction. -/
private theorem dot_rhs0 (i : S64x64x64.Idx) (q : dot_S64x64x600_S64x64x600_S64x64x64_2_2_1_1_0_0.contr.Idx) : (dot_S64x64x600_S64x64x600_S64x64x64_2_2_1_1_0_0.rhsIdx i q 0).val = (i 0).val := by
  unfold DotDims.rhsIdx
  rw [dif_pos (show (0 : Fin S64x64x600.rank) ∈ dot_S64x64x600_S64x64x600_S64x64x64_2_2_1_1_0_0.rhsBatch by decide)]
  rfl
private theorem dot_rhs1 (i : S64x64x64.Idx) (q : dot_S64x64x600_S64x64x600_S64x64x64_2_2_1_1_0_0.contr.Idx) : (dot_S64x64x600_S64x64x600_S64x64x64_2_2_1_1_0_0.rhsIdx i q 1).val = (i 2).val := by
  unfold DotDims.rhsIdx
  rw [dif_neg (show ¬(1 : Fin S64x64x600.rank) ∈ dot_S64x64x600_S64x64x600_S64x64x64_2_2_1_1_0_0.rhsBatch by decide),
    dif_pos (show (1 : Fin S64x64x600.rank) ∈ dot_S64x64x600_S64x64x600_S64x64x64_2_2_1_1_0_0.rhsNonContracting by decide)]
  rfl
private theorem dot_rhs2 (i : S64x64x64.Idx) (q : dot_S64x64x600_S64x64x600_S64x64x64_2_2_1_1_0_0.contr.Idx) : (dot_S64x64x600_S64x64x600_S64x64x64_2_2_1_1_0_0.rhsIdx i q 2).val = (q ⟨0, by decide⟩).val :=
  dot_S64x64x600_S64x64x600_S64x64x64_2_2_1_1_0_0.rhsIdx_val_of_single rfl i q

private theorem dot_lhsIdx (B c d : Fin 64) (q : dot_S64x64x600_S64x64x600_S64x64x64_2_2_1_1_0_0.contr.Idx) (k : Fin 600) (hq : (q ⟨0, by decide⟩).val = k.val) :
    dot_S64x64x600_S64x64x600_S64x64x64_2_2_1_1_0_0.lhsIdx (ix3 B c d) q = ix3 B c k :=
  funext fun a => Fin.ext (by
    match a with
    | ⟨0, _⟩ => exact dot_lhs0 _ _
    | ⟨1, _⟩ => exact dot_lhs1 _ _
    | ⟨2, _⟩ => exact (dot_lhs2 _ _).trans hq)

private theorem dot_rhsIdx (B c d : Fin 64) (q : dot_S64x64x600_S64x64x600_S64x64x64_2_2_1_1_0_0.contr.Idx) (k : Fin 600) (hq : (q ⟨0, by decide⟩).val = k.val) :
    dot_S64x64x600_S64x64x600_S64x64x64_2_2_1_1_0_0.rhsIdx (ix3 B c d) q = ix3 B d k :=
  funext fun a => Fin.ext (by
    match a with
    | ⟨0, _⟩ => exact dot_rhs0 _ _
    | ⟨1, _⟩ => exact dot_rhs1 _ _
    | ⟨2, _⟩ => exact (dot_rhs2 _ _).trans hq)

/-- The batched product over the sample axis: at `(B, c, d)` the sum over samples of row `c` of the left operand times
    row `d` of the right, both of batch `B`. -/
theorem dot_apply (l r : FVec Ideal S64x64x600 .f32) (B c d : Fin 64) :
    Host.dotGeneral dot_S64x64x600_S64x64x600_S64x64x64_2_2_1_1_0_0 none l r (ix3 B c d)
      = ∑ t : Fin 600, l (ix3 B c t) * r (ix3 B d t) := by
  simp only [Host.dotGeneral]
  rw [Ideal.dotGeneral_apply,
    ← Equiv.sum_comp (contrEquiv1 dot_S64x64x600_S64x64x600_S64x64x64_2_2_1_1_0_0 600 rfl rfl).symm]
  refine Finset.sum_congr rfl fun k _ => ?_
  have hk := contrEquiv1_symm_val dot_S64x64x600_S64x64x600_S64x64x64_2_2_1_1_0_0 600 rfl rfl k
  rw [dot_lhsIdx B c d _ k hk, dot_rhsIdx B c d _ k hk]

/-- The covariance matrices: at `(B, c, d)` the covariance about the means of rows `c` and `d` of batch `B`. -/
theorem refCov_apply (s : FVec Ideal S64x64x600 .f32) (B c d : Fin 64) :
    refCov (F := Ideal) s (ix3 B c d) = Cert.Corr.covCentered (slabRow s B c) (slabRow s B d) := by
  unfold refCov
  rw [dot_apply]
  unfold Cert.Corr.covCentered
  exact Finset.sum_congr rfl fun t _ => by rw [refCentered_apply, refCentered_apply]

/-! ## The standard deviations and the clipped quotient -/

/-- The standard deviations: at `(B, c)` the square root of the covariance of row `c` of batch `B` with itself. -/
theorem refStd_apply (s : FVec Ideal S64x64x600 .f32) (B c : Fin 64) :
    refStd (F := Ideal) s (ix2 B c) = Ideal.sqrt (Cert.Corr.covCentered (slabRow s B c) (slabRow s B c)) := by
  unfold refStd
  show Ideal.sqrt (Host.gather gather_S64x64x64_S64x2_S64x64_0_12_n_n_12_1_6411 (refCov (F := Ideal) s) diagIdx (ix2 B c)) = _
  rw [gather_diag_apply, refCov_apply]

/-- One epoch at `(B, c, d)`: the clipped correlation of rows `c` and `d` of batch `B`. -/
theorem refEpoch_apply (s : FVec Ideal S64x64x600 .f32) (B c d : Fin 64) :
    refEpoch (F := Ideal) s (ix3 B c d)
      = Cert.Corr.clipCorr (Cert.Corr.covCentered (slabRow s B c) (slabRow s B d))
          (Cert.Corr.covCentered (slabRow s B c) (slabRow s B c)) (Cert.Corr.covCentered (slabRow s B d) (slabRow s B d)) := by
  unfold refEpoch
  rw [minimumf_apply, maximumf_apply, hostDivf_apply, mulf_apply]
  rw [broadcastInDim_scalar_apply, broadcastInDim_scalar_apply]
  rw [broadcastInDim_apply _ bcast_S64x64x1_S64x64x64_0_1_2 _ (ix3 B c d) (ix3 B c (0 : Fin 1)) (fun a => match a with
    | ⟨0, _⟩ => by show B.val = if (64 : Nat) = 1 then 0 else B.val; rw [if_neg (by decide)]
    | ⟨1, _⟩ => by show c.val = if (64 : Nat) = 1 then 0 else c.val; rw [if_neg (by decide)]
    | ⟨2, _⟩ => by show 0 = if (1 : Nat) = 1 then 0 else d.val; rw [if_pos rfl])]
  rw [broadcastInDim_apply _ bcast_S64x64_S64x64x1_0_1 _ (ix3 B c (0 : Fin 1)) (ix2 B c) (fun a => match a with
    | ⟨0, _⟩ => by show B.val = if (64 : Nat) = 1 then 0 else B.val; rw [if_neg (by decide)]
    | ⟨1, _⟩ => by show c.val = if (64 : Nat) = 1 then 0 else c.val; rw [if_neg (by decide)])]
  rw [broadcastInDim_apply _ bcast_S64x1x64_S64x64x64_0_1_2 _ (ix3 B c d) (ix3 B (0 : Fin 1) d) (fun a => match a with
    | ⟨0, _⟩ => by show B.val = if (64 : Nat) = 1 then 0 else B.val; rw [if_neg (by decide)]
    | ⟨1, _⟩ => by show 0 = if (1 : Nat) = 1 then 0 else c.val; rw [if_pos rfl]
    | ⟨2, _⟩ => by show d.val = if (64 : Nat) = 1 then 0 else d.val; rw [if_neg (by decide)])]
  rw [broadcastInDim_apply _ bcast_S64x64_S64x1x64_0_2 _ (ix3 B (0 : Fin 1) d) (ix2 B d) (fun a => match a with
    | ⟨0, _⟩ => by show B.val = if (64 : Nat) = 1 then 0 else B.val; rw [if_neg (by decide)]
    | ⟨1, _⟩ => by show d.val = if (64 : Nat) = 1 then 0 else d.val; rw [if_neg (by decide)])]
  rw [refCov_apply, refStd_apply, refStd_apply]
  rfl

end Cert.ReferenceIdeal.Hand

end
-- ==== Proof.RefReadSlab.lean ====
/- The ten epochs' slabs of the input, read at an index.

   The reference cuts epoch `e` out of the input along the sample axis at offset `600 e`: sample `t` of row `c` of
   batch `B` of that slab is sample `600 e + t` of the same row of the input.  One lemma for any offset of that
   form, then the ten slabs. -/
import proofs.«147870_j56942676410883_2_alg».proof.Proof.RefOps
import proofs.«147870_j56942676410883_2_alg».proof.Proof.Spec
import Idealize.ShloMosaic.Lib.Pipeline.Value
import Idealize.ShloMosaic.Lib.ValueIdx

noncomputable section

namespace Cert.ReferenceIdeal.Hand

open Cert.ReferenceIdeal Idealize.ShloMosaic Idealize.ShloMosaic.ValueIdx Idealize.ShloMosaic.StableHlo
open Cert.ReferenceIdeal.Facts₀

/-- A slice of 600 samples at offset `600 e` along the last axis reads, at `(B, c, t)`, sample `t` of row `c` of
    epoch `e` of batch `B`. -/
theorem slice_epoch_apply (x : FVec Ideal S64x64x6000 .f32) (o : Nat) (h : S64x64x6000.Slices ![0, 0, o] S64x64x600)
    (e : Fin 10) (he : o = 600 * e.val) (B c : Fin 64) (t : Fin 600) :
    extractStridedSlice S64x64x600 ![0, 0, o] x h (ix3 B c t) = Cert.Corr.row x B e c t := by
  subst he
  unfold Cert.Corr.row
  exact extractStridedSlice_apply _ x h (ix3 B c t) _ (fun a => match a with
    | ⟨0, _⟩ => by show B.val = 0 + B.val; omega
    | ⟨1, _⟩ => by show c.val = 0 + c.val; omega
    | ⟨2, _⟩ => rfl)

theorem slab0_apply (x : FVec Ideal S64x64x6000 .f32) (B c : Fin 64) (t : Fin 600) :
    slab0 (F := Ideal) x (ix3 B c t) = Cert.Corr.row x B ⟨0, by decide⟩ c t :=
  slice_epoch_apply x 0 slices_S64x64x6000_S64x64x600_0_0_0 ⟨0, by decide⟩ rfl B c t

theorem slab1_apply (x : FVec Ideal S64x64x6000 .f32) (B c : Fin 64) (t : Fin 600) :
    slab1 (F := Ideal) x (ix3 B c t) = Cert.Corr.row x B ⟨1, by decide⟩ c t :=
  slice_epoch_apply x 600 slices_S64x64x6000_S64x64x600_0_0_600 ⟨1, by decide⟩ rfl B c t

theorem slab2_apply (x : FVec Ideal S64x64x6000 .f32) (B c : Fin 64) (t : Fin 600) :
    slab2 (F := Ideal) x (ix3 B c t) = Cert.Corr.row x B ⟨2, by decide⟩ c t :=
  slice_epoch_apply x 1200 slices_S64x64x6000_S64x64x600_0_0_1200 ⟨2, by decide⟩ rfl B c t

theorem slab3_apply (x : FVec Ideal S64x64x6000 .f32) (B c : Fin 64) (t : Fin 600) :
    slab3 (F := Ideal) x (ix3 B c t) = Cert.Corr.row x B ⟨3, by decide⟩ c t :=
  slice_epoch_apply x 1800 slices_S64x64x6000_S64x64x600_0_0_1800 ⟨3, by decide⟩ rfl B c t

theorem slab4_apply (x : FVec Ideal S64x64x6000 .f32) (B c : Fin 64) (t : Fin 600) :
    slab4 (F := Ideal) x (ix3 B c t) = Cert.Corr.row x B ⟨4, by decide⟩ c t :=
  slice_epoch_apply x 2400 slices_S64x64x6000_S64x64x600_0_0_2400 ⟨4, by decide⟩ rfl B c t

theorem slab5_apply (x : FVec Ideal S64x64x6000 .f32) (B c : Fin 64) (t : Fin 600) :
    slab5 (F := Ideal) x (ix3 B c t) = Cert.Corr.row x B ⟨5, by decide⟩ c t :=
  slice_epoch_apply x 3000 slices_S64x64x6000_S64x64x600_0_0_3000 ⟨5, by decide⟩ rfl B c t

theorem slab6_apply (x : FVec Ideal S64x64x6000 .f32) (B c : Fin 64) (t : Fin 600) :
    slab6 (F := Ideal) x (ix3 B c t) = Cert.Corr.row x B ⟨6, by decide⟩ c t :=
  slice_epoch_apply x 3600 slices_S64x64x6000_S64x64x600_0_0_3600 ⟨6, by decide⟩ rfl B c t

theorem slab7_apply (x : FVec Ideal S64x64x6000 .f32) (B c : Fin 64) (t : Fin 600) :
    slab7 (F := Ideal) x (ix3 B c t) = Cert.Corr.row x B ⟨7, by decide⟩ c t :=
  slice_epoch_apply x 4200 slices_S64x64x6000_S64x64x600_0_0_4200 ⟨7, by decide⟩ rfl B c t

theorem slab8_apply (x : FVec Ideal S64x64x6000 .f32) (B c : Fin 64) (t : Fin 600) :
    slab8 (F := Ideal) x (ix3 B c t) = Cert.Corr.row x B ⟨8, by decide⟩ c t :=
  slice_epoch_apply x 4800 slices_S64x64x6000_S64x64x600_0_0_4800 ⟨8, by decide⟩ rfl B c t

theorem slab9_apply (x : FVec Ideal S64x64x6000 .f32) (B c : Fin 64) (t : Fin 600) :
    slab9 (F := Ideal) x (ix3 B c t) = Cert.Corr.row x B ⟨9, by decide⟩ c t :=
  slice_epoch_apply x 5400 slices_S64x64x6000_S64x64x600_0_0_5400 ⟨9, by decide⟩ rfl B c t

end Cert.ReferenceIdeal.Hand

end
-- ==== Proof.RefReadOut.lean ====
/- The reference's whole result, read at an index.

   Each epoch's result gets a new second axis of extent one, and the ten are joined along it: entry `(B, e, c, d)` of
   the stack is entry `(B, 0, c, d)` of piece `e`, that is the one-epoch result of slab `e` at `(B, c, d)`.  With the
   slab read off the input and the epoch read at an index, every entry is the clipped correlation, by covariances about
   the means, of rows `c` and `d` of epoch `e` of batch `B`. -/
import proofs.«147870_j56942676410883_2_alg».proof.Proof.RefOps
import proofs.«147870_j56942676410883_2_alg».proof.Proof.Spec
import proofs.«147870_j56942676410883_2_alg».proof.Proof.RefReadEpoch
import proofs.«147870_j56942676410883_2_alg».proof.Proof.RefReadSlab
import Idealize.ShloMosaic.Lib.Pipeline.Value
import Idealize.ShloMosaic.Lib.ValueIdx

noncomputable section

namespace Cert.ReferenceIdeal.Hand

open Cert.ReferenceIdeal Idealize.ShloMosaic Idealize.ShloMosaic.ValueIdx Idealize.ShloMosaic.StableHlo
open Cert.ReferenceIdeal.Facts₀

/-- One epoch's result under the new unit axis: at `(B, 0, c, d)` the epoch's result at `(B, c, d)`. -/
theorem refPlane_apply (s : FVec Ideal S64x64x600 .f32) (B : Fin 64) (u : Fin 1) (c d : Fin 64) :
    refPlane (F := Ideal) s (ix4 B u c d) = refEpoch (F := Ideal) s (ix3 B c d) := by
  unfold refPlane
  exact broadcastInDim_apply _ bcast_S64x64x64_S64x1x64x64_0_2_3 _ (ix4 B u c d) (ix3 B c d) (fun a => match a with
    | ⟨0, _⟩ => by show B.val = if (64 : Nat) = 1 then 0 else B.val; rw [if_neg (by decide)]
    | ⟨1, _⟩ => by show c.val = if (64 : Nat) = 1 then 0 else c.val; rw [if_neg (by decide)]
    | ⟨2, _⟩ => by show d.val = if (64 : Nat) = 1 then 0 else d.val; rw [if_neg (by decide)])

/-- For a slab that is epoch `e` of batch `B` of the input, the plane at `(B, 0, c, d)` is the correlation of rows `c`
    and `d` of that epoch. -/
theorem refPlane_eq_corr (x : FVec Ideal S64x64x6000 .f32) (s : FVec Ideal S64x64x600 .f32) (B : Fin 64) (e : Fin 10)
    (c d : Fin 64) (u : Fin 1) (hs : ∀ (c' : Fin 64) (t : Fin 600), s (ix3 B c' t) = Cert.Corr.row x B e c' t) :
    refPlane (F := Ideal) s (ix4 B u c d) = Cert.Corr.corrCentered x B e c d := by
  have hr : ∀ c' : Fin 64, slabRow s B c' = Cert.Corr.row x B e c' := fun c' => funext fun t => hs c' t
  rw [refPlane_apply, refEpoch_apply, hr c, hr d]
  rfl

/-- Off the joined axis a piece's index `(B, 0, c, d)` has the coordinates of `(B, e, c, d)`. -/
private theorem off_axis (B : Fin 64) (e : Fin 10) (c d : Fin 64) :
    ∀ b : Fin S64x1x64x64.rank, b.cast (rfl : S64x1x64x64.rank = S64x10x64x64.rank) ≠ (1 : Fin 4) →
      ((ix4 B (0 : Fin 1) c d) b).val = ((ix4 B e c d) (b.cast (rfl : S64x1x64x64.rank = S64x10x64x64.rank))).val :=
  fun b hb => match b, hb with
    | ⟨0, _⟩, _ => rfl
    | ⟨1, _⟩, hb => absurd rfl hb
    | ⟨2, _⟩, _ => rfl
    | ⟨3, _⟩, _ => rfl

/-- The ten planes in epoch order: the pieces the stack joins. -/
def planes (x : FVec Ideal S64x64x6000 .f32) : List ((s : Shape) × (s.Idx → Ideal .f32)) :=
  [⟨S64x1x64x64, refPlane (F := Ideal) (slab0 (F := Ideal) x)⟩,
   ⟨S64x1x64x64, refPlane (F := Ideal) (slab1 (F := Ideal) x)⟩,
   ⟨S64x1x64x64, refPlane (F := Ideal) (slab2 (F := Ideal) x)⟩,
   ⟨S64x1x64x64, refPlane (F := Ideal) (slab3 (F := Ideal) x)⟩,
   ⟨S64x1x64x64, refPlane (F := Ideal) (slab4 (F := Ideal) x)⟩,
   ⟨S64x1x64x64, refPlane (F := Ideal) (slab5 (F := Ideal) x)⟩,
   ⟨S64x1x64x64, refPlane (F := Ideal) (slab6 (F := Ideal) x)⟩,
   ⟨S64x1x64x64, refPlane (F := Ideal) (slab7 (F := Ideal) x)⟩,
   ⟨S64x1x64x64, refPlane (F := Ideal) (slab8 (F := Ideal) x)⟩,
   ⟨S64x1x64x64, refPlane (F := Ideal) (slab9 (F := Ideal) x)⟩]

/-- The reference's result is the join of the ten planes along the second axis. -/
theorem refOut_planes (x : FVec Ideal S64x64x6000 .f32) :
    refOut (F := Ideal) x = concatenate S64x10x64x64 1 (planes x) concatenates_S64x1x64x64_S64x1x64x64_S64x1x64x64_S64x1x64x64_S64x1x64x64_S64x1x64x64_S64x1x64x64_S64x1x64x64_S64x1x64x64_S64x1x64x64_S64x10x64x64_d1 := rfl

/-- The reference's result at `(B, e, c, d)`: piece `e` of the join at `(B, 0, c, d)`. -/
theorem refOut_apply (x : FVec Ideal S64x64x6000 .f32) (B : Fin 64) (e : Fin 10) (c d : Fin 64) :
    refOut (F := Ideal) x (ix4 B e c d) = Cert.Corr.corrCentered x B e c d := by
  rw [refOut_planes]
  match e with
  | ⟨0, _⟩ =>
    exact (concatenate_apply_piece (t := S64x10x64x64) (1 : Fin 4) (planes x) concatenates_S64x1x64x64_S64x1x64x64_S64x1x64x64_S64x1x64x64_S64x1x64x64_S64x1x64x64_S64x1x64x64_S64x1x64x64_S64x1x64x64_S64x1x64x64_S64x10x64x64_d1
      (ix4 B ⟨0, by decide⟩ c d) 0 (show 0 < 10 by decide) S64x1x64x64 (refPlane (F := Ideal) (slab0 (F := Ideal) x)) rfl rfl 0 rfl
      (ix4 B (0 : Fin 1) c d) (off_axis B ⟨0, by decide⟩ c d) rfl).trans
      (refPlane_eq_corr x _ B ⟨0, by decide⟩ c d 0 (fun c' t => slab0_apply x B c' t))
  | ⟨1, _⟩ =>
    exact (concatenate_apply_piece (t := S64x10x64x64) (1 : Fin 4) (planes x) concatenates_S64x1x64x64_S64x1x64x64_S64x1x64x64_S64x1x64x64_S64x1x64x64_S64x1x64x64_S64x1x64x64_S64x1x64x64_S64x1x64x64_S64x1x64x64_S64x10x64x64_d1
      (ix4 B ⟨1, by decide⟩ c d) 1 (show 1 < 10 by decide) S64x1x64x64 (refPlane (F := Ideal) (slab1 (F := Ideal) x)) rfl rfl 1 rfl
      (ix4 B (0 : Fin 1) c d) (off_axis B ⟨1, by decide⟩ c d) rfl).trans
      (refPlane_eq_corr x _ B ⟨1, by decide⟩ c d 0 (fun c' t => slab1_apply x B c' t))
  | ⟨2, _⟩ =>
    exact (concatenate_apply_piece (t := S64x10x64x64) (1 : Fin 4) (planes x) concatenates_S64x1x64x64_S64x1x64x64_S64x1x64x64_S64x1x64x64_S64x1x64x64_S64x1x64x64_S64x1x64x64_S64x1x64x64_S64x1x64x64_S64x1x64x64_S64x10x64x64_d1
      (ix4 B ⟨2, by decide⟩ c d) 2 (show 2 < 10 by decide) S64x1x64x64 (refPlane (F := Ideal) (slab2 (F := Ideal) x)) rfl rfl 2 rfl
      (ix4 B (0 : Fin 1) c d) (off_axis B ⟨2, by decide⟩ c d) rfl).trans
      (refPlane_eq_corr x _ B ⟨2, by decide⟩ c d 0 (fun c' t => slab2_apply x B c' t))
  | ⟨3, _⟩ =>
    exact (concatenate_apply_piece (t := S64x10x64x64) (1 : Fin 4) (planes x) concatenates_S64x1x64x64_S64x1x64x64_S64x1x64x64_S64x1x64x64_S64x1x64x64_S64x1x64x64_S64x1x64x64_S64x1x64x64_S64x1x64x64_S64x1x64x64_S64x10x64x64_d1
      (ix4 B ⟨3, by decide⟩ c d) 3 (show 3 < 10 by decide) S64x1x64x64 (refPlane (F := Ideal) (slab3 (F := Ideal) x)) rfl rfl 3 rfl
      (ix4 B (0 : Fin 1) c d) (off_axis B ⟨3, by decide⟩ c d) rfl).trans
      (refPlane_eq_corr x _ B ⟨3, by decide⟩ c d 0 (fun c' t => slab3_apply x B c' t))
  | ⟨4, _⟩ =>
    exact (concatenate_apply_piece (t := S64x10x64x64) (1 : Fin 4) (planes x) concatenates_S64x1x64x64_S64x1x64x64_S64x1x64x64_S64x1x64x64_S64x1x64x64_S64x1x64x64_S64x1x64x64_S64x1x64x64_S64x1x64x64_S64x1x64x64_S64x10x64x64_d1
      (ix4 B ⟨4, by decide⟩ c d) 4 (show 4 < 10 by decide) S64x1x64x64 (refPlane (F := Ideal) (slab4 (F := Ideal) x)) rfl rfl 4 rfl
      (ix4 B (0 : Fin 1) c d) (off_axis B ⟨4, by decide⟩ c d) rfl).trans
      (refPlane_eq_corr x _ B ⟨4, by decide⟩ c d 0 (fun c' t => slab4_apply x B c' t))
  | ⟨5, _⟩ =>
    exact (concatenate_apply_piece (t := S64x10x64x64) (1 : Fin 4) (planes x) concatenates_S64x1x64x64_S64x1x64x64_S64x1x64x64_S64x1x64x64_S64x1x64x64_S64x1x64x64_S64x1x64x64_S64x1x64x64_S64x1x64x64_S64x1x64x64_S64x10x64x64_d1
      (ix4 B ⟨5, by decide⟩ c d) 5 (show 5 < 10 by decide) S64x1x64x64 (refPlane (F := Ideal) (slab5 (F := Ideal) x)) rfl rfl 5 rfl
      (ix4 B (0 : Fin 1) c d) (off_axis B ⟨5, by decide⟩ c d) rfl).trans
      (refPlane_eq_corr x _ B ⟨5, by decide⟩ c d 0 (fun c' t => slab5_apply x B c' t))
  | ⟨6, _⟩ =>
    exact (concatenate_apply_piece (t := S64x10x64x64) (1 : Fin 4) (planes x) concatenates_S64x1x64x64_S64x1x64x64_S64x1x64x64_S64x1x64x64_S64x1x64x64_S64x1x64x64_S64x1x64x64_S64x1x64x64_S64x1x64x64_S64x1x64x64_S64x10x64x64_d1
      (ix4 B ⟨6, by decide⟩ c d) 6 (show 6 < 10 by decide) S64x1x64x64 (refPlane (F := Ideal) (slab6 (F := Ideal) x)) rfl rfl 6 rfl
      (ix4 B (0 : Fin 1) c d) (off_axis B ⟨6, by decide⟩ c d) rfl).trans
      (refPlane_eq_corr x _ B ⟨6, by decide⟩ c d 0 (fun c' t => slab6_apply x B c' t))
  | ⟨7, _⟩ =>
    exact (concatenate_apply_piece (t := S64x10x64x64) (1 : Fin 4) (planes x) concatenates_S64x1x64x64_S64x1x64x64_S64x1x64x64_S64x1x64x64_S64x1x64x64_S64x1x64x64_S64x1x64x64_S64x1x64x64_S64x1x64x64_S64x1x64x64_S64x10x64x64_d1
      (ix4 B ⟨7, by decide⟩ c d) 7 (show 7 < 10 by decide) S64x1x64x64 (refPlane (F := Ideal) (slab7 (F := Ideal) x)) rfl rfl 7 rfl
      (ix4 B (0 : Fin 1) c d) (off_axis B ⟨7, by decide⟩ c d) rfl).trans
      (refPlane_eq_corr x _ B ⟨7, by decide⟩ c d 0 (fun c' t => slab7_apply x B c' t))
  | ⟨8, _⟩ =>
    exact (concatenate_apply_piece (t := S64x10x64x64) (1 : Fin 4) (planes x) concatenates_S64x1x64x64_S64x1x64x64_S64x1x64x64_S64x1x64x64_S64x1x64x64_S64x1x64x64_S64x1x64x64_S64x1x64x64_S64x1x64x64_S64x1x64x64_S64x10x64x64_d1
      (ix4 B ⟨8, by decide⟩ c d) 8 (show 8 < 10 by decide) S64x1x64x64 (refPlane (F := Ideal) (slab8 (F := Ideal) x)) rfl rfl 8 rfl
      (ix4 B (0 : Fin 1) c d) (off_axis B ⟨8, by decide⟩ c d) rfl).trans
      (refPlane_eq_corr x _ B ⟨8, by decide⟩ c d 0 (fun c' t => slab8_apply x B c' t))
  | ⟨9, _⟩ =>
    exact (concatenate_apply_piece (t := S64x10x64x64) (1 : Fin 4) (planes x) concatenates_S64x1x64x64_S64x1x64x64_S64x1x64x64_S64x1x64x64_S64x1x64x64_S64x1x64x64_S64x1x64x64_S64x1x64x64_S64x1x64x64_S64x1x64x64_S64x10x64x64_d1
      (ix4 B ⟨9, by decide⟩ c d) 9 (show 9 < 10 by decide) S64x1x64x64 (refPlane (F := Ideal) (slab9 (F := Ideal) x)) rfl rfl 9 rfl
      (ix4 B (0 : Fin 1) c d) (off_axis B ⟨9, by decide⟩ c d) rfl).trans
      (refPlane_eq_corr x _ B ⟨9, by decide⟩ c d 0 (fun c' t => slab9_apply x B c' t))

/-- The reference's result is the correlation by covariances about the means, entry by entry. -/
theorem refOut_eq (x : FVec Ideal S64x64x6000 .f32) : refOut (F := Ideal) x = Cert.Corr.G x := by
  funext i
  obtain ⟨B, e, c, d, rfl⟩ : ∃ (B : Fin 64) (e : Fin 10) (c d : Fin 64), i = ix4 B e c d :=
    ⟨i 0, i 1, i 2, i 3, eq_ix4 i⟩
  exact refOut_apply x B e c d

end Cert.ReferenceIdeal.Hand

end
-- ==== Proof.KernelSame.lean ====
/- The kernel body handles the ten epochs by ten copies of one computation.  The copies were cut into named
   pieces at different places, so the ten stored values are written as ten different compositions of pieces; each
   of them is the same sequence of operations applied to the epoch's loaded slab, with the 64 x 64 identity mask
   as a parameter.  This module records the ten identities: every stored value is the one epoch function
   (the second epoch's piece, which takes the mask and the slab) of its slab. -/
import proofs.«147870_j56942676410883_2_alg».proof.Proof.Gen.KernelIdeal.Skeleton

noncomputable section

namespace Cert.KernelIdeal.Hand

open Idealize.ShloMosaic Idealize.SL.Sem
open Cert.KernelIdeal Cert.KernelIdeal.Gen

variable {F : FTy → Type} [FloatOps F]

/-- The epoch function: the value one epoch stores, from that epoch's slab of 8 x 64 rows of 600 samples. -/
abbrev epochFn (v : Vec F S8x64x600 .f32) : FVec F S8x1x4096 .f32 := k0_pay4 (k0_pay2 (F := F)) v

theorem store0_eq (v : Vec F S8x64x600 .f32) : k0_pay3 v = epochFn v := rfl

theorem store1_eq (v : Vec F S8x64x600 .f32) : k0_pay4 (k0_pay2 (F := F)) v = epochFn v := rfl

theorem store2_eq (v : Vec F S8x64x600 .f32) :
    k0_pay9 (k0_pay2 (F := F)) (k0_pay5 v) (k0_pay7 v) (k0_pay8 v) = epochFn v := rfl

theorem store3_eq (v : Vec F S8x64x600 .f32) :
    k0_pay14 (k0_pay10 v) (k0_pay12 (k0_pay2 (F := F)) v) (k0_pay13 (k0_pay2 (F := F)) v) = epochFn v := rfl

theorem store4_eq (v : Vec F S8x64x600 .f32) : k0_pay16 (k0_pay15 (k0_pay2 (F := F)) v) = epochFn v := rfl

theorem store5_eq (v : Vec F S8x64x600 .f32) : k0_pay17 (k0_pay2 (F := F)) v = epochFn v := rfl

theorem store6_eq (v : Vec F S8x64x600 .f32) :
    k0_pay20 (k0_pay2 (F := F)) v (k0_pay18 v) (k0_pay19 (F := F)) = epochFn v := rfl

theorem store7_eq (v : Vec F S8x64x600 .f32) :
    k0_pay23 (k0_pay2 (F := F)) (k0_pay21 v) (k0_pay22 v) = epochFn v := rfl

theorem store8_eq (v : Vec F S8x64x600 .f32) :
    k0_pay25 (k0_pay24 (k0_pay2 (F := F)) v) (Scalar.ofBits .f32 0xBF800000#32) (Scalar.ofBits .f32 0x3F800000#32) = epochFn v := rfl

theorem store9_eq (v : Vec F S8x64x600 .f32) : k0_pay1 (k0_pay26 (k0_pay2 (F := F)) v) = epochFn v := rfl

end Cert.KernelIdeal.Hand

end
-- ==== Proof.KernelBlock.lean ====
/- The output block of one grid point as one function of the input block.

   At a grid point the body reads ten slabs of the input block x0 : [8, 64, 6000] -- slab e is the samples
   600 e .. 600 e + 599 of all 8 x 64 rows -- and stores, for each, the epoch function of the slab into row e of
   the middle axis of the output block [8, 10, 4096].  The ten stores tile the block, so the block holds, at
   (b, e, j), the epoch function of slab e read at (b, 0, j). -/
import proofs.«147870_j56942676410883_2_alg».proof.Proof.Gen.KernelIdeal.Frame
import proofs.«147870_j56942676410883_2_alg».proof.Proof.KernelSame
import Idealize.ShloMosaic.Lib.Pipeline.Value
import Idealize.ShloMosaic.Lib.ValueIdx

set_option maxRecDepth 16384

noncomputable section

namespace Cert.KernelIdeal.Hand

open Idealize.ShloMosaic Idealize.ShloMosaic.ValueIdx Idealize.SL.Sem
open Cert.KernelIdeal Cert.KernelIdeal.Gen

variable {F : FTy → Type} [FloatOps F]

/-- Slab `e` lies inside the input block: samples `600 e .. 600 e + 599` of 6000. -/
theorem slab_inb (e : Fin 10) : ∀ a, (![0, 0, 600 * e.val] : Fin 3 → Nat) a + S8x64x600.size a ≤ S8x64x6000.size a := by
  intro a
  have he : e.val < 10 := e.isLt
  match a with
  | ⟨0, _⟩ => show 0 + 8 ≤ 8; omega
  | ⟨1, _⟩ => show 0 + 64 ≤ 64; omega
  | ⟨2, _⟩ => show 600 * e.val + 600 ≤ 6000; omega

/-- Slab `e` of an input block: all rows, samples `600 e .. 600 e + 599`. -/
def slab (x0 : Vec F S8x64x6000 .f32) (e : Fin 10) : Vec F S8x64x600 .f32 :=
  View.ld x0 (Rect.unit (s := S8x64x6000) ![0, 0, 600 * e.val] S8x64x600.size (slab_inb e))

/-- A slab entry is the block's entry `600 e` samples further on. -/
theorem slab_apply (x0 : Vec F S8x64x6000 .f32) (e : Fin 10) (b : Fin 8) (c : Fin 64) (t : Fin 600) :
    slab x0 e (ix3 b c t) = x0 (ix3 b c ⟨600 * e.val + t.val, by have := e.isLt; have := t.isLt; omega⟩) := by
  unfold slab
  show x0 _ = x0 _
  congr 1
  funext a
  apply Fin.ext
  match a with
  | ⟨0, _⟩ => show 0 + 1 * b.val = b.val; omega
  | ⟨1, _⟩ => show 0 + 1 * c.val = c.val; omega
  | ⟨2, _⟩ => show 600 * e.val + 1 * t.val = 600 * e.val + t.val; omega

/-- The output block as a function of the input block: at `(b, e, j)` the epoch function of slab `e` at `(b, 0, j)`. -/
def blockFn (x0 : Vec F S8x64x6000 .f32) : Vec F S8x10x4096 .f32 :=
  fun y => epochFn (slab x0 (⟨(y 1).val, (y 1).isLt⟩ : Fin 10))
    (ix3 (⟨(y 0).val, (y 0).isLt⟩ : Fin 8) (0 : Fin 1) (⟨(y 2).val, (y 2).isLt⟩ : Fin 4096))

/-- The block function at explicit coordinates. -/
theorem blockFn_apply (x0 : Vec F S8x64x6000 .f32) (b : Fin 8) (e : Fin 10) (j : Fin 4096) :
    blockFn x0 (ix3 b e j) = epochFn (slab x0 e) (ix3 b (0 : Fin 1) j) := rfl

/-- The store into row `e` of the middle axis carries the block function's values there. -/
theorem piece_eq (x0 : Vec F S8x64x6000 .f32) (e : Fin 10)
    (inb : ∀ a, (![0, e.val, 0] : Fin 3 → Nat) a + S8x1x4096.size a ≤ S8x10x4096.size a) (x : S8x1x4096.Idx) :
    epochFn (slab x0 e) x = blockFn x0 ((Rect.unit (s := S8x10x4096) ![0, e.val, 0] S8x1x4096.size inb).emb x) := by
  have hx1 : (x 1).val < 1 := (x 1).isLt
  have h1 : (⟨(((Rect.unit (s := S8x10x4096) ![0, e.val, 0] S8x1x4096.size inb).emb x) 1).val,
      (((Rect.unit (s := S8x10x4096) ![0, e.val, 0] S8x1x4096.size inb).emb x) 1).isLt⟩ : Fin 10) = e :=
    Fin.ext (by show e.val + 1 * (x 1).val = e.val; omega)
  have h2 : ix3 (⟨(((Rect.unit (s := S8x10x4096) ![0, e.val, 0] S8x1x4096.size inb).emb x) 0).val,
        (((Rect.unit (s := S8x10x4096) ![0, e.val, 0] S8x1x4096.size inb).emb x) 0).isLt⟩ : Fin 8) (0 : Fin 1)
      (⟨(((Rect.unit (s := S8x10x4096) ![0, e.val, 0] S8x1x4096.size inb).emb x) 2).val,
        (((Rect.unit (s := S8x10x4096) ![0, e.val, 0] S8x1x4096.size inb).emb x) 2).isLt⟩ : Fin 4096) = x := by
    funext a
    apply Fin.ext
    match a with
    | ⟨0, _⟩ => show 0 + 1 * (x 0).val = (x 0).val; omega
    | ⟨1, _⟩ => show 0 = (x 1).val; omega
    | ⟨2, _⟩ => show 0 + 1 * (x 2).val = (x 2).val; omega
  unfold blockFn
  exact (congrArg (epochFn (slab x0 e)) h2.symm).trans (congrArg (fun e' => epochFn (slab x0 e') _) h1.symm)

/-- What the body leaves in the output block is the block function of the input block. -/
theorem out_block (x0 : Vec F S8x64x6000 .f32) : out0_1 x0 = blockFn x0 := by
  funext y
  unfold out0_1
  refine View.canon_apply_of_pieces (blockFn x0) _ ?_ y (cover0_1 _ _ _ _ _ _ _ _ _ _ y)
  intro p hp x
  simp only [List.mem_cons, List.mem_nil_iff, or_false] at hp
  rcases hp with rfl | rfl | rfl | rfl | rfl | rfl | rfl | rfl | rfl | rfl
  · exact (congrFun (store9_eq _) x).trans (piece_eq x0 ⟨9, by decide⟩ inb_S8x10x4096_S8x1x4096_0_9_0 x)
  · exact (congrFun (store8_eq _) x).trans (piece_eq x0 ⟨8, by decide⟩ inb_S8x10x4096_S8x1x4096_0_8_0 x)
  · exact (congrFun (store7_eq _) x).trans (piece_eq x0 ⟨7, by decide⟩ inb_S8x10x4096_S8x1x4096_0_7_0 x)
  · exact (congrFun (store6_eq _) x).trans (piece_eq x0 ⟨6, by decide⟩ inb_S8x10x4096_S8x1x4096_0_6_0 x)
  · exact (congrFun (store5_eq _) x).trans (piece_eq x0 ⟨5, by decide⟩ inb_S8x10x4096_S8x1x4096_0_5_0 x)
  · exact (congrFun (store4_eq _) x).trans (piece_eq x0 ⟨4, by decide⟩ inb_S8x10x4096_S8x1x4096_0_4_0 x)
  · exact (congrFun (store3_eq _) x).trans (piece_eq x0 ⟨3, by decide⟩ inb_S8x10x4096_S8x1x4096_0_3_0 x)
  · exact (congrFun (store2_eq _) x).trans (piece_eq x0 ⟨2, by decide⟩ inb_S8x10x4096_S8x1x4096_0_2_0 x)
  · exact (congrFun (store1_eq _) x).trans (piece_eq x0 ⟨1, by decide⟩ inb_S8x10x4096_S8x1x4096_0_1_0 x)
  · exact (congrFun (store0_eq _) x).trans (piece_eq x0 ⟨0, by decide⟩ inb_S8x10x4096_S8x1x4096_0_0_0 x)

end Cert.KernelIdeal.Hand

end
-- ==== Proof.KernelArray.lean ====
/- From the blocks to the whole array.

   The grid has 8 points; point t reads batch rows 8 t .. 8 t + 7 of the input [64, 64, 6000] as its block and
   writes the same batch rows of the output [64, 10, 4096].  Inside a block the output at (b, e, j) is the epoch
   function of slab e (KernelBlock).  So the array the region leaves is one function of the input array: at
   (B, e, j) the epoch function of the slab of batch group B / 8 and epoch e, read at (B % 8, 0, j).  The point that
   covers batch row B is B / 8, and the 8 blocks tile the array. -/
import proofs.«147870_j56942676410883_2_alg».proof.Proof.Gen.KernelIdeal.Frame
import proofs.«147870_j56942676410883_2_alg».proof.Proof.KernelBlock
import Idealize.ShloMosaic.Lib.Pipeline.Value
import Idealize.ShloMosaic.Lib.ValueIdx

set_option maxRecDepth 16384

noncomputable section

namespace Cert.KernelIdeal.Hand

open Idealize.ShloMosaic Idealize.ShloMosaic.ValueIdx Idealize.ShloMosaic.TcCoe Idealize.SL.Sem
open Idealize.ShloMosaic.Pipeline (Dat)
open Cert.KernelIdeal Cert.KernelIdeal.Gen

variable {F : FTy → Type} [FloatOps F]
variable (m : (ℓ : Loc nD τ sig) → Buf (Elt F) ℓ)

/-- Two rank-3 indices with equal coordinates are equal. -/
theorem ix3_ext {n0 n1 n2 : Nat} {a a' : Fin n0} {b b' : Fin n1} {c c' : Fin n2}
    (ha : a.val = a'.val) (hb : b.val = b'.val) (hc : c.val = c'.val) : ix3 a b c = ix3 a' b' c' := by
  obtain rfl := Fin.ext ha
  obtain rfl := Fin.ext hb
  obtain rfl := Fin.ext hc
  rfl

/-- The slab of batch group `q` (batch rows `8 q .. 8 q + 7`) and epoch `e` of the whole input array. -/
def epochSlab (X : S64x64x6000.Idx → Elt F .f32) (q : Fin 8) (e : Fin 10) : Vec F S8x64x600 .f32 :=
  fun y => X (ix3
    (⟨8 * q.val + (y 0).val, by have := q.isLt; have : (y 0).val < 8 := (y 0).isLt; omega⟩ : Fin 64)
    (⟨(y 1).val, (y 1).isLt⟩ : Fin 64)
    (⟨600 * e.val + (y 2).val, by have := e.isLt; have : (y 2).val < 600 := (y 2).isLt; omega⟩ : Fin 6000))

theorem epochSlab_apply (X : S64x64x6000.Idx → Elt F .f32) (q : Fin 8) (e : Fin 10) (b : Fin 8) (ch : Fin 64) (t : Fin 600) :
    epochSlab X q e (ix3 b ch t)
      = X (ix3 (⟨8 * q.val + b.val, by have := q.isLt; have := b.isLt; omega⟩ : Fin 64) ch
          (⟨600 * e.val + t.val, by have := e.isLt; have := t.isLt; omega⟩ : Fin 6000)) := rfl

/-- The array the region leaves, as a function of the input array. -/
def arrFn (X : S64x64x6000.Idx → Elt F .f32) : S64x10x4096.Idx → Elt F .f32 := fun i =>
  epochFn (epochSlab X (⟨(i 0).val / 8, by have : (i 0).val < 64 := (i 0).isLt; omega⟩ : Fin 8) (⟨(i 1).val, (i 1).isLt⟩ : Fin 10))
    (ix3 (⟨(i 0).val % 8, by omega⟩ : Fin 8) (0 : Fin 1) (⟨(i 2).val, (i 2).isLt⟩ : Fin 4096))

theorem arrFn_apply (X : S64x64x6000.Idx → Elt F .f32) (B : Fin 64) (e : Fin 10) (j : Fin 4096) :
    arrFn X (ix3 B e j) = epochFn (epochSlab X (⟨B.val / 8, by have := B.isLt; omega⟩ : Fin 8) e)
      (ix3 (⟨B.val % 8, by omega⟩ : Fin 8) (0 : Fin 1) j) := rfl

/-- A block whose rows are batch rows `8 q ..` of the array carries the array function's values: the block function
    at `j` is the array function at the index `j` names in the array. -/
theorem block_point (X : S64x64x6000.Idx → Elt F .f32) (x0 : Vec F S8x64x6000 .f32) (q : Fin 8)
    (hx : ∀ (b : Fin 8) (ch : Fin 64) (s : Fin 6000),
      x0 (ix3 b ch s) = X (ix3 (⟨8 * q.val + b.val, by have := q.isLt; have := b.isLt; omega⟩ : Fin 64) ch s))
    (j : S8x10x4096.Idx) (i : S64x10x4096.Idx)
    (h0 : (i 0).val = 8 * q.val + (j 0).val) (h1 : (i 1).val = (j 1).val) (h2 : (i 2).val = (j 2).val) :
    blockFn x0 j = arrFn X i := by
  have hj0 : (j 0).val < 8 := (j 0).isLt
  have hq : q.val < 8 := q.isLt
  have e3 : slab x0 (⟨(j 1).val, (j 1).isLt⟩ : Fin 10)
      = epochSlab X (⟨(i 0).val / 8, by have : (i 0).val < 64 := (i 0).isLt; omega⟩ : Fin 8) (⟨(i 1).val, (i 1).isLt⟩ : Fin 10) := by
    funext y
    obtain ⟨b, ch, t, rfl⟩ : ∃ (b : Fin 8) (ch : Fin 64) (t : Fin 600), y = ix3 b ch t := ⟨y 0, y 1, y 2, eq_ix3 y⟩
    rw [slab_apply, hx, epochSlab_apply]
    refine congrArg X (ix3_ext ?_ rfl ?_)
    · show 8 * q.val + b.val = 8 * ((i 0).val / 8) + b.val; omega
    · show 600 * (j 1).val + t.val = 600 * (i 1).val + t.val; omega
  have e2 : ix3 (⟨(j 0).val, (j 0).isLt⟩ : Fin 8) (0 : Fin 1) (⟨(j 2).val, (j 2).isLt⟩ : Fin 4096)
      = ix3 (⟨(i 0).val % 8, by omega⟩ : Fin 8) (0 : Fin 1) (⟨(i 2).val, (i 2).isLt⟩ : Fin 4096) :=
    ix3_ext (by show (j 0).val = (i 0).val % 8; omega) rfl (by show (j 2).val = (i 2).val; omega)
  unfold blockFn arrFn
  rw [e3, e2]

/-- The index maps over the grid: point `t` takes block `(t, 0, 0)` of the input and of the output. -/
theorem idx_facts : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 :=
  (by decide +kernel : ∀ t : Fin grid0.N, _)

/-- The input block at point `t` is batch rows `8 t .. 8 t + 7` of the input array as the region finds it. -/
theorem iblk_apply (c : Dev nD) (t : Fin cfg0.N) (b : Fin 8) (ch : Fin 64) (s : Fin 6000) :
    (iblk m c 0 t : Vec F S8x64x6000 .f32) (ix3 b ch s)
      = (V m c main_arg0 : S64x64x6000.Idx → Elt F .f32)
          (ix3 (⟨8 * t.val + b.val, by have := t.isLt; have hN : cfg0.N = 8 := N_0; have := b.isLt; omega⟩ : Fin 64) ch s) := by
  obtain ⟨e0, e1, e2, -, -, -⟩ := idx_facts t
  unfold iblk
  rw [View.read_apply]
  show V m c main_arg0 _ = V m c main_arg0 _
  congr 1
  funext a
  apply Fin.ext
  match a with
  | ⟨0, _⟩ => show win0_0.index t 0 * 8 + 1 * b.val = 8 * t.val + b.val; rw [e0]; omega
  | ⟨1, _⟩ => show win0_0.index t 1 * 64 + 1 * ch.val = ch.val; rw [e1]; omega
  | ⟨2, _⟩ => show win0_0.index t 2 * 6000 + 1 * s.val = s.val; rw [e2]; omega

/-- What point `t` writes back is block `t` of the array function of the input array. -/
theorem flushed_eq (c : Dev nD) (t : Fin cfg0.N) :
    (dats m 0 c).flushed 1 t = ((cfg0.win 1).blk t).view.read (Elt F) (arrFn (V m c main_arg0)) := by
  show (cfg0.win 1).cut (grid0.coords t) ((dats m 0 c).after 1 t) = _
  rw [after0_1, out_block (iblk m c 0 t)]
  obtain ⟨-, -, -, e3, e4, e5⟩ := idx_facts t
  have hN : cfg0.N = 8 := N_0
  have ht : t.val < cfg0.N := t.isLt
  funext j
  show blockFn (iblk m c 0 t) j = arrFn (V m c main_arg0) (((cfg0.win 1).blk t).view.emb j)
  refine block_point (V m c main_arg0) (iblk m c 0 t) (⟨t.val, by omega⟩ : Fin 8) (fun b ch s => iblk_apply m c t b ch s) j
    (((cfg0.win 1).blk t).view.emb j) ?_ ?_ ?_
  · show win0_1.index t 0 * 8 + 1 * (j 0).val = 8 * t.val + (j 0).val; rw [e3]; omega
  · show win0_1.index t 1 * 10 + 1 * (j 1).val = (j 1).val; rw [e4]; omega
  · show win0_1.index t 2 * 4096 + 1 * (j 2).val = (j 2).val; rw [e5]; omega

/-- An index of the output array is in point `t`'s block iff each coordinate is in the block's range on its axis. -/
theorem mem_blk (t : Fin cfg0.N) (i : S64x10x4096.Idx) :
    i ∈ ((cfg0.win 1).blk t).view.set ↔ ∀ a : Fin 3, win0_1.index t a * S8x10x4096.size a ≤ (i a).val
      ∧ (i a).val < win0_1.index t a * S8x10x4096.size a + S8x10x4096.size a := by
  show i ∈ ((View.whole main_v0).slice (win0_1.rect t)).set ↔ _
  rw [View.set_slice_whole, Rect.mem_set_unit]
  exact Iff.rfl

/-- Every index of the output array is in the block of the point that holds its batch row. -/
theorem covered (i : S64x10x4096.Idx) :
    ∃ t : Fin cfg0.N, (cfg0.win 1).flush t = true ∧ i ∈ ((cfg0.win 1).blk t).view.set := by
  have hN : cfg0.N = 8 := N_0
  have h0 : (i 0).val < 64 := (i 0).isLt
  have h1 : (i 1).val < 10 := (i 1).isLt
  have h2 : (i 2).val < 4096 := (i 2).isLt
  obtain ⟨t, htv⟩ : ∃ t : Fin cfg0.N, t.val = (i 0).val / 8 := ⟨⟨(i 0).val / 8, by omega⟩, rfl⟩
  obtain ⟨-, -, -, e3, e4, e5⟩ := idx_facts t
  refine ⟨t, flush0_1 t, ?_⟩
  rw [mem_blk]
  intro a
  match a with
  | ⟨0, _⟩ => show win0_1.index t 0 * 8 ≤ (i 0).val ∧ (i 0).val < win0_1.index t 0 * 8 + 8; rw [e3]; omega
  | ⟨1, _⟩ => show win0_1.index t 1 * 10 ≤ (i 1).val ∧ (i 1).val < win0_1.index t 1 * 10 + 10; rw [e4]; omega
  | ⟨2, _⟩ => show win0_1.index t 2 * 4096 ≤ (i 2).val ∧ (i 2).val < win0_1.index t 2 * 4096 + 4096; rw [e5]; omega

/-- The output array after the region is the array function of the input array as launched. -/
theorem region_array (c : Dev nD) :
    (dats m 0 c).arrAt 1 cfg0.N = arrFn (m ((c : Thread nD τ).loc main_arg0)) :=
  ((dats m 0 c).arrAt_eq_of_cover 1 (arrFn (V m c main_arg0)) (fun t _ => flushed_eq m c t) covered).trans
    (congrArg arrFn (V_main_arg0 m c))

end Cert.KernelIdeal.Hand

end
-- ==== Proof.KernelEpochMask.lean ====
/-
  The identity mask of the kernel's body, read at an index.

  The body builds eye[b, c, d] from two coordinate arrays on the [64, 64] square: the row number and the column number
  as 32-bit words, compared for equality into one bit, the bit widened to a word and the word converted to a float; the
  square is then given a leading unit axis and repeated over the eight batches. On the extended reals the conversion of
  the word 1 is 1 and of the word 0 is 0, and two coordinates below 64 have equal words exactly when they are equal; so
  the mask at (b, c, d) is 1 when c = d and 0 otherwise, whatever b.
-/
import proofs.«147870_j56942676410883_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Hand

open Idealize.ShloMosaic Idealize.ShloMosaic.ValueIdx

/-- The words of two coordinates below 64 are equal only when the coordinates are. -/
theorem word_inj (c d : Fin 64) (h : BitVec.ofNat 32 c.val = BitVec.ofNat 32 d.val) : c = d := by
  have e := congrArg BitVec.toNat h
  simp only [BitVec.toNat_ofNat] at e
  have := c.isLt; have := d.isLt
  exact Fin.ext (by omega)

/-- The equality bit of two coordinate words, widened to a word and converted to an extended real: 1 on the diagonal,
    0 off it. -/
theorem eye_word (c d : Fin 64) :
    (((((IntOp.cmpi .eq (BitVec.ofNat 32 c.val) (BitVec.ofNat 32 d.val)).setWidth 32).toInt : ℤ) : ℝ) : EReal)
      = if c = d then 1 else 0 := by
  by_cases h : c = d
  · subst h
    simp [IntOp.cmpi]
  · have hb : (BitVec.ofNat 32 c.val == BitVec.ofNat 32 d.val) = false :=
      beq_eq_false_iff_ne.mpr fun e => h (word_inj c d e)
    simp [IntOp.cmpi, hb, h]

/-- The mask at (b, c, d): 1 if c = d, else 0. -/
theorem eye_apply (b : Fin 8) (c d : Fin 64) :
    Gen.k0_pay2 (F := Ideal) (ix3 b c d) = if c = d then 1 else 0 := by
  unfold Gen.k0_pay2
  refine (broadcastTo_apply _ Gen.broadcasts_S1x64x64_S8x64x64 (ix3 b c d) (ix3 (0 : Fin 1) c d) (fun a => ?_)).trans ?_
  · match a with
    | ⟨0, _⟩ => rfl
    | ⟨1, _⟩ => rfl
    | ⟨2, _⟩ => rfl
  rw [shapeCast_self]
  refine (shapeCast_apply _ Gen.shapeCasts_S64x64_S1x64x64 (ix3 (0 : Fin 1) c d) (ix2 c d) ?_).trans ?_
  · rw [Shape.rowMajor_val_two, Shape.rowMajor_val_three]
    show c.val * 64 + d.val = ((0 : ℕ) * 64 + c.val) * 64 + d.val
    omega
  refine Eq.trans ?_ (eye_word c d)
  show (((((IntOp.cmpi .eq (iota .tc S64x64 32 [0] Gen.iota_S64x64_d0_w32 (ix2 c d))
      (iota .tc S64x64 32 [1] Gen.iota_S64x64_d1_w32 (ix2 c d))).setWidth 32).toInt : ℤ) : ℝ) : EReal) = _
  rw [iota_single_apply, iota_single_apply]

end Cert.KernelIdeal.Hand

end
-- ==== Proof.KernelEpochGram.lean ====
/-
  The kernel's batched product of a slab with itself, read at an index.

  The body multiplies the [8, 64, 600] slab by itself on the matrix unit, batch by batch: the dimension numbers keep
  axis 0 as the batch axis of both operands and of the result, contract axis 2 of both, and leave axis 1 of the left
  operand as the result's axis 1 and axis 1 of the right operand as the result's axis 2. The accumulator is the zero
  splat. On the extended reals the product is exact, so its entry at (b, c, d) is the sum over the 600 samples t of
  left[b, c, t] * right[b, d, t]: the contraction index has one axis, of extent 600, and is re-indexed by its one
  coordinate.
-/
import proofs.«147870_j56942676410883_2_alg».proof.Proof.Gen.KernelIdeal.Skeleton
import Idealize.ShloMosaic.Lib.ValueIdx
import Idealize.ShloMosaic.PureOps.Ideal.Laws

noncomputable section

open scoped BigOperators

namespace Cert.KernelIdeal.Hand

open Idealize.ShloMosaic Idealize.ShloMosaic.ValueIdx

/-- The dimension numbers of the body's product. -/
abbrev slabDot : DotDims S8x64x600 S8x64x600 S8x64x64 := dot_S8x64x600_S8x64x600_S8x64x64_2_2_1_1_0_0

/-- The left operand's index: its batch coordinate is the result's. -/
theorem slabDot_lhs0 (i : S8x64x64.Idx) (q : slabDot.contr.Idx) : (slabDot.lhsIdx i q 0).val = (i 0).val := by
  unfold DotDims.lhsIdx
  rw [dif_pos (show (0 : Fin S8x64x600.rank) ∈ slabDot.lhsBatch by decide)]
  rfl

/-- Its row coordinate is the result's second coordinate. -/
theorem slabDot_lhs1 (i : S8x64x64.Idx) (q : slabDot.contr.Idx) : (slabDot.lhsIdx i q 1).val = (i 1).val := by
  unfold DotDims.lhsIdx
  rw [dif_neg (show ¬(1 : Fin S8x64x600.rank) ∈ slabDot.lhsBatch by decide),
    dif_pos (show (1 : Fin S8x64x600.rank) ∈ slabDot.lhsNonContracting by decide)]
  rfl

/-- Its sample coordinate is the contraction index's one coordinate. -/
theorem slabDot_lhs2 (i : S8x64x64.Idx) (q : slabDot.contr.Idx) :
    (slabDot.lhsIdx i q 2).val = (q ⟨0, by decide⟩).val :=
  slabDot.lhsIdx_val_of_single rfl i q

/-- The right operand's index: its batch coordinate is the result's. -/
theorem slabDot_rhs0 (i : S8x64x64.Idx) (q : slabDot.contr.Idx) : (slabDot.rhsIdx i q 0).val = (i 0).val := by
  unfold DotDims.rhsIdx
  rw [dif_pos (show (0 : Fin S8x64x600.rank) ∈ slabDot.rhsBatch by decide)]
  rfl

/-- Its row coordinate is the result's third coordinate. -/
theorem slabDot_rhs1 (i : S8x64x64.Idx) (q : slabDot.contr.Idx) : (slabDot.rhsIdx i q 1).val = (i 2).val := by
  unfold DotDims.rhsIdx
  rw [dif_neg (show ¬(1 : Fin S8x64x600.rank) ∈ slabDot.rhsBatch by decide),
    dif_pos (show (1 : Fin S8x64x600.rank) ∈ slabDot.rhsNonContracting by decide)]
  rfl

/-- Its sample coordinate is the contraction index's one coordinate. -/
theorem slabDot_rhs2 (i : S8x64x64.Idx) (q : slabDot.contr.Idx) :
    (slabDot.rhsIdx i q 2).val = (q ⟨0, by decide⟩).val :=
  slabDot.rhsIdx_val_of_single rfl i q

/-- The product into the zero accumulator at (b, c, d): the sum over the samples of left[b, c, t] * right[b, d, t]. -/
theorem slabDot_zero_apply {φ₁ φ₂ : FTy} (l : FVec Ideal S8x64x600 φ₁) (r : FVec Ideal S8x64x600 φ₂)
    (b : Fin 8) (c d : Fin 64) :
    matmul slabDot none l r (constant (F := Ideal) S8x64x64 .f32 0x00000000#32) (ix3 b c d)
      = ∑ t : Fin 600, l (ix3 b c t) * r (ix3 b d t) := by
  refine (Ideal.matmul_constant_zero_apply slabDot none l r (ix3 b c d)).trans ?_
  rw [← Equiv.sum_comp (contrEquiv1 slabDot 600 rfl rfl).symm]
  refine Finset.sum_congr rfl fun t _ => ?_
  have ht := contrEquiv1_symm_val slabDot 600 rfl rfl t
  have el : slabDot.lhsIdx (ix3 b c d) ((contrEquiv1 slabDot 600 rfl rfl).symm t) = ix3 b c t :=
    funext fun a => Fin.ext (by
      match a with
      | ⟨0, _⟩ => exact slabDot_lhs0 _ _
      | ⟨1, _⟩ => exact slabDot_lhs1 _ _
      | ⟨2, _⟩ => exact (slabDot_lhs2 _ _).trans ht)
  have er : slabDot.rhsIdx (ix3 b c d) ((contrEquiv1 slabDot 600 rfl rfl).symm t) = ix3 b d t :=
    funext fun a => Fin.ext (by
      match a with
      | ⟨0, _⟩ => exact slabDot_rhs0 _ _
      | ⟨1, _⟩ => exact slabDot_rhs1 _ _
      | ⟨2, _⟩ => exact (slabDot_rhs2 _ _).trans ht)
  rw [el, er]

end Cert.KernelIdeal.Hand

end
-- ==== Proof.LibRank3.lean ====
/-
  Rank-3 arrays read at an index, on the extended reals. A lane sum over the last or over the middle axis of an
  `[a, b, c]` array is the sum of the entries along that axis; a lane maximum over the middle axis is the fold of `max`,
  from the accumulator's value, over the entries along it. A `[c]` vector, or a `[1, c]` row, laid along the last axis as
  `[1, 1, c]` and repeated over the first two axes reads the vector at the last coordinate. An `[a, b, 1]` array with
  its unit axis dropped keeps its entries. General lemmas over any extents.
-/
import Idealize.ShloMosaic.Lib.Pipeline.Value
import Idealize.ShloMosaic.Lib.ValueIdx
import Idealize.ShloMosaic.PureOps.Ideal.Laws

noncomputable section

open scoped BigOperators

namespace Cert.LibRank3

open Idealize.ShloMosaic Idealize.ShloMosaic.ValueIdx

variable {α : Type}

/-! ## Reductions along one axis -/

/-- On the extended reals a lane sum over the LAST axis of an `[a, b, c]` array is, at `(i, j)`, the sum of the entries
    `(i, j, ·)`. -/
theorem multiReduction_add_last {a b c : ℕ} (src : FVec Ideal ⟨3, ![a, b, c]⟩ .f32) (acc : BitVec (FTy.bits .f32))
    (h : (⟨3, ![a, b, c]⟩ : Shape).Reduces [2] ⟨2, ![a, b]⟩) (hφ : FKind.Formats .f32) (hacc : acc = FKind.add.neutral .f32 hφ)
    (i : Fin a) (j : Fin b) :
    multiReduction .add [2] ⟨2, ![a, b]⟩ src acc h hφ hacc (ix2 i j) = ∑ k : Fin c, src (ix3 i j k) := by
  refine (Ideal.multiReduction_add_single src acc h hφ hacc (ix2 i j)).trans ?_
  refine Finset.sum_congr rfl fun k _ => congrArg src (funext fun ax => Fin.ext ?_)
  match ax with
  | ⟨0, _⟩ => rfl
  | ⟨1, _⟩ => rfl
  | ⟨2, _⟩ => rfl

/-- On the extended reals a lane sum over the MIDDLE axis of an `[a, b, c]` array is, at `(i, k)`, the sum of the entries
    `(i, ·, k)`. -/
theorem multiReduction_add_mid {a b c : ℕ} (src : FVec Ideal ⟨3, ![a, b, c]⟩ .f32) (acc : BitVec (FTy.bits .f32))
    (h : (⟨3, ![a, b, c]⟩ : Shape).Reduces [1] ⟨2, ![a, c]⟩) (hφ : FKind.Formats .f32) (hacc : acc = FKind.add.neutral .f32 hφ)
    (i : Fin a) (k : Fin c) :
    multiReduction .add [1] ⟨2, ![a, c]⟩ src acc h hφ hacc (ix2 i k) = ∑ j : Fin b, src (ix3 i j k) := by
  refine (Ideal.multiReduction_add_single src acc h hφ hacc (ix2 i k)).trans ?_
  refine Finset.sum_congr rfl fun j _ => congrArg src (funext fun ax => Fin.ext ?_)
  match ax with
  | ⟨0, _⟩ => rfl
  | ⟨1, _⟩ => rfl
  | ⟨2, _⟩ => rfl

/-- On the extended reals a lane maximum over the MIDDLE axis of an `[a, b, c]` array is, at `(i, k)`, the fold of `max`
    from the accumulator's value over the entries `(i, ·, k)`. -/
theorem multiReduction_maximumf_mid {a b c : ℕ} (src : FVec Ideal ⟨3, ![a, b, c]⟩ .f32) (acc : BitVec (FTy.bits .f32))
    (h : (⟨3, ![a, b, c]⟩ : Shape).Reduces [1] ⟨2, ![a, c]⟩) (hφ : FKind.Formats .f32)
    (hacc : acc = FKind.maximumf.neutral .f32 hφ) (i : Fin a) (k : Fin c) :
    multiReduction .maximumf [1] ⟨2, ![a, c]⟩ src acc h hφ hacc (ix2 i k)
      = (Finset.univ : Finset (Fin b)).fold max (Ideal.ofBits .f32 acc) (fun j => src (ix3 i j k)) := by
  refine (Ideal.multiReduction_maximumf_single src acc h hφ hacc (ix2 i k)).trans ?_
  refine congrArg (fun f => Finset.fold max (Ideal.ofBits .f32 acc) f (Finset.univ : Finset (Fin b))) ?_
  exact funext fun j => congrArg src (funext fun ax => Fin.ext (by
    match ax with
    | ⟨0, _⟩ => rfl
    | ⟨1, _⟩ => rfl
    | ⟨2, _⟩ => rfl))

/-! ## A vector along the last axis, repeated over the first two -/

/-- A `[1, 1, c]` array broadcast to `[a, b, c]` reads, at `(i, j, k)`, the operand at `(0, 0, k)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- A `[c]` vector cast to `[1, 1, c]` reads, at `(u, w, k)`, the vector at `k`. -/
theorem shapeCast_c_11c_apply {c : ℕ} (x : (⟨1, ![c]⟩ : Shape).Idx → α)
    (h : (⟨1, ![c]⟩ : Shape).ShapeCasts ⟨3, ![1, 1, c]⟩) (u w : Fin 1) (k : Fin c) :
    shapeCast ⟨3, ![1, 1, c]⟩ x h (ix3 u w k) = x (ix1 k) :=
  shapeCast_apply x h _ _ (by
    have hu : u.val = 0 := by omega
    have hw : w.val = 0 := by omega
    rw [Shape.rowMajor_val_one, Shape.rowMajor_val_three]
    show k.val = (u.val * 1 + w.val) * c + k.val
    rw [hu, hw]; simp)

/-- A `[1, c]` row cast to `[1, 1, c]` reads, at `(u, w, k)`, the row at `(0, k)`. -/
theorem shapeCast_1c_11c_apply {c : ℕ} (x : (⟨2, ![1, c]⟩ : Shape).Idx → α)
    (h : (⟨2, ![1, c]⟩ : Shape).ShapeCasts ⟨3, ![1, 1, c]⟩) (u w : Fin 1) (k : Fin c) :
    shapeCast ⟨3, ![1, 1, c]⟩ x h (ix3 u w k) = x (ix2 (0 : Fin 1) k) :=
  shapeCast_apply x h _ _ (by
    have hu : u.val = 0 := by omega
    have hw : w.val = 0 := by omega
    rw [Shape.rowMajor_val_two, Shape.rowMajor_val_three]
    show (0 : ℕ) * c + k.val = (u.val * 1 + w.val) * c + k.val
    rw [hu, hw])

/-- The two together for a vector: laid along the last axis and repeated, it reads the vector at the last coordinate. -/
theorem bcast_cast_c {a b c : ℕ} (x : (⟨1, ![c]⟩ : Shape).Idx → α)
    (hc : (⟨1, ![c]⟩ : Shape).ShapeCasts ⟨3, ![1, 1, c]⟩) (hb : (⟨3, ![1, 1, c]⟩ : Shape).Broadcasts ⟨3, ![a, b, c]⟩)
    (i : Fin a) (j : Fin b) (k : Fin c) :
    broadcastTo ⟨3, ![a, b, c]⟩ (shapeCast ⟨3, ![1, 1, c]⟩ x hc) hb (ix3 i j k) = x (ix1 k) :=
  (broadcastTo_11c_abc_apply _ hb i j k).trans (shapeCast_c_11c_apply x hc 0 0 k)

/-- The two together for a one-row matrix. -/
theorem bcast_cast_1c {a b c : ℕ} (x : (⟨2, ![1, c]⟩ : Shape).Idx → α)
    (hc : (⟨2, ![1, c]⟩ : Shape).ShapeCasts ⟨3, ![1, 1, c]⟩) (hb : (⟨3, ![1, 1, c]⟩ : Shape).Broadcasts ⟨3, ![a, b, c]⟩)
    (i : Fin a) (j : Fin b) (k : Fin c) :
    broadcastTo ⟨3, ![a, b, c]⟩ (shapeCast ⟨3, ![1, 1, c]⟩ x hc) hb (ix3 i j k) = x (ix2 (0 : Fin 1) k) :=
  (broadcastTo_11c_abc_apply _ hb i j k).trans (shapeCast_1c_11c_apply x hc 0 0 k)

/-! ## A trailing unit axis dropped -/

/-- An `[a, b, 1]` array cast to `[a, b]` reads, at `(i, j)`, the operand at `(i, j, 0)`. -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_two, Shape.rowMajor_val_three]
    show (i.val * b + j.val) * 1 + 0 = i.val * b + j.val
    omega)

end Cert.LibRank3

end
-- ==== Proof.LibPairAxes.lean ====
/-
  A matrix placed on two of three axes, read at an index. An `[a, b]` matrix cast to `[a, b, 1]` or to `[a, 1, b]` keeps
  its entries (the unit axis carries no position), and a broadcast of either to `[a, b, c]` repeats it along the unit axis:
  together they read the matrix at the first two, or the first and third, coordinates. General lemmas over any extents.
-/
import Idealize.ShloMosaic.Lib.Pipeline.Value
import Idealize.ShloMosaic.Lib.ValueIdx

noncomputable section

namespace Cert.LibPairAxes

open Idealize.ShloMosaic Idealize.ShloMosaic.ValueIdx

variable {α : Type}

/-- An `[a, b]` matrix cast to `[a, b, 1]` reads, at `(i, j, u)`, the matrix at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- An `[a, b]` matrix cast to `[a, 1, b]` reads, at `(i, u, j)`, the matrix at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_two, Shape.rowMajor_val_three]
    show i.val * b + j.val = (i.val * 1 + u.val) * b + j.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- The two together, on the first two axes: the matrix at `(i, j)`, whatever the third coordinate. -/
theorem bcast_cast_ab1 {a b c : ℕ} (x : (⟨2, ![a, b]⟩ : Shape).Idx → α)
    (hc : (⟨2, ![a, b]⟩ : Shape).ShapeCasts ⟨3, ![a, b, 1]⟩) (hb : (⟨3, ![a, b, 1]⟩ : Shape).Broadcasts ⟨3, ![a, b, c]⟩)
    (i : Fin a) (j : Fin b) (k : Fin c) :
    broadcastTo ⟨3, ![a, b, c]⟩ (shapeCast ⟨3, ![a, b, 1]⟩ x hc) hb (ix3 i j k) = x (ix2 i j) :=
  (broadcastTo_ab1_abc_apply _ hb i j k).trans (shapeCast_ab_ab1_apply x hc i j 0)

/-- The two together, on the first and third axes: the matrix at `(i, k)`, whatever the second coordinate. -/
theorem bcast_cast_a1b {a b c : ℕ} (x : (⟨2, ![a, c]⟩ : Shape).Idx → α)
    (hc : (⟨2, ![a, c]⟩ : Shape).ShapeCasts ⟨3, ![a, 1, c]⟩) (hb : (⟨3, ![a, 1, c]⟩ : Shape).Broadcasts ⟨3, ![a, b, c]⟩)
    (i : Fin a) (j : Fin b) (k : Fin c) :
    broadcastTo ⟨3, ![a, b, c]⟩ (shapeCast ⟨3, ![a, 1, c]⟩ x hc) hb (ix3 i j k) = x (ix2 i k) :=
  (broadcastTo_a1c_abc_apply _ hb i j k).trans (shapeCast_ab_a1b_apply x hc i 0 k)

end Cert.LibPairAxes

end
-- ==== Proof.KernelEpochCov.lean ====
/-
  The kernel's covariance matrix of one epoch, read at an index.

  For a slab v[b, c, t] of eight batches, 64 channels and 600 samples the body computes

      m[b, c]      = (sum over t of v[b, c, t]) / 600                      the row means,
      g[b, c, d]   = sum over t of v[b, c, t] * v[b, d, t]                 the raw second moments (the batched product),
      cov[b, c, d] = g[b, c, d] - 600 * (m[b, c] * m[b, d]).

  The means are formed as an [8, 64, 1] column (a lane sum over the samples, a trailing unit axis, a division by the
  splat of 600), flattened to [8, 64], and laid once along the rows ([8, 64, 1]) and once along the columns ([8, 1, 64])
  of the [8, 64, 64] cube. The narrowing of the slab to half precision before the product is the identity on the
  extended reals. Read at (b, c, d) the result is the specification's raw covariance of rows c and d of batch b.
-/
import proofs.«147870_j56942676410883_2_alg».proof.Proof.KernelEpochGram
import proofs.«147870_j56942676410883_2_alg».proof.Proof.LibRank3
import proofs.«147870_j56942676410883_2_alg».proof.Proof.LibPairAxes
import proofs.«147870_j56942676410883_2_alg».proof.Proof.Spec

noncomputable section

open scoped BigOperators

namespace Cert.KernelIdeal.Hand

open Idealize.ShloMosaic Idealize.ShloMosaic.ValueIdx

/-- The row means as a column: the lane sum over the samples, with a trailing unit axis, over the splat of 600. -/
def meanCol (v : Vec Ideal S8x64x600 .f32) : FVec Ideal S8x64x1 .f32 :=
  divf
    (shapeCast S8x64x1
      (multiReduction (F := Ideal) .add [2] S8x64 v 0x00000000#32 Gen.reduces_S8x64x600_S8x64 (.inl rfl) rfl)
      Gen.shapeCasts_S8x64_S8x64x1)
    (broadcast S8x64x1 (Scalar.ofBits (F := Ideal) .f32 0x44160000#32))

/-- The column at (b, c, ·) is the mean of row c of batch b. -/
theorem meanCol_apply (v : Vec Ideal S8x64x600 .f32) (b : Fin 8) (c : Fin 64) (u : Fin 1) :
    meanCol v (ix3 b c u) = Cert.Corr.mean (fun t => v (ix3 b c t)) := by
  unfold meanCol Cert.Corr.mean
  refine congrArg (fun s => Ideal.div s Cert.Corr.w600) ?_
  exact (Cert.LibPairAxes.shapeCast_ab_ab1_apply _ Gen.shapeCasts_S8x64_S8x64x1 b c u).trans
    (Cert.LibRank3.multiReduction_add_last v _ Gen.reduces_S8x64x600_S8x64 (.inl rfl) rfl b c)

/-- The row means as an [8, 64] matrix. -/
def meanMat (v : Vec Ideal S8x64x600 .f32) : FVec Ideal S8x64 .f32 :=
  shapeCast S8x64 (meanCol v) Gen.shapeCasts_S8x64x1_S8x64

/-- The matrix at (b, c) is the mean of row c of batch b. -/
theorem meanMat_apply (v : Vec Ideal S8x64x600 .f32) (b : Fin 8) (c : Fin 64) :
    meanMat v (ix2 b c) = Cert.Corr.mean (fun t => v (ix3 b c t)) :=
  (Cert.LibRank3.shapeCast_ab1_ab_apply _ Gen.shapeCasts_S8x64x1_S8x64 b c).trans (meanCol_apply v b c 0)

/-- The raw second moments: the slab, narrowed, multiplied by itself batch by batch into the zero accumulator. -/
def gram (v : Vec Ideal S8x64x600 .f32) : FVec Ideal S8x64x64 .f32 :=
  matmul slabDot none (truncf .bf16 v Gen.bitsLt_bf16_f32) (truncf .bf16 v Gen.bitsLt_bf16_f32)
    (constant (F := Ideal) S8x64x64 .f32 0x00000000#32)

/-- At (b, c, d): the sum over the samples of the products of rows c and d. -/
theorem gram_apply (v : Vec Ideal S8x64x600 .f32) (b : Fin 8) (c d : Fin 64) :
    gram v (ix3 b c d) = ∑ t : Fin 600, v (ix3 b c t) * v (ix3 b d t) :=
  slabDot_zero_apply _ _ b c d

/-- The covariance cube: the second moments less 600 times the outer product of the means. -/
def cov (v : Vec Ideal S8x64x600 .f32) : FVec Ideal S8x64x64 .f32 :=
  subf (gram v)
    (mulf (broadcast S8x64x64 (Scalar.ofBits (F := Ideal) .f32 0x44160000#32))
      (mulf
        (broadcastTo S8x64x64 (shapeCast S8x64x1 (meanMat v) Gen.shapeCasts_S8x64_S8x64x1)
          Gen.broadcasts_S8x64x1_S8x64x64)
        (broadcastTo S8x64x64 (shapeCast S8x1x64 (meanMat v) Gen.shapeCasts_S8x64_S8x1x64)
          Gen.broadcasts_S8x1x64_S8x64x64)))

/-- At (b, c, d): the raw covariance of rows c and d of batch b. -/
theorem cov_apply (v : Vec Ideal S8x64x600 .f32) (b : Fin 8) (c d : Fin 64) :
    cov v (ix3 b c d) = Cert.Corr.covRaw (fun t => v (ix3 b c t)) (fun t => v (ix3 b d t)) := by
  have e1 := Cert.LibPairAxes.bcast_cast_ab1 (meanMat v) Gen.shapeCasts_S8x64_S8x64x1
    Gen.broadcasts_S8x64x1_S8x64x64 b c d
  have e2 := Cert.LibPairAxes.bcast_cast_a1b (meanMat v) Gen.shapeCasts_S8x64_S8x1x64
    Gen.broadcasts_S8x1x64_S8x64x64 b c d
  unfold cov Cert.Corr.covRaw
  show gram v (ix3 b c d) - Cert.Corr.w600 * (_ * _) = _
  rw [e1, e2, meanMat_apply, meanMat_apply, gram_apply]

end Cert.KernelIdeal.Hand

end
-- ==== Proof.KernelEpoch.lean ====
/-
  One epoch of the kernel's body, read at an index.

  From the covariance cube cov[b, c, d] of a slab the body takes the variances as the diagonal, read without a gather:
  the cube is multiplied entry by entry by the identity mask eye[b, c, d] = (c == d) and summed along the last axis, and
  since x * 0 = 0 and x * 1 = x for every extended real the sum over d of cov[b, c, d] * eye[b, c, d] is cov[b, c, c].
  The standard deviations sd[b, c] = sqrt cov[b, c, c] are laid along the rows and along the columns of the cube, and

      corr[b, c, d] = min 1 (max (-1) (cov[b, c, d] / (sd[b, c] * sd[b, d]))),

  which is the specification's clipped correlation of rows c and d by raw covariances. The cube is then stored lane
  dense: flattened to [8, 4096] with (c, d) at position 64 c + d, and given a unit middle axis.
-/
import proofs.«147870_j56942676410883_2_alg».proof.Proof.KernelEpochMask
import proofs.«147870_j56942676410883_2_alg».proof.Proof.KernelEpochCov

noncomputable section

open scoped BigOperators

namespace Cert.KernelIdeal.Hand

open Idealize.ShloMosaic Idealize.ShloMosaic.ValueIdx

/-- Against the identity mask only the diagonal entry of a row of the cube survives the sum. -/
theorem diag_sum (v : Vec Ideal S8x64x600 .f32) (b : Fin 8) (c : Fin 64) :
    ∑ k : Fin 64, cov v (ix3 b c k) * Gen.k0_pay2 (F := Ideal) (ix3 b c k) = cov v (ix3 b c c) := by
  rw [Finset.sum_eq_single c]
  · rw [eye_apply, if_pos rfl, mul_one]
  · intro k _ hk
    rw [eye_apply, if_neg (Ne.symm hk), mul_zero]
  · intro h
    exact absurd (Finset.mem_univ c) h

/-- The standard deviations: the square root of the lane sum of the masked cube. -/
def sdev (eye : FVec Ideal S8x64x64 .f32) (v : Vec Ideal S8x64x600 .f32) : FVec Ideal S8x64 .f32 :=
  sqrt (multiReduction (F := Ideal) .add [2] S8x64 (mulf (cov v) eye) 0x00000000#32 Gen.reduces_S8x64x64_S8x64
    (.inl rfl) rfl)

/-- With the body's mask, at (b, c): the square root of the raw variance of row c of batch b. -/
theorem sdev_apply (v : Vec Ideal S8x64x600 .f32) (b : Fin 8) (c : Fin 64) :
    sdev (Gen.k0_pay2 (F := Ideal)) v (ix2 b c)
      = Ideal.sqrt (Cert.Corr.covRaw (fun t => v (ix3 b c t)) (fun t => v (ix3 b c t))) := by
  unfold sdev
  refine congrArg Ideal.sqrt ?_
  refine (Cert.LibRank3.multiReduction_add_last _ _ Gen.reduces_S8x64x64_S8x64 (.inl rfl) rfl b c).trans ?_
  exact (diag_sum v b c).trans (cov_apply v b c c)

/-- The clipped correlation cube. -/
def corrCube (eye : FVec Ideal S8x64x64 .f32) (v : Vec Ideal S8x64x600 .f32) : FVec Ideal S8x64x64 .f32 :=
  minimumf (broadcast S8x64x64 (Scalar.ofBits (F := Ideal) .f32 0x3F800000#32))
    (maximumf (broadcast S8x64x64 (Scalar.ofBits (F := Ideal) .f32 0xBF800000#32))
      (divf (cov v)
        (mulf
          (broadcastTo S8x64x64 (shapeCast S8x64x1 (sdev eye v) Gen.shapeCasts_S8x64_S8x64x1)
            Gen.broadcasts_S8x64x1_S8x64x64)
          (broadcastTo S8x64x64 (shapeCast S8x1x64 (sdev eye v) Gen.shapeCasts_S8x64_S8x1x64)
            Gen.broadcasts_S8x1x64_S8x64x64))))

/-- With the body's mask, at (b, c, d): the specification's clipped correlation of rows c and d of batch b. -/
theorem corrCube_apply (v : Vec Ideal S8x64x600 .f32) (b : Fin 8) (c d : Fin 64) :
    corrCube (Gen.k0_pay2 (F := Ideal)) v (ix3 b c d)
      = Cert.Corr.clipCorr (Cert.Corr.covRaw (fun t => v (ix3 b c t)) (fun t => v (ix3 b d t)))
          (Cert.Corr.covRaw (fun t => v (ix3 b c t)) (fun t => v (ix3 b c t)))
          (Cert.Corr.covRaw (fun t => v (ix3 b d t)) (fun t => v (ix3 b d t))) := by
  have e1 := Cert.LibPairAxes.bcast_cast_ab1 (sdev (Gen.k0_pay2 (F := Ideal)) v) Gen.shapeCasts_S8x64_S8x64x1
    Gen.broadcasts_S8x64x1_S8x64x64 b c d
  have e2 := Cert.LibPairAxes.bcast_cast_a1b (sdev (Gen.k0_pay2 (F := Ideal)) v) Gen.shapeCasts_S8x64_S8x1x64
    Gen.broadcasts_S8x1x64_S8x64x64 b c d
  unfold corrCube Cert.Corr.clipCorr
  show min Cert.Corr.wPos1 (max Cert.Corr.wNeg1 (Ideal.div (cov v (ix3 b c d)) (_ * _))) = _
  rw [e1, e2, sdev_apply, sdev_apply, cov_apply]

/-- The epoch's payload is the correlation cube, flattened and given a unit middle axis. -/
theorem epoch_eq (eye : FVec Ideal S8x64x64 .f32) (v : Vec Ideal S8x64x600 .f32) :
    Gen.k0_pay4 (F := Ideal) eye v
      = shapeCast S8x1x4096 (shapeCast S8x4096 (corrCube eye v) Gen.shapeCasts_S8x64x64_S8x4096)
          Gen.shapeCasts_S8x4096_S8x1x4096 := rfl

/-- One epoch of the body at (b, 0, 64 c + d): the clipped correlation, by raw covariances, of rows c and d of batch b
    of the slab. -/
theorem epoch_apply (v : Vec Ideal S8x64x600 .f32) (b : Fin 8) (c d : Fin 64) :
    Gen.k0_pay4 (F := Ideal) (Gen.k0_pay2 (F := Ideal)) v
        (ValueIdx.ix3 b (0 : Fin 1) (⟨64 * c.val + d.val, by have := c.isLt; have := d.isLt; omega⟩ : Fin 4096))
      = Cert.Corr.clipCorr (Cert.Corr.covRaw (fun t => v (ValueIdx.ix3 b c t)) (fun t => v (ValueIdx.ix3 b d t)))
          (Cert.Corr.covRaw (fun t => v (ValueIdx.ix3 b c t)) (fun t => v (ValueIdx.ix3 b c t)))
          (Cert.Corr.covRaw (fun t => v (ValueIdx.ix3 b d t)) (fun t => v (ValueIdx.ix3 b d t))) := by
  have hcd : 64 * c.val + d.val < 4096 := by have := c.isLt; have := d.isLt; omega
  rw [epoch_eq]
  refine (shapeCast_apply _ Gen.shapeCasts_S8x4096_S8x1x4096 (ix3 b (0 : Fin 1) ⟨64 * c.val + d.val, hcd⟩)
    (ix2 b ⟨64 * c.val + d.val, hcd⟩) ?_).trans ?_
  · rw [Shape.rowMajor_val_two, Shape.rowMajor_val_three]
    show b.val * 4096 + (64 * c.val + d.val) = (b.val * 1 + 0) * 4096 + (64 * c.val + d.val)
    omega
  refine (shapeCast_apply _ Gen.shapeCasts_S8x64x64_S8x4096 (ix2 b ⟨64 * c.val + d.val, hcd⟩) (ix3 b c d) ?_).trans ?_
  · rw [Shape.rowMajor_val_three, Shape.rowMajor_val_two]
    show (b.val * 64 + c.val) * 64 + d.val = b.val * 4096 + (64 * c.val + d.val)
    omega
  exact corrCube_apply v b c d

end Cert.KernelIdeal.Hand

end
-- ==== Proof.KernelRun.lean ====
/- The host reshape after the region, and the kernel's run.

   After the region the program reshapes the array [64, 10, 4096] to [64, 10, 64, 64]: entry (B, e, c, d) of the
   result is entry (B, e, 64 c + d) of the array, the two having the same row-major position.  The array holds, at
   (B, e, j), the epoch function of the slab of batch group B / 8 and epoch e at (B % 8, 0, j) (KernelArray); at
   j = 64 c + d that is the clipped correlation of rows c and d of the slab by raw covariances (KernelEpoch), and row
   ch of that slab at batch row B % 8 is the 600 samples x[B, ch, 600 e ..] of the input.  So the result is the
   correlation matrix by raw covariances, and the input array is left as launched. -/
import proofs.«147870_j56942676410883_2_alg».proof.Proof.Gen.KernelIdeal.Frame
import proofs.«147870_j56942676410883_2_alg».proof.Proof.KernelArray
import proofs.«147870_j56942676410883_2_alg».proof.Proof.KernelEpoch
import proofs.«147870_j56942676410883_2_alg».proof.Proof.Spec
import Idealize.ShloMosaic.Lib.Pipeline.Value
import Idealize.ShloMosaic.Lib.ValueIdx
import Idealize.ShloMosaic.PureOps.Ideal

set_option maxRecDepth 16384

noncomputable section

namespace Cert.KernelIdeal.Hand

open Idealize.ShloMosaic Idealize.ShloMosaic.ValueIdx Idealize.ShloMosaic.TcCoe Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The reshape read at an index: `(B, e, c, d)` of the result is `(B, e, 64 c + d)` of the operand. -/
theorem reshape_apply {α : Type} (A : S64x10x4096.Idx → α) (B : Fin 64) (e : Fin 10) (c d : Fin 64) :
    shapeCast S64x10x64x64 A shapeCasts_S64x10x4096_S64x10x64x64 (ix4 B e c d)
      = A (ix3 B e (⟨64 * c.val + d.val, by have := c.isLt; have := d.isLt; omega⟩ : Fin 4096)) := by
  refine shapeCast_apply A _ (ix4 B e c d) (ix3 B e (⟨64 * c.val + d.val, by have := c.isLt; have := d.isLt; omega⟩ : Fin 4096)) ?_
  rw [Shape.rowMajor_val_three, Shape.rowMajor_val_four]
  show (B.val * 10 + e.val) * 4096 + (64 * c.val + d.val) = ((B.val * 10 + e.val) * 64 + c.val) * 64 + d.val
  omega

/-- The array function at `(B, e, 64 c + d)` is the correlation of channels `c` and `d` by raw covariances. -/
theorem arrFn_corr (X : S64x64x6000.Idx → EReal) (B : Fin 64) (e : Fin 10) (c d : Fin 64) :
    arrFn (F := Ideal) X (ix3 B e (⟨64 * c.val + d.val, by have := c.isLt; have := d.isLt; omega⟩ : Fin 4096))
      = Cert.Corr.corrRaw X B e c d := by
  have hB : B.val < 64 := B.isLt
  have hrow : ∀ ch : Fin 64,
      (fun t => epochSlab (F := Ideal) X (⟨B.val / 8, by omega⟩ : Fin 8) e (ix3 (⟨B.val % 8, by omega⟩ : Fin 8) ch t))
        = Cert.Corr.row X B e ch := by
    intro ch
    funext t
    rw [epochSlab_apply]
    unfold Cert.Corr.row
    refine congrArg X (ix3_ext ?_ rfl rfl)
    show 8 * (B.val / 8) + B.val % 8 = B.val
    omega
  rw [arrFn_apply]
  refine (epoch_apply _ _ c d).trans ?_
  unfold Cert.Corr.corrRaw
  rw [hrow c, hrow d]

/-- So the reshaped array function is the whole result by raw covariances. -/
theorem result_eq (X : S64x64x6000.Idx → EReal) :
    shapeCast S64x10x64x64 (arrFn (F := Ideal) X) shapeCasts_S64x10x4096_S64x10x64x64 = Cert.Corr.GRaw X := by
  funext i
  obtain ⟨B, e, c, d, rfl⟩ : ∃ (B : Fin 64) (e : Fin 10) (c d : Fin 64), i = ix4 B e c d := ⟨i 0, i 1, i 2, i 3, eq_ix4 i⟩
  rw [reshape_apply, arrFn_corr]
  rfl

/-- What the reshape leaves in the result buffer: the reshape of the array the region left. -/
theorem tail_eq (c : Dev nD) :
    Pipeline.afterTail₀ cfgs (dats m) 0 (V0 m) [hostOps1] c main_v1
      = shapeCast S64x10x64x64 ((dats m 0 c).arrAt 1 cfg0.N) shapeCasts_S64x10x4096_S64x10x64x64 := by
  unfold Pipeline.afterTail₀
  show StableHlo.after hostOps1 _ (Proc.devRef .tc main_v1) = _
  after_results
  exact congrArg (fun A => shapeCast S64x10x64x64 A shapeCasts_S64x10x4096_S64x10x64x64)
    (Pipeline.withArrays_arr spec0 launch0.win.arr_inj c (V0 m c) (fun w => (dats m 0 c).arrAt w cfg0.N) 1)

/-- The result buffer is no array of the pipeline: it is among the buffers the lines after the region leave. -/
theorem result_mem_rest : main_v1 ∈ Pipeline.restRefs sig cfg0.spec :=
  Pipeline.mem_restRefs_of main_v1 rfl (by decide)

/-- THE RUN: every weakly fair execution of the program terminates without a fault, the result buffer holding the
    correlation matrices by raw covariances of the input array, the input array as launched. -/
theorem run : θ_run (Cert.KernelIdeal.defs (F := Ideal)) (onTc (τ := τ) (Cert.KernelIdeal.main (F := Ideal))) ⟨m, fun _ => 0, ρ⟩ (fun r => ∀ c : Dev nD,
      r.2.mem ((c.tc : Thread nD τ).loc main_v1) = Cert.Corr.GRaw (m ((c.tc : Thread nD τ).loc main_arg0))
      ∧ r.2.mem ((c.tc : Thread nD τ).loc main_arg0) = m ((c.tc : Thread nD τ).loc main_arg0)) :=
  (θ_run defs _ _).mono (fun r h c =>
      ⟨((h c).2 main_v1 result_mem_rest).trans ((tail_eq m c).trans
          ((congrArg (fun A => shapeCast S64x10x64x64 A shapeCasts_S64x10x4096_S64x10x64x64) (region_array m c)).trans
            (result_eq (m ((c.tc : Thread nD τ).loc main_arg0))))),
        ((h c).1 0).trans (((dats m 0 c).arrAt_in 0 rfl _).trans ((A_eq m c 0).trans (V_main_arg0 m c)))⟩)
    (run_main m ρ)

end Cert.KernelIdeal.Hand

end
-- ==== Proof.lean ====
/- The certificate's claims, assembled.

   The kernel computes, per batch and epoch, the Pearson correlation of the channel rows from the RAW second
   moments: cov(c, d) = sum_t x_c x_d - 600 * mean_c * mean_d, the diagonal read off through an identity mask; the
   reference centres each row first and takes cov(c, d) = sum_t (x_c - mean_c)(x_d - mean_d), the diagonal read off by
   a gather.  Both then form cov(c, d) / (sqrt cov(c, c) * sqrt cov(d, d)) and clip it to [-1, 1].

   * The kernel's run ends with its result at `Corr.GRaw` of the input (the blocks of the output window, each ten
     lane-dense slabs, laid over the batch axis and reshaped to [64, 10, 64, 64]).
   * The reference's run ends with its result at `refOut` of the input, which is `Corr.G` index by index.
   * On real entries the two covariances agree (`Corr.covRaw_eq_covCentered`), hence `GRaw = G`; the precondition
     says every entry's absolute value is below +infinity, so every entry is a real number.
   The three frames are the generated frames of the two kernel programs and the reference's run with its result
   dropped; the idealization rewrote nothing, so `preserves` is `True`. -/
import proofs.«147870_j56942676410883_2_alg».proof.Defs
import proofs.«147870_j56942676410883_2_alg».proof.Proof.Gen.Kernel
import proofs.«147870_j56942676410883_2_alg».proof.Proof.Gen.Kernel.Frame
import proofs.«147870_j56942676410883_2_alg».proof.Proof.Gen.KernelIdeal
import proofs.«147870_j56942676410883_2_alg».proof.Proof.Gen.KernelIdeal.Frame
import proofs.«147870_j56942676410883_2_alg».proof.Proof.Gen.ReferenceIdeal
import proofs.«147870_j56942676410883_2_alg».proof.Proof.Gen.Pre_finite_inputs
import proofs.«147870_j56942676410883_2_alg».proof.Proof.Spec
import proofs.«147870_j56942676410883_2_alg».proof.Proof.Finite
import proofs.«147870_j56942676410883_2_alg».proof.Proof.RefRunMain
import proofs.«147870_j56942676410883_2_alg».proof.Proof.RefReadOut
import proofs.«147870_j56942676410883_2_alg».proof.Proof.KernelRun
import Idealize.ShloMosaic.Adequacy
import Idealize.ShloMosaic.Init

noncomputable section

namespace Cert.Proof

open Idealize.ShloMosaic Idealize.SL.Sem

/-- The printed kernel runs and leaves its argument unchanged. -/
theorem frame_kernel : Cert.frame_Kernel (hKernel := Cert.Kernel.Gen.facts) (hPre_finite_inputs := Cert.Pre_finite_inputs.Gen.facts) :=
  fun m ρ _ => Cert.Kernel.Gen.frame m ρ

/-- So does its idealization. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its argument unchanged: its run, the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.HandRun.run (F := Ideal) m ρ)

/-- The idealization rewrote no operation. -/
theorem preserves : Cert.preserves_Kernel_KernelIdeal := trivial

/-- From memories agreeing on a finite input both programs end at one array: the kernel at the correlations by raw
    covariances, the reference at the correlations by centered covariances, equal on real entries. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => Cert.Corr.GRaw (m ((c.tc : Thread Cert.KernelIdeal.nD Cert.KernelIdeal.τ).loc Cert.KernelIdeal.main_arg0)), Cert.KernelIdeal.Hand.run m ρ, ?_⟩
  refine (θ_run Cert.ReferenceIdeal.defs _ _).mono (fun _ h c => ⟨(h c).1.trans ?_, (h c).2⟩)
    (Cert.ReferenceIdeal.HandRun.run (F := Ideal) m' ρ')
  rw [hagree c, Cert.ReferenceIdeal.Hand.refOut_eq]
  exact (Cert.Corr.GRaw_eq_G _ (Cert.Corr.real_of_pre _ (hpre c))).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
